-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x3 : Shape := ⟨3, ![16, 4096, 3]⟩
abbrev S_ : Shape := ⟨0, ![]⟩

class Facts : Prop where
  bcast_S_S16x4096x3 : S_.BroadcastsInDim S16x4096x3 (![] : Fin 0 → Fin S16x4096x3.rank)
  reducesTo_S16x4096x3_S_d0_1_2 : S16x4096x3.ReducesTo [0, 1, 2] S_
  h_S_ : 0 < S_.numel

variable [Facts]

def fn {F : FTy → Type} [FloatOps F] (main_arg0 : FVec F S16x4096x3 .f32) (main_arg1 : FVec F S16x4096x3 .f32) : IVec S_ 1 :=
  let main_v0 : FVec F S16x4096x3 .f32 := Host.absf main_arg0
  let main_cst : FVec F S_ .f32 := constant S_ .f32 0x7F800000#32
  let main_v1 : FVec F S16x4096x3 .f32 := broadcastInDim S16x4096x3 ![] bcast_S_S16x4096x3 main_cst
  let main_v2 : IVec S16x4096x3 1 := cmpf .olt main_v0 main_v1
  let main_c : IVec S_ 1 := constantI S_ 1 1#1
  let main_v3 : IVec S_ 1 := (fun x v => Host.reduce IntOp.andi x v reducesTo_S16x4096x3_S_d0_1_2 h_S_) main_v2 main_c
  let main_v4 : FVec F S16x4096x3 .f32 := Host.absf main_arg1
  let main_cst_0 : FVec F S_ .f32 := constant S_ .f32 0x7F800000#32
  let main_v5 : FVec F S16x4096x3 .f32 := broadcastInDim S16x4096x3 ![] bcast_S_S16x4096x3 main_cst_0
  let main_v6 : IVec S16x4096x3 1 := cmpf .olt main_v4 main_v5
  let main_c_1 : IVec S_ 1 := constantI S_ 1 1#1
  let main_v7 : IVec S_ 1 := (fun x v => Host.reduce IntOp.andi x v reducesTo_S16x4096x3_S_d0_1_2 h_S_) main_v6 main_c_1
  let main_v8 : IVec S_ 1 := andi main_v3 main_v7
  main_v8
-- ==== Kernel.lean ====
abbrev S16x4096x3 : Shape := ⟨3, ![16, 4096, 3]⟩
abbrev S_ : Shape := ⟨0, ![]⟩
abbrev S16x4096 : Shape := ⟨2, ![16, 4096]⟩
abbrev S16x4096x1 : Shape := ⟨3, ![16, 4096, 1]⟩
abbrev S16x1x4096 : Shape := ⟨3, ![16, 1, 4096]⟩
abbrev S1x2048x3 : Shape := ⟨3, ![1, 2048, 3]⟩
abbrev S1x2048x1 : Shape := ⟨3, ![1, 2048, 1]⟩
abbrev S1x1x2048 : Shape := ⟨3, ![1, 1, 2048]⟩
abbrev S1x1x4096 : Shape := ⟨3, ![1, 1, 4096]⟩
abbrev S4096 : Shape := ⟨1, ![4096]⟩
abbrev S2048 : Shape := ⟨1, ![2048]⟩
abbrev S2048x3 : Shape := ⟨2, ![2048, 3]⟩
abbrev S2048x1 : Shape := ⟨2, ![2048, 1]⟩
abbrev S1x2048 : Shape := ⟨2, ![1, 2048]⟩
abbrev S2048x2048 : Shape := ⟨2, ![2048, 2048]⟩

abbrev nBuf : Space → Nat
  | .hbm => 23
  | .vmem => 14
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x4096x3, .f32⟩
  | .hbm, ⟨3, _⟩ => ⟨S_, .f32⟩
  | .hbm, ⟨4, _⟩ => ⟨S16x4096, .f32⟩
  | .hbm, ⟨5, _⟩ => ⟨S16x4096x1, .f32⟩
  | .hbm, ⟨6, _⟩ => ⟨S16x4096x3, .f32⟩
  | .hbm, ⟨7, _⟩ => ⟨S_, .f32⟩
  | .hbm, ⟨8, _⟩ => ⟨S16x4096, .f32⟩
  | .hbm, ⟨9, _⟩ => ⟨S16x1x4096, .f32⟩
  | .hbm, ⟨10, _⟩ => ⟨S16x1x4096, .f32⟩
  | .hbm, ⟨11, _⟩ => ⟨S16x1x4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S1x2048x3, .f32⟩
  | .local _ .vmem, ⟨1, _⟩ => ⟨S1x2048x3, .f32⟩
  | .local _ .vmem, ⟨2, _⟩ => ⟨S1x2048x3, .f32⟩
  | .local _ .vmem, ⟨3, _⟩ => ⟨S1x2048x3, .f32⟩
  | .local _ .vmem, ⟨4, _⟩ => ⟨S1x2048x1, .f32⟩
  | .local _ .vmem, ⟨5, _⟩ => ⟨S1x2048x1, .f32⟩
  | .local _ .vmem, ⟨6, _⟩ => ⟨S1x1x2048, .f32⟩
  | .local _ .vmem, ⟨7, _⟩ => ⟨S1x1x2048, .f32⟩
  | .local _ .vmem, ⟨8, _⟩ => ⟨S1x1x4096, .f32⟩
  | .local _ .vmem, ⟨9, _⟩ => ⟨S1x1x4096, .f32⟩
  | .local _ .vmem, ⟨10, _⟩ => ⟨S1x1x4096, .f32⟩
  | .local _ .vmem, ⟨11, _⟩ => ⟨S1x1x4096, .f32⟩
  | .local _ .vmem, ⟨12, _⟩ => ⟨S4096, .f32⟩
  | .local _ .vmem, ⟨13, _⟩ => ⟨S4096, .f32⟩
  | _, _ => ⟨S16x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_cst_4 : Ref sig .tc := ⟨.hbm, 18, rfl⟩
abbrev main_v10 : Ref sig .tc := ⟨.hbm, 19, rfl⟩
abbrev main_v11 : Ref sig .tc := ⟨.hbm, 20, rfl⟩
abbrev main_cst_5 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 2, 2], ![false, false, false]⟩

def k0_mult1 (i : grid0.Coords) : BitVec 32 :=
  let arg2 : BitVec 32 := BitVec.ofNat 32 (i 2).val
  let c2048_i32 : BitVec 32 := 2048#32
  let v0 : BitVec 32 := Scalar.muli arg2 c2048_i32
  v0
def k0_mult2 (i : grid0.Coords) : BitVec 32 :=
  let arg1 : BitVec 32 := BitVec.ofNat 32 (i 1).val
  let c2048_i32_0 : BitVec 32 := 2048#32
  let v2 : BitVec 32 := Scalar.muli arg1 c2048_i32_0
  v2
def k0_cond2 (i : grid0.Coords) : BitVec 1 :=
  let arg2 : BitVec 32 := BitVec.ofNat 32 (i 2).val
  let c0_i32_3 : BitVec 32 := 0#32
  let v9 : BitVec 1 := Scalar.cmpi .eq arg2 c0_i32_3
  let v10 : BitVec 32 := Scalar.extui v9
  let c0_i32_4 : BitVec 32 := 0#32
  let v11 : BitVec 1 := Scalar.cmpi .ne v10 c0_i32_4
  v11

def k0_off1 (i : grid0.Coords) : Fin 1 → Nat :=
  let arg1 : BitVec 32 := BitVec.ofNat 32 (i 1).val
  let c2048_i32_0 : BitVec 32 := 2048#32
  let v2 : BitVec 32 := Scalar.muli arg1 c2048_i32_0
  let v3 : BitVec 32 := v2
  let v51 : Index := Scalar.indexCast v3
  ![v51.toNat]
def k0_off2 (i : grid0.Coords) : Fin 1 → Nat :=
  let arg2 : BitVec 32 := BitVec.ofNat 32 (i 2).val
  let c2048_i32 : BitVec 32 := 2048#32
  let v0 : BitVec 32 := Scalar.muli arg2 c2048_i32
  let v1 : BitVec 32 := v0
  let v31 : Index := Scalar.indexCast v1
  ![v31.toNat]
def k0_off3 (i : grid0.Coords) : Fin 1 → Nat :=
  let arg1 : BitVec 32 := BitVec.ofNat 32 (i 1).val
  let c2048_i32_0 : BitVec 32 := 2048#32
  let v2 : BitVec 32 := Scalar.muli arg1 c2048_i32_0
  let v3 : BitVec 32 := v2
  let v38 : Index := Scalar.indexCast v3
  ![v38.toNat]
def k0_cond3 (i : grid0.Coords) : BitVec 1 :=
  let arg1 : BitVec 32 := BitVec.ofNat 32 (i 1).val
  let c1_i32 : BitVec 32 := 1#32
  let v45 : BitVec 1 := Scalar.cmpi .eq arg1 c1_i32
  let arg2 : BitVec 32 := BitVec.ofNat 32 (i 2).val
  let c1_i32_20 : BitVec 32 := 1#32
  let v46 : BitVec 1 := Scalar.cmpi .eq arg2 c1_i32_20
  let v47 : BitVec 1 := Scalar.andi v45 v46
  let v48 : BitVec 32 := Scalar.extui v47
  let c0_i32_21 : BitVec 32 := 0#32
  let v49 : BitVec 1 := Scalar.cmpi .ne v48 c0_i32_21
  v49

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

class Facts₀ : Prop where
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  bcast_S16x4096_S16x1x4096_0_2 : S16x4096.BroadcastsInDim S16x1x4096 (![0, 2] : Fin 2 → Fin S16x1x4096.rank)
  inb_S4096_S4096_0 : ∀ a, (![0] : Fin 1 → Nat) a + S4096.size a ≤ S4096.size a
  h_S4096 : 0 < S4096.numel
  shapeCasts_S4096_S4096 : S4096.ShapeCasts S4096
  h_S2048 : 0 < S2048.numel
  shapeCasts_S2048_S2048 : S2048.ShapeCasts S2048
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S2048x1_S2048x2048 : S2048x1.Broadcasts S2048x2048
  broadcasts_S1x2048_S2048x2048 : S1x2048.Broadcasts S2048x2048
  reduces_S2048x2048_S2048 : S2048x2048.Reduces [1] S2048
  reduces_S2048x2048_S2048_2 : S2048x2048.Reduces [0] S2048
  shapeCasts_S4096_S1x1x4096 : S4096.ShapeCasts S1x1x4096
  inb_S1x1x4096_S1x1x4096_0_0_0 : ∀ a, (![0, 0, 0] : Fin 3 → Nat) a + S1x1x4096.size a ≤ S1x1x4096.size a
  h_S1x1x4096 : 0 < S1x1x4096.numel
  reducesTo_S16x1x4096_S_d0_1_2 : S16x1x4096.ReducesTo [0, 1, 2] S_
  dot_S2048x3_S2048x3_S2048x2048_1_1_0_0_n_n_wf : DotDims.WF S2048x3 S2048x3 S2048x2048 [1] [1] [0] [0] [] []
  hrank0 : 0 < grid0.rank
  k0_mult1_dvd : ∀ i : grid0.Coords, 2048 ∣ (k0_mult1 i).toNat
  k0_mult2_dvd : ∀ i : grid0.Coords, 2048 ∣ (k0_mult2 i).toNat
  k0_off1_inb : ∀ i : grid0.Coords, ∀ (k0_h2 : k0_cond2 i = 1#1), ∀ a, (k0_off1 i) a + S2048.size a ≤ S4096.size a
  k0_off2_inb : ∀ i : grid0.Coords, ∀ a, (k0_off2 i) a + S2048.size a ≤ S4096.size a
  k0_off3_inb : ∀ i : grid0.Coords, ∀ a, (k0_off3 i) a + S2048.size a ≤ S4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x3.size a ≤ S16x4096x3.size a
  hwx0_0 : ∀ i : grid0.Coords, EltTy.bits .f32 = 32 ∨ (Rect.block (s := S16x4096x3) S1x2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x3.size a ≤ S16x4096x3.size a
  hwx0_1 : ∀ i : grid0.Coords, EltTy.bits .f32 = 32 ∨ (Rect.block (s := S16x4096x3) S1x2048x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1.size a ≤ S16x4096x1.size a
  hwx0_2 : ∀ i : grid0.Coords, EltTy.bits .f32 = 32 ∨ (Rect.block (s := S16x4096x1) S1x2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S16x1x4096.size a
  hwx0_3 : ∀ i : grid0.Coords, EltTy.bits .f32 = 32 ∨ (Rect.block (s := S16x1x4096) S1x1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x4096.size a ≤ S16x1x4096.size a
  hwx0_4 : ∀ i : grid0.Coords, EltTy.bits .f32 = 32 ∨ (Rect.block (s := S16x1x4096) S1x1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x4096.size a ≤ S16x1x4096.size a
  hwx0_5 : ∀ i : grid0.Coords, EltTy.bits .f32 = 32 ∨ (Rect.block (s := S16x1x4096) S1x1x4096.size (cc0_transform_5 i) (hinb0_5 i)).WholeWords (EltTy.packing .f32)

variable [Facts₀]

def dot_S2048x3_S2048x3_S2048x2048_1_1_0_0_n_n : DotDims S2048x3 S2048x3 S2048x2048 where
  lhsContracting := [1]
  rhsContracting := [1]
  lhsNonContracting := [0]
  rhsNonContracting := [0]
  lhsBatch := []
  rhsBatch := []
  wf := dot_S2048x3_S2048x3_S2048x2048_1_1_0_0_n_n_wf

abbrev win0_0 : Pipeline.Window sig grid0 :=
  Pipeline.Window.ofSpec (Memref.whole main_arg0) S1x2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S1x1x4096.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S1x1x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond3 i == 1#1) | 5 => fun i => !(k0_cond3 i == 1#1) | ⟨_ + 6, h⟩ => absurd h (Nat.not_lt.2 (Nat.le_add_left _ _))

class Facts : Prop extends Facts₀ where

variable [Facts]
-- ==== ReferenceIdeal.lean ====
abbrev S16x4096x3 : Shape := ⟨3, ![16, 4096, 3]⟩
abbrev S_ : Shape := ⟨0, ![]⟩
abbrev S16x4096 : Shape := ⟨2, ![16, 4096]⟩
abbrev S16x4096x4096 : Shape := ⟨3, ![16, 4096, 4096]⟩
abbrev S16x4096x1 : Shape := ⟨3, ![16, 4096, 1]⟩
abbrev S16x1x4096 : Shape := ⟨3, ![16, 1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x4096x3, .f32⟩
  | .hbm, ⟨3, _⟩ => ⟨S_, .f32⟩
  | .hbm, ⟨4, _⟩ => ⟨S16x4096, .f32⟩
  | .hbm, ⟨5, _⟩ => ⟨S16x4096x3, .f32⟩
  | .hbm, ⟨6, _⟩ => ⟨S_, .f32⟩
  | .hbm, ⟨7, _⟩ => ⟨S16x4096, .f32⟩
  | .hbm, ⟨8, _⟩ => ⟨S16x4096x4096, .f32⟩
  | .hbm, ⟨9, _⟩ => ⟨S16x4096x1, .f32⟩
  | .hbm, ⟨10, _⟩ => ⟨S16x1x4096, .f32⟩
  | .hbm, ⟨11, _⟩ => ⟨S16x4096x4096, .f32⟩
  | .hbm, ⟨12, _⟩ => ⟨S16x4096x4096, .f32⟩
  | .hbm, ⟨13, _⟩ => ⟨S16x4096x4096, .f32⟩
  | .hbm, ⟨14, _⟩ => ⟨S_, .f32⟩
  | .hbm, ⟨15, _⟩ => ⟨S16x4096x4096, .f32⟩
  | .hbm, ⟨16, _⟩ => ⟨S16x4096x4096, .f32⟩
  | .hbm, ⟨17, _⟩ => ⟨S16x4096x4096, .f32⟩
  | .hbm, ⟨18, _⟩ => ⟨S_, .f32⟩
  | .hbm, ⟨19, _⟩ => ⟨S16x4096x4096, .f32⟩
  | .hbm, ⟨20, _⟩ => ⟨S16x4096x4096, .f32⟩
  | .hbm, ⟨21, _⟩ => ⟨S_, .f32⟩
  | .hbm, ⟨22, _⟩ => ⟨S16x4096, .f32⟩
  | .hbm, ⟨23, _⟩ => ⟨S16x4096, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S16x4096, .f32⟩
  | .hbm, ⟨30, _⟩ => ⟨S16x4096, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S16x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  bcast_S16x4096_S16x1x4096_0_2 : S16x4096.BroadcastsInDim S16x1x4096 (![0, 2] : Fin 2 → Fin S16x1x4096.rank)
  bcast_S16x4096x1_S16x4096x4096_0_1_2 : S16x4096x1.BroadcastsInDim S16x4096x4096 (![0, 1, 2] : Fin 3 → Fin S16x4096x4096.rank)
  bcast_S16x1x4096_S16x4096x4096_0_1_2 : S16x1x4096.BroadcastsInDim S16x4096x4096 (![0, 1, 2] : Fin 3 → Fin S16x4096x4096.rank)
  bcast_S_S16x4096x4096 : S_.BroadcastsInDim S16x4096x4096 (![] : Fin 0 → Fin S16x4096x4096.rank)
  reducesTo_S16x4096x4096_S16x4096_d1 : S16x4096x4096.ReducesTo [1] S16x4096
  reducesTo_S16x4096_S_d0_1 : S16x4096.ReducesTo [0, 1] S_
  reducesTo_S16x4096x4096_S16x4096_d2 : S16x4096x4096.ReducesTo [2] S16x4096
  dot_S16x4096x3_S16x4096x3_S16x4096x4096_2_2_1_1_0_0_wf : DotDims.WF S16x4096x3 S16x4096x3 S16x4096x4096 [2] [2] [1] [1] [0] [0]

variable [Facts₀]

def dot_S16x4096x3_S16x4096x3_S16x4096x4096_2_2_1_1_0_0 : DotDims S16x4096x3 S16x4096x3 S16x4096x4096 where
  lhsContracting := [2]
  rhsContracting := [2]
  lhsNonContracting := [1]
  rhsNonContracting := [1]
  lhsBatch := [0]
  rhsBatch := [0]
  wf := dot_S16x4096x3_S16x4096x3_S16x4096x4096_2_2_1_1_0_0_wf

class Facts : Prop extends Facts₀ where

variable [Facts]
-- ==== Proof.K.Shared.lean ====
/-
  What the four runs of the kernel body share. The grid is (batch, source tile j, template tile i), i fastest, so
  point t has j = (t / 2) % 2 and i = t % 2, and a batch is four consecutive points. The body has three branches:
  at the batch's first point (j = 0 and i = 0) it fills the row accumulator with +inf; at i = 0 it fills the
  column accumulator's j-th half with +inf; at the batch's last point (j = 1 and i = 1) it stores the square
  roots of both accumulators. Here: the three conditions and at which points they hold, where the two outputs
  are idle, the memrefs the body is called with, and the class invariant spelt over the two scratch memrefs.
-/
import proofs.«104914_j13314398618340_2_alg».proof.Proof.Gen.Kernel.Frame
import proofs.«104914_j13314398618340_2_alg».proof.Proof.Gen.Kernel.Skeleton
import Idealize.ShloMosaic.Lib.WritesUnit
import Idealize.ShloMosaic.Lib.WholeRead

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- j = 0 and i = 0: the batch's first point (the body's first branch, its scalar chain substituted). -/
abbrev atFirst (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
theorem atFirst_iff : ∀ t : Fin cfg0.N, atFirst (grid0.coords t) ↔ t.val % 4 = 0 :=
  (by decide +kernel : ∀ t : Fin grid0.N, atFirst (grid0.coords t) ↔ t.val % 4 = 0)

/-- i = 0: the start of a sweep over the template tiles (the second branch). -/
abbrev atSweep (i : grid0.Coords) : Prop := k0_cond2 i = 1#1
theorem atSweep_iff : ∀ t : Fin cfg0.N, atSweep (grid0.coords t) ↔ t.val % 2 = 0 :=
  (by decide +kernel : ∀ t : Fin grid0.N, atSweep (grid0.coords t) ↔ t.val % 2 = 0)

/-- j = 1 and i = 1: the batch's last point (the third branch). -/
abbrev atLast (i : grid0.Coords) : Prop := k0_cond3 i = 1#1
theorem atLast_iff : ∀ t : Fin cfg0.N, atLast (grid0.coords t) ↔ t.val % 4 = 3 :=
  (by decide +kernel : ∀ t : Fin grid0.N, atLast (grid0.coords t) ↔ t.val % 4 = 3)

/-- The offsets of the three accesses of the accumulators, in closed form: the column accumulator's half is j's,
    the row accumulator's half is i's. -/
theorem off1_eq : ∀ t : Fin cfg0.N, k0_off1 (grid0.coords t) = ![2048 * ((t.val / 2) % 2)] :=
  (by decide +kernel : ∀ t : Fin grid0.N, k0_off1 (grid0.coords t) = ![2048 * ((t.val / 2) % 2)])
theorem off2_eq : ∀ t : Fin cfg0.N, k0_off2 (grid0.coords t) = ![2048 * (t.val % 2)] :=
  (by decide +kernel : ∀ t : Fin grid0.N, k0_off2 (grid0.coords t) = ![2048 * (t.val % 2)])
theorem off3_eq : ∀ t : Fin cfg0.N, k0_off3 (grid0.coords t) = ![2048 * ((t.val / 2) % 2)] :=
  (by decide +kernel : ∀ t : Fin grid0.N, k0_off3 (grid0.coords t) = ![2048 * ((t.val / 2) % 2)])

/-- The inputs are never idle; the outputs are idle and not written back except at the batch's last point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem idle4 : ∀ t : Fin cfg0.N, ¬atLast (grid0.coords t) → cfg0.idle 4 (grid0.coords t) = true := by decide +kernel
theorem idle5 : ∀ t : Fin cfg0.N, ¬atLast (grid0.coords t) → cfg0.idle 5 (grid0.coords t) = true := by decide +kernel
theorem noFlush4 : ∀ t : Fin cfg0.N, ¬atLast (grid0.coords t) → (cfg0.win 4).flush t = false := by decide +kernel
theorem noFlush5 : ∀ t : Fin cfg0.N, ¬atLast (grid0.coords t) → (cfg0.win 5).flush t = false := by decide +kernel
theorem live4 : ∀ t : Fin cfg0.N, atLast (grid0.coords t) → cfg0.idle 4 (grid0.coords t) = false := by decide +kernel
theorem live5 : ∀ t : Fin cfg0.N, atLast (grid0.coords t) → cfg0.idle 5 (grid0.coords t) = false := by decide +kernel

/-- Each window's current staging memref at point t, as the pipeline passes it, and its wholeness. -/
abbrev ms0 (t : Fin cfg0.N) : Memref sig .tc .vmem S1x2048x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x4096 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x4096 .f32 := win0_5.stage (cfg0.slots t 5)
abbrev hs5 (t : Fin cfg0.N) : (ms5 t).IsWhole := hstage0_5 ((cfg0.slots t 5).cast nbuf0_5)
/-- The row accumulator (min over the source points) and the column accumulator (min over the template points). -/
abbrev rowM : Memref sig .tc .vmem S4096 .f32 := Memref.whole cc0_scratch0
abbrev colM : Memref sig .tc .vmem S4096 .f32 := Memref.whole cc0_scratch1
theorem rowM_whole : (rowM).IsWhole := Memref.isWhole_whole _
theorem colM_whole : (colM).IsWhole := Memref.isWhole_whole _

/-- The class invariant: both accumulators owned at some contents, and the generator register. -/
theorem PhiA_eq (c : Dev nD) :
    (Pipeline.ΦA spec0 c : sProp 𝕄)
      = iprop(iprop((∃ d, owns (c : Thread nD τ) rowM fullShare d) ∗ (∃ d, owns (c : Thread nD τ) colM fullShare d)) ∗ (∃ r, prngReg c r)) := by
  unfold Pipeline.ΦA; rw [scopedRest0_eq]; simp only [rowM, colM, owns_whole]; try rfl

end Cert.Kernel.Hand

end
-- ==== Proof.K.RunA.lean ====
/-
  The kernel body run at the batch's first point (j = 0, i = 0): both fills, no output store. On whole staging memrefs — the inputs at their blocks, both accumulators at
  given contents (the row accumulator, filled whole here, ends independent of them) — the body runs to a continuation that holds the inputs as they were and each accumulator with
  the pieces this point stored written over what it held; the lists of pieces are the witness the run finds.
-/
import proofs.«104914_j13314398618340_2_alg».proof.Proof.K.Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The pieces the body stores at such a point, with the body's triple. -/
noncomputable def runA (c : Dev nD) (i : grid0.Coords) (arg3 : Memref sig .tc .vmem S1x2048x3 .f32) (harg3 : arg3.IsWhole) (arg4 : Memref sig .tc .vmem S1x2048x3 .f32) (harg4 : arg4.IsWhole) (arg5 : Memref sig .tc .vmem S1x2048x1 .f32) (harg5 : arg5.IsWhole) (arg6 : Memref sig .tc .vmem S1x1x2048 .f32) (harg6 : arg6.IsWhole) (arg7 : Memref sig .tc .vmem S1x1x4096 .f32) (harg7 : arg7.IsWhole) (arg8 : Memref sig .tc .vmem S1x1x4096 .f32) (harg8 : arg8.IsWhole) (arg9 : Memref sig .tc .vmem S4096 .f32) (harg9 : arg9.IsWhole) (arg10 : Memref sig .tc .vmem S4096 .f32) (harg10 : arg10.IsWhole) (h1 : atFirst i) (h2 : atSweep i) (h3 : ¬atLast i)
    (x0 : Vec F S1x2048x3 .f32) (x1 : Vec F S1x2048x3 .f32) (x2 : Vec F S1x2048x1 .f32) (x3 : Vec F S1x1x2048 .f32) (xs0 : Vec F S4096 .f32) (xs1 : Vec F S4096 .f32) :
    Σ' (LS0 : List (View.Piece (Elt F) S4096 .f32)), { LS1 : List (View.Piece (Elt F) S4096 .f32) //
      ∀ (xi4 xi5 : Vec F S1x1x4096 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5
            ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5
                ∗ (∃ f, arg9.view.loc (c : Thread nD τ) ↦[arg9.view.set]{fullShare} arg9.view.writes (Elt F) f LS0) ∗ (arg10.view.loc (c : Thread nD τ) ↦[arg10.view.set]{fullShare} arg10.view.writes (Elt F) (harg10.unread xs1) LS1)) -∗ K ⟨⟩))
          ⊢ wp frame (wpE (defs₀ (F := F)) Variants.none c none) E (cc0_kernel i arg3 harg3 arg4 harg4 arg5 harg5 arg6 harg6 arg7 harg7 arg8 harg8 arg9 harg9 arg10 harg10) K } := by
  refine ⟨?_, ?_, fun xi4 xi5 E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5
    obtain rfl := harg9.eq_unread hfs0; obtain rfl := harg10.eq_unread hfs1
    sl_exec (disch := first | exact h1 | exact h2 | exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    iexact HS1

end Cert.Kernel.Hand

end
-- ==== Proof.K.RunB.lean ====
/-
  The kernel body run at j = 0, i = 1: no fill, no output store. On whole staging memrefs — the inputs at their blocks, both accumulators at
  given contents — the body runs to a continuation that holds the inputs as they were and each accumulator with
  the pieces this point stored written over what it held; the lists of pieces are the witness the run finds.
-/
import proofs.«104914_j13314398618340_2_alg».proof.Proof.K.RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The pieces the body stores at such a point, with the body's triple. -/
noncomputable def runB (c : Dev nD) (i : grid0.Coords) (arg3 : Memref sig .tc .vmem S1x2048x3 .f32) (harg3 : arg3.IsWhole) (arg4 : Memref sig .tc .vmem S1x2048x3 .f32) (harg4 : arg4.IsWhole) (arg5 : Memref sig .tc .vmem S1x2048x1 .f32) (harg5 : arg5.IsWhole) (arg6 : Memref sig .tc .vmem S1x1x2048 .f32) (harg6 : arg6.IsWhole) (arg7 : Memref sig .tc .vmem S1x1x4096 .f32) (harg7 : arg7.IsWhole) (arg8 : Memref sig .tc .vmem S1x1x4096 .f32) (harg8 : arg8.IsWhole) (arg9 : Memref sig .tc .vmem S4096 .f32) (harg9 : arg9.IsWhole) (arg10 : Memref sig .tc .vmem S4096 .f32) (harg10 : arg10.IsWhole) (h1 : ¬atFirst i) (h2 : ¬atSweep i) (h3 : ¬atLast i)
    (x0 : Vec F S1x2048x3 .f32) (x1 : Vec F S1x2048x3 .f32) (x2 : Vec F S1x2048x1 .f32) (x3 : Vec F S1x1x2048 .f32) (xs0 : Vec F S4096 .f32) (xs1 : Vec F S4096 .f32) :
    Σ' (LS0 : List (View.Piece (Elt F) S4096 .f32)), { LS1 : List (View.Piece (Elt F) S4096 .f32) //
      ∀ (xi4 xi5 : Vec F S1x1x4096 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5
            ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5
                ∗ (arg9.view.loc (c : Thread nD τ) ↦[arg9.view.set]{fullShare} arg9.view.writes (Elt F) (harg9.unread xs0) LS0) ∗ (arg10.view.loc (c : Thread nD τ) ↦[arg10.view.set]{fullShare} arg10.view.writes (Elt F) (harg10.unread xs1) LS1)) -∗ K ⟨⟩))
          ⊢ wp frame (wpE (defs₀ (F := F)) Variants.none c none) E (cc0_kernel i arg3 harg3 arg4 harg4 arg5 harg5 arg6 harg6 arg7 harg7 arg8 harg8 arg9 harg9 arg10 harg10) K } := by
  refine ⟨?_, ?_, fun xi4 xi5 E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5
    obtain rfl := harg9.eq_unread hfs0; obtain rfl := harg10.eq_unread hfs1
    sl_exec (disch := first | exact h1 | exact h2 | exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexact HS0
    iexact HS1

end Cert.Kernel.Hand

end
-- ==== Proof.K.RunC.lean ====
/-
  The kernel body run at j = 1, i = 0: the column accumulator's half filled, no output store. On whole staging memrefs — the inputs at their blocks, both accumulators at
  given contents — the body runs to a continuation that holds the inputs as they were and each accumulator with
  the pieces this point stored written over what it held; the lists of pieces are the witness the run finds.
-/
import proofs.«104914_j13314398618340_2_alg».proof.Proof.K.RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The pieces the body stores at such a point, with the body's triple. -/
noncomputable def runC (c : Dev nD) (i : grid0.Coords) (arg3 : Memref sig .tc .vmem S1x2048x3 .f32) (harg3 : arg3.IsWhole) (arg4 : Memref sig .tc .vmem S1x2048x3 .f32) (harg4 : arg4.IsWhole) (arg5 : Memref sig .tc .vmem S1x2048x1 .f32) (harg5 : arg5.IsWhole) (arg6 : Memref sig .tc .vmem S1x1x2048 .f32) (harg6 : arg6.IsWhole) (arg7 : Memref sig .tc .vmem S1x1x4096 .f32) (harg7 : arg7.IsWhole) (arg8 : Memref sig .tc .vmem S1x1x4096 .f32) (harg8 : arg8.IsWhole) (arg9 : Memref sig .tc .vmem S4096 .f32) (harg9 : arg9.IsWhole) (arg10 : Memref sig .tc .vmem S4096 .f32) (harg10 : arg10.IsWhole) (h1 : ¬atFirst i) (h2 : atSweep i) (h3 : ¬atLast i)
    (x0 : Vec F S1x2048x3 .f32) (x1 : Vec F S1x2048x3 .f32) (x2 : Vec F S1x2048x1 .f32) (x3 : Vec F S1x1x2048 .f32) (xs0 : Vec F S4096 .f32) (xs1 : Vec F S4096 .f32) :
    Σ' (LS0 : List (View.Piece (Elt F) S4096 .f32)), { LS1 : List (View.Piece (Elt F) S4096 .f32) //
      ∀ (xi4 xi5 : Vec F S1x1x4096 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5
            ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5
                ∗ (arg9.view.loc (c : Thread nD τ) ↦[arg9.view.set]{fullShare} arg9.view.writes (Elt F) (harg9.unread xs0) LS0) ∗ (arg10.view.loc (c : Thread nD τ) ↦[arg10.view.set]{fullShare} arg10.view.writes (Elt F) (harg10.unread xs1) LS1)) -∗ K ⟨⟩))
          ⊢ wp frame (wpE (defs₀ (F := F)) Variants.none c none) E (cc0_kernel i arg3 harg3 arg4 harg4 arg5 harg5 arg6 harg6 arg7 harg7 arg8 harg8 arg9 harg9 arg10 harg10) K } := by
  refine ⟨?_, ?_, fun xi4 xi5 E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5
    obtain rfl := harg9.eq_unread hfs0; obtain rfl := harg10.eq_unread hfs1
    sl_exec (disch := first | exact h1 | exact h2 | exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexact HS0
    iexact HS1

end Cert.Kernel.Hand

end
-- ==== Proof.K.RunD.lean ====
/-
  The kernel body run at the batch's last point (j = 1, i = 1): no fill, both outputs stored. On whole staging memrefs — the inputs at their blocks, both accumulators at
  given contents — the body runs to a continuation that holds the inputs as they were and each accumulator with
  the pieces this point stored written over what it held; the lists of pieces are the witness the run finds.
-/
import proofs.«104914_j13314398618340_2_alg».proof.Proof.K.RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The pieces the body stores at such a point, with the body's triple. -/
noncomputable def runD (c : Dev nD) (i : grid0.Coords) (arg3 : Memref sig .tc .vmem S1x2048x3 .f32) (harg3 : arg3.IsWhole) (arg4 : Memref sig .tc .vmem S1x2048x3 .f32) (harg4 : arg4.IsWhole) (arg5 : Memref sig .tc .vmem S1x2048x1 .f32) (harg5 : arg5.IsWhole) (arg6 : Memref sig .tc .vmem S1x1x2048 .f32) (harg6 : arg6.IsWhole) (arg7 : Memref sig .tc .vmem S1x1x4096 .f32) (harg7 : arg7.IsWhole) (arg8 : Memref sig .tc .vmem S1x1x4096 .f32) (harg8 : arg8.IsWhole) (arg9 : Memref sig .tc .vmem S4096 .f32) (harg9 : arg9.IsWhole) (arg10 : Memref sig .tc .vmem S4096 .f32) (harg10 : arg10.IsWhole) (h1 : ¬atFirst i) (h2 : ¬atSweep i) (h3 : atLast i)
    (x0 : Vec F S1x2048x3 .f32) (x1 : Vec F S1x2048x3 .f32) (x2 : Vec F S1x2048x1 .f32) (x3 : Vec F S1x1x2048 .f32) (xs0 : Vec F S4096 .f32) (xs1 : Vec F S4096 .f32) :
    Σ' (L4 : List (View.Piece (Elt F) S1x1x4096 .f32)) (L5 : List (View.Piece (Elt F) S1x1x4096 .f32)) (LS0 : List (View.Piece (Elt F) S4096 .f32)), { LS1 : List (View.Piece (Elt F) S4096 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d)
            ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5)
                ∗ (arg9.view.loc (c : Thread nD τ) ↦[arg9.view.set]{fullShare} arg9.view.writes (Elt F) (harg9.unread xs0) LS0) ∗ (arg10.view.loc (c : Thread nD τ) ↦[arg10.view.set]{fullShare} arg10.view.writes (Elt F) (harg10.unread xs1) LS1)) -∗ K ⟨⟩))
          ⊢ wp frame (wpE (defs₀ (F := F)) Variants.none c none) E (cc0_kernel i arg3 harg3 arg4 harg4 arg5 harg5 arg6 harg6 arg7 harg7 arg8 harg8 arg9 harg9 arg10 harg10) K } := by
  refine ⟨?_, ?_, ?_, ?_, fun E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3

    obtain rfl := harg9.eq_unread hfs0; obtain rfl := harg10.eq_unread hfs1
    sl_exec (disch := first | exact h1 | exact h2 | exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    isplitl [HS0]; · iexact HS0
    iexact HS1

end Cert.Kernel.Hand

end
-- ==== Proof.K.Track.lean ====
/-
  The two accumulators point by point. Each is a vector of 4096 entries used as two halves of 2048: the row
  accumulator's half i holds, for each template point of tile i, the least squared distance to the source points
  swept so far; the column accumulator's half j the same for the source points of tile j against the template
  points swept so far. Within a batch the four points (j, i) = (0,0), (0,1), (1,0), (1,1) update, in this order,
  (row half 0, column half 0), (row half 1, column half 0), (row half 0, column half 1), (row half 1, column
  half 1); the row accumulator is reset to +inf at (0,0) and the column half j at (j,0). The column
  accumulator's upper half is written only from the third point of a batch on: before that it holds whatever the
  previous batch (or nothing) left, and nothing reads it.
-/
import proofs.«104914_j13314398618340_2_alg».proof.Proof.K.Shared
import Idealize.ShloMosaic.Lib.ValueIdx

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

/-- The lower half of a vector of 4096. -/
def lo (X : Vec F S4096 .f32) : Vec F S2048 .f32 :=
  fun y => X (ix1 ⟨(y 0).val, Nat.lt_trans (show (y 0).val < 2048 from (y 0).isLt) (by decide)⟩)
/-- The upper half. -/
def hi (X : Vec F S4096 .f32) : Vec F S2048 .f32 :=
  fun y => X (ix1 ⟨2048 + (y 0).val, by have : (y 0).val < 2048 := (y 0).isLt; omega⟩)
/-- Two halves side by side. -/
def join (a b : Vec F S2048 .f32) : Vec F S4096 .f32 :=
  fun y => if h : (y 0).val < 2048 then a (ix1 ⟨(y 0).val, h⟩)
    else b (ix1 ⟨(y 0).val - 2048, by have : (y 0).val < 4096 := (y 0).isLt; omega⟩)

theorem join_lo_hi (X : Vec F S4096 .f32) : join (lo X) (hi X) = X := by
  funext y
  unfold join lo hi
  by_cases h : (y 0).val < 2048
  · rw [dif_pos h]; exact congrArg X (by funext d; match d with | ⟨0, _⟩ => rfl)
  · rw [dif_neg h]
    refine congrArg X ?_
    funext d; match d with
    | ⟨0, _⟩ => exact Fin.ext (by show 2048 + ((y 0).val - 2048) = (y 0).val; omega)

variable (m : (ℓ : Loc nD τ sig) → Buf (Elt F) ℓ)

/-- The tile's row minima at point t: for each template point of the tile, the least clamped squared distance to
    the tile's source points. -/
def rowMin (c : Dev nD) (t : Fin cfg0.N) : FVec F S2048 .f32 :=
  k0_pay8 (iblk m c 0 t) (iblk m c 1 t) (iblk m c 2 t) (iblk m c 3 t)
/-- The tile's column minima at point t. -/
def colMin (c : Dev nD) (t : Fin cfg0.N) : FVec F S2048 .f32 :=
  k0_pay9 (iblk m c 0 t) (iblk m c 1 t) (iblk m c 2 t) (iblk m c 3 t)

/-- The four halves after a point. -/
structure Halves (F : FTy → Type) where
  rlo : Vec F S2048 .f32
  rhi : Vec F S2048 .f32
  clo : Vec F S2048 .f32
  chi : Vec F S2048 .f32

/-- One point's update of the halves, by the point's place in its batch. -/
def stepHalves (c : Dev nD) (t : Fin cfg0.N) (p : Halves F) : Halves F :=
  if t.val % 4 = 0 then
    ⟨k0_pay1 (rowMin m c t) (lo (k0_pay5 (F := F))), hi (k0_pay5 (F := F)), k0_pay2 (colMin m c t) (k0_pay6 (F := F)), p.chi⟩
  else if t.val % 4 = 1 then
    ⟨p.rlo, k0_pay1 (rowMin m c t) p.rhi, k0_pay2 (colMin m c t) p.clo, p.chi⟩
  else if t.val % 4 = 2 then
    ⟨k0_pay1 (rowMin m c t) p.rlo, p.rhi, p.clo, k0_pay2 (colMin m c t) (k0_pay6 (F := F))⟩
  else
    ⟨p.rlo, k0_pay1 (rowMin m c t) p.rhi, p.clo, k0_pay2 (colMin m c t) p.chi⟩

/-- The halves after point n (the upper column half is meaningful from the third point of a batch on). -/
def halvesAt (c : Dev nD) : (n : ℕ) → n < cfg0.N → Halves F
  | 0, hn => stepHalves m c ⟨0, hn⟩ ⟨lo (k0_pay5 (F := F)), hi (k0_pay5 (F := F)), k0_pay6 (F := F), k0_pay6 (F := F)⟩
  | n + 1, hn => stepHalves m c ⟨n + 1, hn⟩ (halvesAt c n (Nat.lt_of_succ_lt hn))

theorem halvesAt_succ (c : Dev nD) (n : ℕ) (hn : n + 1 < cfg0.N) :
    halvesAt m c (n + 1) hn = stepHalves m c ⟨n + 1, hn⟩ (halvesAt m c n (Nat.lt_of_succ_lt hn)) := rfl

/-- What the accumulators hold after point n: the row accumulator's halves, the column accumulator's lower half,
    and from the third point of a batch on its upper half. -/
def Tracked (c : Dev nD) (n : ℕ) (hn : n < cfg0.N) (R C : Vec F S4096 .f32) : Prop :=
  lo R = (halvesAt m c n hn).rlo ∧ hi R = (halvesAt m c n hn).rhi ∧ lo C = (halvesAt m c n hn).clo
    ∧ (2 ≤ n % 4 → hi C = (halvesAt m c n hn).chi)

end Cert.Kernel.Hand

end
-- ==== Proof.K.Leaves.lean ====
/-
  What each run leaves in the accumulators, by halves. A store of 2048 entries at offset 0 rewrites the lower half
  and leaves the upper one, and at offset 2048 the other way round; a load of 2048 entries at offset 0 reads the
  lower half, at 2048 the upper. With the offsets' closed forms at a point (0 or 2048, by j and i) each run's
  pieces are read one at a time, newest first.
-/
import proofs.«104914_j13314398618340_2_alg».proof.Proof.K.RunD
import proofs.«104914_j13314398618340_2_alg».proof.Proof.K.Track

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

/-! ## Halves of a buffer of 4096 after a store of 2048 -/

section Halves
variable {κ : Kind} {sp : Space} (v : View sig κ sp S4096 .f32) (f : v.ty.Contents (Elt F))

theorem lo_hit {off : Fin S4096.rank → ℕ} (inb : ∀ a, off a + (![2048] : Fin 1 → ℕ) a ≤ S4096.size a)
    (w : (Rect.unit (s := S4096) off ![2048] inb).shape.Idx → Elt F .f32) (L : List (View.Piece (Elt F) S4096 .f32))
    (h : off = ![0]) :
    lo (v.read (Elt F) (v.writes (Elt F) f (⟨Rect.unit off ![2048] inb, w⟩ :: L))) = w := by
  subst h
  funext y
  exact View.read_writes_cons_unit_of_mem v f inb w L _ y rfl
    (fun a => by match a with | ⟨0, _⟩ => exact (Nat.zero_add _).symm)

theorem hi_hit {off : Fin S4096.rank → ℕ} (inb : ∀ a, off a + (![2048] : Fin 1 → ℕ) a ≤ S4096.size a)
    (w : (Rect.unit (s := S4096) off ![2048] inb).shape.Idx → Elt F .f32) (L : List (View.Piece (Elt F) S4096 .f32))
    (h : off = ![2048]) :
    hi (v.read (Elt F) (v.writes (Elt F) f (⟨Rect.unit off ![2048] inb, w⟩ :: L))) = w := by
  subst h
  funext y
  exact View.read_writes_cons_unit_of_mem v f inb w L _ y rfl
    (fun a => by match a with | ⟨0, _⟩ => rfl)

theorem lo_miss {off : Fin S4096.rank → ℕ} (inb : ∀ a, off a + (![2048] : Fin 1 → ℕ) a ≤ S4096.size a)
    (w : (Rect.unit (s := S4096) off ![2048] inb).shape.Idx → Elt F .f32) (L : List (View.Piece (Elt F) S4096 .f32))
    (h : off = ![2048]) :
    lo (v.read (Elt F) (v.writes (Elt F) f (⟨Rect.unit off ![2048] inb, w⟩ :: L)))
      = lo (v.read (Elt F) (v.writes (Elt F) f L)) := by
  subst h
  funext y
  exact View.read_writes_cons_unit_of_not_mem v f inb w L _ rfl (0 : Fin 1)
    (Or.inl (show (y 0).val < 2048 from (y 0).isLt))

theorem hi_miss {off : Fin S4096.rank → ℕ} (inb : ∀ a, off a + (![2048] : Fin 1 → ℕ) a ≤ S4096.size a)
    (w : (Rect.unit (s := S4096) off ![2048] inb).shape.Idx → Elt F .f32) (L : List (View.Piece (Elt F) S4096 .f32))
    (h : off = ![0]) :
    hi (v.read (Elt F) (v.writes (Elt F) f (⟨Rect.unit off ![2048] inb, w⟩ :: L)))
      = hi (v.read (Elt F) (v.writes (Elt F) f L)) := by
  subst h
  funext y
  exact View.read_writes_cons_unit_of_not_mem v f inb w L _ rfl (0 : Fin 1)
    (Or.inr (show 0 + 2048 ≤ 2048 + (y 0).val by omega))

/-- A store of the whole buffer, newest: its payload everywhere. -/
theorem read_whole_store (inb : ∀ a, (![0] : Fin 1 → ℕ) a + S4096.size a ≤ S4096.size a)
    (w : (Rect.unit (s := S4096) ![0] S4096.size inb).shape.Idx → Elt F .f32) (L : List (View.Piece (Elt F) S4096 .f32)) :
    v.read (Elt F) (v.writes (Elt F) f (⟨Rect.unit ![0] S4096.size inb, w⟩ :: L)) = w := by
  funext y
  exact View.read_writes_cons_unit_of_mem v f inb w L y y rfl
    (fun a => by match a with | ⟨0, _⟩ => exact (Nat.zero_add _).symm)

end Halves

/-- A store of a whole output block, newest: its payload everywhere. -/
theorem read_whole_store3 {κ : Kind} {sp : Space} (v : View sig κ sp S1x1x4096 .f32) (f : v.ty.Contents (Elt F))
    (inb : ∀ a, (![0, 0, 0] : Fin 3 → ℕ) a + (![1, 1, 4096] : Fin 3 → ℕ) a ≤ S1x1x4096.size a)
    (w : (Rect.unit (s := S1x1x4096) ![0, 0, 0] ![1, 1, 4096] inb).shape.Idx → Elt F .f32) (L : List (View.Piece (Elt F) S1x1x4096 .f32)) :
    v.read (Elt F) (v.writes (Elt F) f (⟨Rect.unit ![0, 0, 0] ![1, 1, 4096] inb, w⟩ :: L)) = w := by
  funext y
  exact View.read_writes_cons_unit_of_mem v f inb w L y y rfl
    (fun a => by match a with
      | ⟨0, _⟩ => exact (Nat.zero_add _).symm
      | ⟨1, _⟩ => exact (Nat.zero_add _).symm
      | ⟨2, _⟩ => exact (Nat.zero_add _).symm)

/-! ## Loads -/

/-- A load of a whole memref held at the contents that read `X` reads `X`. -/
theorem load_whole {s : Shape} (mr : Memref sig .tc .vmem s .f32) (h : mr.IsWhole) (X : Vec F s .f32)
    {off : Fin s.rank → ℕ} (hz : off = fun _ => 0) (inb : ∀ a, off a + s.size a ≤ s.size a) :
    View.readAt (Elt F) mr.view (Rect.unit off s.size inb).toLoadRect (h.unread X) = X := by
  rw [View.readAt_eq_ld, h.read_unread]; exact View.ld_unit_zero hz inb X

theorem z3 : (![0, 0, 0] : Fin 3 → ℕ) = fun _ => 0 := by
  funext a; match a with | ⟨0, _⟩ => rfl | ⟨1, _⟩ => rfl | ⟨2, _⟩ => rfl
theorem z1 : (![0] : Fin 1 → ℕ) = fun _ => 0 := by
  funext a; match a with | ⟨0, _⟩ => rfl

/-- A load of 2048 entries at offset 0 of contents whose reading is `G` reads the lower half of `G`. -/
theorem load_lo {κ : Kind} {sp : Space} (v : View sig κ sp S4096 .f32) (g : v.ty.Contents (Elt F))
    {off : Fin S4096.rank → ℕ} (inb : ∀ a, off a + (![2048] : Fin 1 → ℕ) a ≤ S4096.size a) (h : off = ![0]) :
    View.readAt (Elt F) v (Rect.unit (s := S4096) off ![2048] inb).toLoadRect g = lo (v.read (Elt F) g) := by
  subst h
  funext x
  rw [View.readAt_apply]
  refine congrArg (v.read (Elt F) g) ?_
  funext a; match a with
  | ⟨0, _⟩ => exact Fin.ext (by show 0 + 1 * (x 0).val = (x 0).val; omega)

/-- At offset 2048: the upper half. -/
theorem load_hi {κ : Kind} {sp : Space} (v : View sig κ sp S4096 .f32) (g : v.ty.Contents (Elt F))
    {off : Fin S4096.rank → ℕ} (inb : ∀ a, off a + (![2048] : Fin 1 → ℕ) a ≤ S4096.size a) (h : off = ![2048]) :
    View.readAt (Elt F) v (Rect.unit (s := S4096) off ![2048] inb).toLoadRect g = hi (v.read (Elt F) g) := by
  subst h
  funext x
  rw [View.readAt_apply]
  refine congrArg (v.read (Elt F) g) ?_
  funext a; match a with
  | ⟨0, _⟩ => exact Fin.ext (by show 2048 + 1 * (x 0).val = 2048 + (x 0).val; omega)

/-- A load of all 4096 entries reads the contents. -/
theorem load_all {κ : Kind} {sp : Space} (v : View sig κ sp S4096 .f32) (g : v.ty.Contents (Elt F))
    (inb : ∀ a, (![0] : Fin 1 → ℕ) a + (![4096] : Fin 1 → ℕ) a ≤ S4096.size a) :
    View.readAt (Elt F) v (Rect.unit (s := S4096) ![0] ![4096] inb).toLoadRect g = v.read (Elt F) g := by
  rw [View.readAt_eq_ld]; exact View.ld_unit_zero (S := S4096) z1 inb _

/-! ## The four runs -/

section Runs
variable (c : Dev nD) (i : grid0.Coords) (arg3 : Memref sig .tc .vmem S1x2048x3 .f32) (harg3 : arg3.IsWhole) (arg4 : Memref sig .tc .vmem S1x2048x3 .f32) (harg4 : arg4.IsWhole) (arg5 : Memref sig .tc .vmem S1x2048x1 .f32) (harg5 : arg5.IsWhole) (arg6 : Memref sig .tc .vmem S1x1x2048 .f32) (harg6 : arg6.IsWhole) (arg7 : Memref sig .tc .vmem S1x1x4096 .f32) (harg7 : arg7.IsWhole) (arg8 : Memref sig .tc .vmem S1x1x4096 .f32) (harg8 : arg8.IsWhole) (arg9 : Memref sig .tc .vmem S4096 .f32) (harg9 : arg9.IsWhole) (arg10 : Memref sig .tc .vmem S4096 .f32) (harg10 : arg10.IsWhole)
  (x0 : Vec F S1x2048x3 .f32) (x1 : Vec F S1x2048x3 .f32) (x2 : Vec F S1x2048x1 .f32) (x3 : Vec F S1x1x2048 .f32) (xs0 : Vec F S4096 .f32) (xs1 : Vec F S4096 .f32)

/-- The tile's minima as the runs spell them (over loads of the whole input buffers) are the payloads of the blocks. -/
theorem inputs_eq :
    (View.readAt (Elt F) arg3.view (Rect.unit ![0, 0, 0] S1x2048x3.size inb_S1x2048x3_S1x2048x3_0_0_0).toLoadRect (harg3.unread x0) = x0)
    ∧ (View.readAt (Elt F) arg4.view (Rect.unit ![0, 0, 0] S1x2048x3.size inb_S1x2048x3_S1x2048x3_0_0_0).toLoadRect (harg4.unread x1) = x1)
    ∧ (View.readAt (Elt F) arg5.view (Rect.unit ![0, 0, 0] S1x2048x1.size inb_S1x2048x1_S1x2048x1_0_0_0).toLoadRect (harg5.unread x2) = x2)
    ∧ (View.readAt (Elt F) arg6.view (Rect.unit ![0, 0, 0] S1x1x2048.size inb_S1x1x2048_S1x1x2048_0_0_0).toLoadRect (harg6.unread x3) = x3) :=
  ⟨load_whole arg3 harg3 x0 z3 _, load_whole arg4 harg4 x1 z3 _, load_whole arg5 harg5 x2 z3 _, load_whole arg6 harg6 x3 z3 _⟩

/-- The batch's first point (all three offsets 0): the row accumulator is +inf with its lower half lowered by the
    tile's row minima, whatever it held; the column accumulator's lower half is +inf lowered by the column minima. -/
theorem leavesA (f9 : arg9.view.ty.Contents (Elt F)) (h1 : atFirst i) (h2 : atSweep i) (h3 : ¬atLast i)
    (ho1 : k0_off1 i = ![0]) (ho2 : k0_off2 i = ![0]) (ho3 : k0_off3 i = ![0]) :
    lo (arg9.view.read (Elt F) (arg9.view.writes (Elt F) f9 (runA c i arg3 harg3 arg4 harg4 arg5 harg5 arg6 harg6 arg7 harg7 arg8 harg8 arg9 harg9 arg10 harg10 h1 h2 h3 x0 x1 x2 x3 xs0 xs1).1)) = k0_pay1 (k0_pay8 x0 x1 x2 x3) (lo (k0_pay5 (F := F)))
    ∧ hi (arg9.view.read (Elt F) (arg9.view.writes (Elt F) f9 (runA c i arg3 harg3 arg4 harg4 arg5 harg5 arg6 harg6 arg7 harg7 arg8 harg8 arg9 harg9 arg10 harg10 h1 h2 h3 x0 x1 x2 x3 xs0 xs1).1)) = hi (k0_pay5 (F := F))
    ∧ lo (arg10.view.read (Elt F) (arg10.view.writes (Elt F) (harg10.unread xs1) (runA c i arg3 harg3 arg4 harg4 arg5 harg5 arg6 harg6 arg7 harg7 arg8 harg8 arg9 harg9 arg10 harg10 h1 h2 h3 x0 x1 x2 x3 xs0 xs1).2.1))
        = k0_pay2 (k0_pay9 x0 x1 x2 x3) (k0_pay6 (F := F)) := by
  obtain ⟨e0, e1, e2, e3⟩ := inputs_eq (F := F) arg3 harg3 arg4 harg4 arg5 harg5 arg6 harg6 x0 x1 x2 x3
  unfold runA; dsimp only; sl_unfold_words
  rw [e0, e1, e2, e3]
  refine ⟨?_, ?_, ?_⟩
  · exact (lo_hit arg9.view _ _ _ _ ho2).trans (congrArg (k0_pay1 (k0_pay8 x0 x1 x2 x3))
      ((load_lo arg9.view _ _ ho2).trans (congrArg lo (read_whole_store arg9.view _ _ _ _))))
  · exact (hi_miss arg9.view _ _ _ _ ho2).trans (congrArg hi (read_whole_store arg9.view _ _ _ _))
  · exact (lo_hit arg10.view _ _ _ _ ho3).trans (congrArg (k0_pay2 (k0_pay9 x0 x1 x2 x3))
      (View.readCov_cons_toLoadRect arg10.view _ _ _))

/-- j = 0, i = 1: the row accumulator's upper half and the column accumulator's lower half take the tile's minima. -/
theorem leavesB (h1 : ¬atFirst i) (h2 : ¬atSweep i) (h3 : ¬atLast i) (ho2 : k0_off2 i = ![2048]) (ho3 : k0_off3 i = ![0]) :
    lo (arg9.view.read (Elt F) (arg9.view.writes (Elt F) (harg9.unread xs0) (runB c i arg3 harg3 arg4 harg4 arg5 harg5 arg6 harg6 arg7 harg7 arg8 harg8 arg9 harg9 arg10 harg10 h1 h2 h3 x0 x1 x2 x3 xs0 xs1).1)) = lo xs0
    ∧ hi (arg9.view.read (Elt F) (arg9.view.writes (Elt F) (harg9.unread xs0) (runB c i arg3 harg3 arg4 harg4 arg5 harg5 arg6 harg6 arg7 harg7 arg8 harg8 arg9 harg9 arg10 harg10 h1 h2 h3 x0 x1 x2 x3 xs0 xs1).1))
        = k0_pay1 (k0_pay8 x0 x1 x2 x3) (hi xs0)
    ∧ lo (arg10.view.read (Elt F) (arg10.view.writes (Elt F) (harg10.unread xs1) (runB c i arg3 harg3 arg4 harg4 arg5 harg5 arg6 harg6 arg7 harg7 arg8 harg8 arg9 harg9 arg10 harg10 h1 h2 h3 x0 x1 x2 x3 xs0 xs1).2.1))
        = k0_pay2 (k0_pay9 x0 x1 x2 x3) (lo xs1)
    ∧ hi (arg10.view.read (Elt F) (arg10.view.writes (Elt F) (harg10.unread xs1) (runB c i arg3 harg3 arg4 harg4 arg5 harg5 arg6 harg6 arg7 harg7 arg8 harg8 arg9 harg9 arg10 harg10 h1 h2 h3 x0 x1 x2 x3 xs0 xs1).2.1)) = hi xs1 := by
  obtain ⟨e0, e1, e2, e3⟩ := inputs_eq (F := F) arg3 harg3 arg4 harg4 arg5 harg5 arg6 harg6 x0 x1 x2 x3
  unfold runB; dsimp only; sl_unfold_words
  rw [e0, e1, e2, e3]
  refine ⟨?_, ?_, ?_, ?_⟩
  · exact (lo_miss arg9.view _ _ _ _ ho2).trans (congrArg lo (harg9.read_unread xs0))
  · exact (hi_hit arg9.view _ _ _ _ ho2).trans (congrArg (k0_pay1 (k0_pay8 x0 x1 x2 x3))
      ((load_hi arg9.view _ _ ho2).trans (congrArg hi (harg9.read_unread xs0))))
  · exact (lo_hit arg10.view _ _ _ _ ho3).trans (congrArg (k0_pay2 (k0_pay9 x0 x1 x2 x3))
      ((load_lo arg10.view _ _ ho3).trans (congrArg lo (harg10.read_unread xs1))))
  · exact (hi_miss arg10.view _ _ _ _ ho3).trans (congrArg hi (harg10.read_unread xs1))

/-- j = 1, i = 0: the row accumulator's lower half takes the row minima; the column accumulator's upper half is
    +inf lowered by the column minima. -/
theorem leavesC (h1 : ¬atFirst i) (h2 : atSweep i) (h3 : ¬atLast i)
    (ho1 : k0_off1 i = ![2048]) (ho2 : k0_off2 i = ![0]) (ho3 : k0_off3 i = ![2048]) :
    lo (arg9.view.read (Elt F) (arg9.view.writes (Elt F) (harg9.unread xs0) (runC c i arg3 harg3 arg4 harg4 arg5 harg5 arg6 harg6 arg7 harg7 arg8 harg8 arg9 harg9 arg10 harg10 h1 h2 h3 x0 x1 x2 x3 xs0 xs1).1))
        = k0_pay1 (k0_pay8 x0 x1 x2 x3) (lo xs0)
    ∧ hi (arg9.view.read (Elt F) (arg9.view.writes (Elt F) (harg9.unread xs0) (runC c i arg3 harg3 arg4 harg4 arg5 harg5 arg6 harg6 arg7 harg7 arg8 harg8 arg9 harg9 arg10 harg10 h1 h2 h3 x0 x1 x2 x3 xs0 xs1).1)) = hi xs0
    ∧ lo (arg10.view.read (Elt F) (arg10.view.writes (Elt F) (harg10.unread xs1) (runC c i arg3 harg3 arg4 harg4 arg5 harg5 arg6 harg6 arg7 harg7 arg8 harg8 arg9 harg9 arg10 harg10 h1 h2 h3 x0 x1 x2 x3 xs0 xs1).2.1)) = lo xs1
    ∧ hi (arg10.view.read (Elt F) (arg10.view.writes (Elt F) (harg10.unread xs1) (runC c i arg3 harg3 arg4 harg4 arg5 harg5 arg6 harg6 arg7 harg7 arg8 harg8 arg9 harg9 arg10 harg10 h1 h2 h3 x0 x1 x2 x3 xs0 xs1).2.1))
        = k0_pay2 (k0_pay9 x0 x1 x2 x3) (k0_pay6 (F := F)) := by
  obtain ⟨e0, e1, e2, e3⟩ := inputs_eq (F := F) arg3 harg3 arg4 harg4 arg5 harg5 arg6 harg6 x0 x1 x2 x3
  unfold runC; dsimp only; sl_unfold_words
  rw [e0, e1, e2, e3]
  refine ⟨?_, ?_, ?_, ?_⟩
  · exact (lo_hit arg9.view _ _ _ _ ho2).trans (congrArg (k0_pay1 (k0_pay8 x0 x1 x2 x3))
      ((load_lo arg9.view _ _ ho2).trans (congrArg lo (harg9.read_unread xs0))))
  · exact (hi_miss arg9.view _ _ _ _ ho2).trans (congrArg hi (harg9.read_unread xs0))
  · exact (lo_miss arg10.view _ _ _ _ ho3).trans ((lo_miss arg10.view _ _ _ _ ho1).trans (congrArg lo (harg10.read_unread xs1)))
  · exact (hi_hit arg10.view _ _ _ _ ho3).trans (congrArg (k0_pay2 (k0_pay9 x0 x1 x2 x3))
      (View.readCov_cons_toLoadRect arg10.view _ _ _))

/-- The batch's last point (j = 1, i = 1): both upper halves take the tile's minima, and each output block is the
    square roots of the accumulator as it then stands. -/
theorem leavesD (f7 : arg7.view.ty.Contents (Elt F)) (f8 : arg8.view.ty.Contents (Elt F))
    (h1 : ¬atFirst i) (h2 : ¬atSweep i) (h3 : atLast i) (ho2 : k0_off2 i = ![2048]) (ho3 : k0_off3 i = ![2048]) :
    lo (arg9.view.read (Elt F) (arg9.view.writes (Elt F) (harg9.unread xs0) (runD c i arg3 harg3 arg4 harg4 arg5 harg5 arg6 harg6 arg7 harg7 arg8 harg8 arg9 harg9 arg10 harg10 h1 h2 h3 x0 x1 x2 x3 xs0 xs1).2.2.1)) = lo xs0
    ∧ hi (arg9.view.read (Elt F) (arg9.view.writes (Elt F) (harg9.unread xs0) (runD c i arg3 harg3 arg4 harg4 arg5 harg5 arg6 harg6 arg7 harg7 arg8 harg8 arg9 harg9 arg10 harg10 h1 h2 h3 x0 x1 x2 x3 xs0 xs1).2.2.1))
        = k0_pay1 (k0_pay8 x0 x1 x2 x3) (hi xs0)
    ∧ lo (arg10.view.read (Elt F) (arg10.view.writes (Elt F) (harg10.unread xs1) (runD c i arg3 harg3 arg4 harg4 arg5 harg5 arg6 harg6 arg7 harg7 arg8 harg8 arg9 harg9 arg10 harg10 h1 h2 h3 x0 x1 x2 x3 xs0 xs1).2.2.2.1)) = lo xs1
    ∧ hi (arg10.view.read (Elt F) (arg10.view.writes (Elt F) (harg10.unread xs1) (runD c i arg3 harg3 arg4 harg4 arg5 harg5 arg6 harg6 arg7 harg7 arg8 harg8 arg9 harg9 arg10 harg10 h1 h2 h3 x0 x1 x2 x3 xs0 xs1).2.2.2.1))
        = k0_pay2 (k0_pay9 x0 x1 x2 x3) (hi xs1)
    ∧ arg7.view.read (Elt F) (arg7.view.writes (Elt F) f7 (runD c i arg3 harg3 arg4 harg4 arg5 harg5 arg6 harg6 arg7 harg7 arg8 harg8 arg9 harg9 arg10 harg10 h1 h2 h3 x0 x1 x2 x3 xs0 xs1).1)
        = k0_pay3 (arg9.view.read (Elt F) (arg9.view.writes (Elt F) (harg9.unread xs0) (runD c i arg3 harg3 arg4 harg4 arg5 harg5 arg6 harg6 arg7 harg7 arg8 harg8 arg9 harg9 arg10 harg10 h1 h2 h3 x0 x1 x2 x3 xs0 xs1).2.2.1))
    ∧ arg8.view.read (Elt F) (arg8.view.writes (Elt F) f8 (runD c i arg3 harg3 arg4 harg4 arg5 harg5 arg6 harg6 arg7 harg7 arg8 harg8 arg9 harg9 arg10 harg10 h1 h2 h3 x0 x1 x2 x3 xs0 xs1).2.1)
        = k0_pay4 (arg10.view.read (Elt F) (arg10.view.writes (Elt F) (harg10.unread xs1) (runD c i arg3 harg3 arg4 harg4 arg5 harg5 arg6 harg6 arg7 harg7 arg8 harg8 arg9 harg9 arg10 harg10 h1 h2 h3 x0 x1 x2 x3 xs0 xs1).2.2.2.1)) := by
  obtain ⟨e0, e1, e2, e3⟩ := inputs_eq (F := F) arg3 harg3 arg4 harg4 arg5 harg5 arg6 harg6 x0 x1 x2 x3
  unfold runD; dsimp only; sl_unfold_words
  rw [e0, e1, e2, e3]
  refine ⟨?_, ?_, ?_, ?_, ?_, ?_⟩
  · exact (lo_miss arg9.view _ _ _ _ ho2).trans (congrArg lo (harg9.read_unread xs0))
  · exact (hi_hit arg9.view _ _ _ _ ho2).trans (congrArg (k0_pay1 (k0_pay8 x0 x1 x2 x3))
      ((load_hi arg9.view _ _ ho2).trans (congrArg hi (harg9.read_unread xs0))))
  · exact (lo_miss arg10.view _ _ _ _ ho3).trans (congrArg lo (harg10.read_unread xs1))
  · exact (hi_hit arg10.view _ _ _ _ ho3).trans (congrArg (k0_pay2 (k0_pay9 x0 x1 x2 x3))
      ((load_hi arg10.view _ _ ho3).trans (congrArg hi (harg10.read_unread xs1))))
  · exact (read_whole_store3 arg7.view _ _ _ _).trans (congrArg k0_pay3 (load_all arg9.view _ _))
  · exact (read_whole_store3 arg8.view _ _ _ _).trans (congrArg k0_pay4 (load_all arg10.view _ _))

end Runs

end Cert.Kernel.Hand

end
-- ==== Proof.K.Frame.lean ====
/-
  The frame of the kernel. The invariant between points: before the first point both accumulators hold anything;
  after point n they hold contents whose halves are those of `halvesAt` (`Tracked`). Each point's body is the run
  of its case; the outputs' blocks, stored at a batch's last point, are the square roots of the accumulators as
  they then stand.
-/
import proofs.«104914_j13314398618340_2_alg».proof.Proof.K.Leaves

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The halves across a point -/

/-- The halves a point starts from: +inf before the first point, else what the point before left. -/
def prevHalves (c : Dev nD) (t : Fin cfg0.N) : Halves F :=
  if h : t.val = 0 then ⟨lo (k0_pay5 (F := F)), hi (k0_pay5 (F := F)), k0_pay6 (F := F), k0_pay6 (F := F)⟩
  else halvesAt m c (t.val - 1) (by have := t.isLt; omega)

theorem halvesAt_step (c : Dev nD) (t : Fin cfg0.N) : halvesAt m c t.val t.isLt = stepHalves m c t (prevHalves m c t) := by
  obtain ⟨n, hn⟩ := t
  cases n with
  | zero => rfl
  | succ n => unfold prevHalves; rw [dif_neg (Nat.succ_ne_zero n)]; rfl

theorem prevHalves_pos (c : Dev nD) (t : Fin cfg0.N) (hz : t.val ≠ 0) :
    prevHalves m c t = halvesAt m c (t.val - 1) (by have := t.isLt; omega) := by
  unfold prevHalves; rw [dif_neg hz]

theorem trackedA (c : Dev nD) (t : Fin cfg0.N) (h4 : t.val % 4 = 0) (R' C' : Vec F S4096 .f32)
    (a1 : lo R' = k0_pay1 (rowMin m c t) (lo (k0_pay5 (F := F)))) (a2 : hi R' = hi (k0_pay5 (F := F)))
    (a3 : lo C' = k0_pay2 (colMin m c t) (k0_pay6 (F := F))) : Tracked m c t.val t.isLt R' C' := by
  unfold Tracked; rw [halvesAt_step]; unfold stepHalves; rw [if_pos h4]
  exact ⟨a1, a2, a3, fun h => by omega⟩

theorem trackedB (c : Dev nD) (t : Fin cfg0.N) (h4 : t.val % 4 = 1) (R C : Vec F S4096 .f32)
    (hT : Tracked m c (t.val - 1) (by have := t.isLt; omega) R C) (R' C' : Vec F S4096 .f32)
    (a1 : lo R' = lo R) (a2 : hi R' = k0_pay1 (rowMin m c t) (hi R))
    (a3 : lo C' = k0_pay2 (colMin m c t) (lo C)) : Tracked m c t.val t.isLt R' C' := by
  obtain ⟨b1, b2, b3, -⟩ := hT
  unfold Tracked; rw [halvesAt_step, prevHalves_pos m c t (by omega)]; unfold stepHalves
  rw [if_neg (by omega), if_pos h4]
  exact ⟨a1.trans b1, a2.trans (by rw [b2]), a3.trans (by rw [b3]), fun h => by omega⟩

theorem trackedC (c : Dev nD) (t : Fin cfg0.N) (h4 : t.val % 4 = 2) (R C : Vec F S4096 .f32)
    (hT : Tracked m c (t.val - 1) (by have := t.isLt; omega) R C) (R' C' : Vec F S4096 .f32)
    (a1 : lo R' = k0_pay1 (rowMin m c t) (lo R)) (a2 : hi R' = hi R) (a3 : lo C' = lo C)
    (a4 : hi C' = k0_pay2 (colMin m c t) (k0_pay6 (F := F))) : Tracked m c t.val t.isLt R' C' := by
  obtain ⟨b1, b2, b3, -⟩ := hT
  unfold Tracked; rw [halvesAt_step, prevHalves_pos m c t (by omega)]; unfold stepHalves
  rw [if_neg (by omega), if_neg (by omega), if_pos h4]
  exact ⟨a1.trans (by rw [b1]), a2.trans b2, a3.trans b3, fun _ => a4⟩

theorem trackedD (c : Dev nD) (t : Fin cfg0.N) (h4 : t.val % 4 = 3) (R C : Vec F S4096 .f32)
    (hT : Tracked m c (t.val - 1) (by have := t.isLt; omega) R C) (R' C' : Vec F S4096 .f32)
    (a1 : lo R' = lo R) (a2 : hi R' = k0_pay1 (rowMin m c t) (hi R)) (a3 : lo C' = lo C)
    (a4 : hi C' = k0_pay2 (colMin m c t) (hi C)) : Tracked m c t.val t.isLt R' C' := by
  obtain ⟨b1, b2, b3, b4⟩ := hT
  have b4' := b4 (by omega)
  unfold Tracked; rw [halvesAt_step, prevHalves_pos m c t (by omega)]; unfold stepHalves
  rw [if_neg (by omega), if_neg (by omega), if_neg (by omega)]
  exact ⟨a1.trans b1, a2.trans (by rw [b2]), a3.trans b3, fun _ => a4.trans (by rw [b4'])⟩

/-- Tracked contents at the third or fourth point of a batch are the join of the halves. -/
theorem tracked_join (c : Dev nD) (n : ℕ) (hn : n < cfg0.N) (h2 : 2 ≤ n % 4) (R C : Vec F S4096 .f32)
    (hT : Tracked m c n hn R C) :
    R = join (halvesAt m c n hn).rlo (halvesAt m c n hn).rhi ∧ C = join (halvesAt m c n hn).clo (halvesAt m c n hn).chi := by
  obtain ⟨b1, b2, b3, b4⟩ := hT
  exact ⟨by rw [← b1, ← b2, join_lo_hi], by rw [← b3, ← b4 h2, join_lo_hi]⟩

/-! ## The invariant and the proof data -/

def PhiS (c : Dev nD) : (n : ℕ) → n ≤ cfg0.N → sProp 𝕄
  | 0, _ => Pipeline.ΦA spec0 c
  | n + 1, hn => iprop(iprop((∃ R, ∃ C, ⌜Tracked m c n hn R C⌝ ∗ owns (c : Thread nD τ) rowM fullShare R ∗ owns (c : Thread nD τ) colM fullShare C)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ R, ∃ C, ⌜Tracked m c n hn R C⌝ ∗ owns (c : Thread nD τ) rowM fullShare R ∗ owns (c : Thread nD τ) colM fullShare C)) ∗ (∃ r, prngReg c r)) := rfl

theorem PhiS_pos (c : Dev nD) (n : ℕ) (h : n ≤ cfg0.N) (hz : n ≠ 0) :
    PhiS m c n h = iprop(iprop((∃ R, ∃ C, ⌜Tracked m c (n - 1) (by omega) R C⌝ ∗ owns (c : Thread nD τ) rowM fullShare R ∗ owns (c : Thread nD τ) colM fullShare C)) ∗ (∃ r, prngReg c r)) := by
  cases n with
  | zero => exact absurd rfl hz
  | succ n => rfl

/-- The proof data: the arrays as the region finds them; after the body each input's buffer at its block, each
    output's at the square roots of its accumulator's joined halves (read only at a batch's last point); the
    invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay3 (join (halvesAt m c t.val t.isLt).rlo (halvesAt m c t.val t.isLt).rhi)
    | ⟨5, _⟩ => k0_pay4 (join (halvesAt m c t.val t.isLt).clo (halvesAt m c t.val t.isLt).chi)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t
    = k0_pay3 (join (halvesAt m c t.val t.isLt).rlo (halvesAt m c t.val t.isLt).rhi) := by dsimp only [dats]
theorem after5 (c : Dev nD) (t : Fin cfg0.N) : (dats m 0 c).after 5 t
    = k0_pay4 (join (halvesAt m c t.val t.isLt).clo (halvesAt m c t.val t.isLt).chi) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 2000000 in
/-- A batch's first point. -/
theorem sound_A (c : Dev nD) (t : Fin cfg0.N) (h4 : t.val % 4 = 0) :
    bodyPre m c t ⊢ wp frame (wpE (defs₀ (F := F)) Variants.none c none) Set.univ (bodyAt0 t) (fun _ => bodyPost m c t) := by
  have hA : atFirst (grid0.coords t) := (atFirst_iff t).mpr h4
  have hS : atSweep (grid0.coords t) := (atSweep_iff t).mpr (by omega)
  have hL : ¬atLast (grid0.coords t) := fun h => by have := (atLast_iff t).mp h; omega
  have ho1 : k0_off1 (grid0.coords t) = ![0] := by rw [off1_eq t, show (t.val / 2) % 2 = 0 by omega]
  have ho2 : k0_off2 (grid0.coords t) = ![0] := by rw [off2_eq t, show t.val % 2 = 0 by omega]
  have ho3 : k0_off3 (grid0.coords t) = ![0] := by rw [off3_eq t, show (t.val / 2) % 2 = 0 by omega]
  unfold bodyPre bodyPost bodyAt0
  simp only [before0, before1, before2, before3]
  rewrite [show (dats m 0 c).owesAt () t.succ = (dats m 0 c).owesAt () t.castSucc from rfl]
  rewrite [show (dats m 0 c).Φ t.succ = PhiS m c (t.val + 1) t.isLt from rfl, PhiS_succ]
  rewrite [show (dats m 0 c).leavesExact 0 t = owns (c : Thread nD τ) (ms0 t) fullShare ((dats m 0 c).after 0 t) from by
    unfold Dat.leavesExact; rw [live0 t], after0]
  rewrite [show (dats m 0 c).leavesExact 1 t = owns (c : Thread nD τ) (ms1 t) fullShare ((dats m 0 c).after 1 t) from by
    unfold Dat.leavesExact; rw [live1 t], after1]
  rewrite [show (dats m 0 c).leavesExact 2 t = owns (c : Thread nD τ) (ms2 t) fullShare ((dats m 0 c).after 2 t) from by
    unfold Dat.leavesExact; rw [live2 t], after2]
  rewrite [show (dats m 0 c).leavesExact 3 t = owns (c : Thread nD τ) (ms3 t) fullShare ((dats m 0 c).after 3 t) from by
    unfold Dat.leavesExact; rw [live3 t], after3]
  rewrite [Dat.leavesExact_idle (dats m 0 c) 4 t (idle4 t hL) (noFlush4 t hL)]
  rewrite [Dat.leavesExact_idle (dats m 0 c) 5 t (idle5 t hL) (noFlush5 t hL)]
  have key : ∀ (d0 d1 : Vec F S4096 .f32) (f9 : rowM.view.ty.Contents (Elt F)),
      Tracked m c t.val t.isLt
        (rowM.view.read (Elt F) (rowM.view.writes (Elt F) f9 (runA c (grid0.coords t) (ms0 t) (hs0 t) (ms1 t) (hs1 t) (ms2 t) (hs2 t) (ms3 t) (hs3 t) (ms4 t) (hs4 t) (ms5 t) (hs5 t) rowM rowM_whole colM colM_whole hA hS hL (iblk m c 0 t) (iblk m c 1 t) (iblk m c 2 t) (iblk m c 3 t) d0 d1).1))
        (colM.view.read (Elt F) (colM.view.writes (Elt F) (colM_whole.unread d1) (runA c (grid0.coords t) (ms0 t) (hs0 t) (ms1 t) (hs1 t) (ms2 t) (hs2 t) (ms3 t) (hs3 t) (ms4 t) (hs4 t) (ms5 t) (hs5 t) rowM rowM_whole colM colM_whole hA hS hL (iblk m c 0 t) (iblk m c 1 t) (iblk m c 2 t) (iblk m c 3 t) d0 d1).2.1)) := by
    intro d0 d1 f9
    obtain ⟨a1, a2, a3⟩ := leavesA c (grid0.coords t) (ms0 t) (hs0 t) (ms1 t) (hs1 t) (ms2 t) (hs2 t) (ms3 t) (hs3 t) (ms4 t) (hs4 t) (ms5 t) (hs5 t) rowM rowM_whole colM colM_whole (iblk m c 0 t) (iblk m c 1 t) (iblk m c 2 t) (iblk m c 3 t) d0 d1 f9 hA hS hL ho1 ho2 ho3
    exact trackedA m c t h4 _ _ a1 a2 a3
  have hΦ : (dats m 0 c).Φ t.castSucc ⊢ (iprop((∃ d0, ∃ d1, owns (c : Thread nD τ) rowM fullShare d0 ∗ owns (c : Thread nD τ) colM fullShare d1) ∗ (∃ r, prngReg c r)) : sProp 𝕄) := by
    by_cases hz : t.val = 0
    · rewrite [PhiS_castSucc m c t, PhiS_zero m c _ _ hz, PhiA_eq]
      iintro ⟨⟨⟨%d0, HS0⟩, ⟨%d1, HS1⟩⟩, Hg⟩
      isplitl [HS0 HS1]
      · iexists d0, d1
        isplitl [HS0]; · iexact HS0
        iexact HS1
      iexact Hg
    · rewrite [PhiS_castSucc m c t, PhiS_pos m c _ _ hz]
      iintro ⟨⟨%d0, %d1, -, HS0, HS1⟩, Hg⟩
      isplitl [HS0 HS1]
      · iexists d0, d1
        isplitl [HS0]; · iexact HS0
        iexact HS1
      iexact Hg
  iintro ⟨HΦ, Ho, ⟨%e0, H0⟩, ⟨%e1, H1⟩, ⟨%e2, H2⟩, ⟨%e3, H3⟩, ⟨%d4, H4⟩, ⟨%d5, H5⟩⟩
  ihave HΦ' := hΦ $$ HΦ
  icases HΦ' with ⟨⟨%d0, %d1, HS0, HS1⟩, Hg⟩
  iapply ((runA c (grid0.coords t) (ms0 t) (hs0 t) (ms1 t) (hs1 t) (ms2 t) (hs2 t) (ms3 t) (hs3 t) (ms4 t) (hs4 t) (ms5 t) (hs5 t) rowM rowM_whole colM colM_whole hA hS hL (iblk m c 0 t) (iblk m c 1 t) (iblk m c 2 t) (iblk m c 3 t) d0 d1).2.2 _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, ⟨%f9, HS0⟩, HS1⟩
  have key := key d0 d1 f9
  isplitl [HS0 HS1 Hg]
  · isplitl [HS0 HS1]
    · iexists _, _
      isplitr; · ipureintro; exact key
      isplitl [HS0]
      · unfold owns; iexists _; isplitr; · ipureintro; rfl
        iexact HS0
      · unfold owns; iexists _; isplitr; · ipureintro; rfl
        iexact HS1
    · iexact Hg
  isplitl [Ho]; · iexact Ho
  isplitl [H0]; · iexact H0
  isplitl [H1]; · iexact H1
  isplitl [H2]; · iexact H2
  isplitl [H3]; · iexact H3
  isplitl [H4]; · iexists _; iexact H4
  iexists _; iexact H5

set_option maxHeartbeats 2000000 in
/-- The second point of a batch (j = 0, i = 1). -/
theorem sound_B (c : Dev nD) (t : Fin cfg0.N) (h4 : t.val % 4 = 1) :
    bodyPre m c t ⊢ wp frame (wpE (defs₀ (F := F)) Variants.none c none) Set.univ (bodyAt0 t) (fun _ => bodyPost m c t) := by
  have hA : ¬atFirst (grid0.coords t) := fun h => by have := (atFirst_iff t).mp h; omega
  have hS : ¬atSweep (grid0.coords t) := fun h => by have := (atSweep_iff t).mp h; omega
  have hL : ¬atLast (grid0.coords t) := fun h => by have := (atLast_iff t).mp h; omega
  have ho2 : k0_off2 (grid0.coords t) = ![2048] := by rw [off2_eq t, show t.val % 2 = 1 by omega]
  have ho3 : k0_off3 (grid0.coords t) = ![0] := by rw [off3_eq t, show (t.val / 2) % 2 = 0 by omega]
  have hz : t.val ≠ 0 := by omega
  unfold bodyPre bodyPost bodyAt0
  simp only [before0, before1, before2, before3]
  rewrite [show (dats m 0 c).owesAt () t.succ = (dats m 0 c).owesAt () t.castSucc from rfl]
  rewrite [show (dats m 0 c).Φ t.succ = PhiS m c (t.val + 1) t.isLt from rfl, PhiS_succ]
  rewrite [show (dats m 0 c).leavesExact 0 t = owns (c : Thread nD τ) (ms0 t) fullShare ((dats m 0 c).after 0 t) from by
    unfold Dat.leavesExact; rw [live0 t], after0]
  rewrite [show (dats m 0 c).leavesExact 1 t = owns (c : Thread nD τ) (ms1 t) fullShare ((dats m 0 c).after 1 t) from by
    unfold Dat.leavesExact; rw [live1 t], after1]
  rewrite [show (dats m 0 c).leavesExact 2 t = owns (c : Thread nD τ) (ms2 t) fullShare ((dats m 0 c).after 2 t) from by
    unfold Dat.leavesExact; rw [live2 t], after2]
  rewrite [show (dats m 0 c).leavesExact 3 t = owns (c : Thread nD τ) (ms3 t) fullShare ((dats m 0 c).after 3 t) from by
    unfold Dat.leavesExact; rw [live3 t], after3]
  rewrite [Dat.leavesExact_idle (dats m 0 c) 4 t (idle4 t hL) (noFlush4 t hL)]
  rewrite [Dat.leavesExact_idle (dats m 0 c) 5 t (idle5 t hL) (noFlush5 t hL)]
  rewrite [PhiS_castSucc m c t, PhiS_pos m c _ _ hz]
  iintro ⟨⟨⟨%R, %C, %hT, HS0, HS1⟩, Hg⟩, Ho, ⟨%e0, H0⟩, ⟨%e1, H1⟩, ⟨%e2, H2⟩, ⟨%e3, H3⟩, ⟨%d4, H4⟩, ⟨%d5, H5⟩⟩
  obtain ⟨a1, a2, a3, -⟩ := leavesB c (grid0.coords t) (ms0 t) (hs0 t) (ms1 t) (hs1 t) (ms2 t) (hs2 t) (ms3 t) (hs3 t) (ms4 t) (hs4 t) (ms5 t) (hs5 t) rowM rowM_whole colM colM_whole (iblk m c 0 t) (iblk m c 1 t) (iblk m c 2 t) (iblk m c 3 t) R C hA hS hL ho2 ho3
  have key := trackedB m c t h4 R C hT _ _ a1 a2 a3
  iapply ((runB c (grid0.coords t) (ms0 t) (hs0 t) (ms1 t) (hs1 t) (ms2 t) (hs2 t) (ms3 t) (hs3 t) (ms4 t) (hs4 t) (ms5 t) (hs5 t) rowM rowM_whole colM colM_whole hA hS hL (iblk m c 0 t) (iblk m c 1 t) (iblk m c 2 t) (iblk m c 3 t) R C).2.2 _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, HS0, HS1⟩
  isplitl [HS0 HS1 Hg]
  · isplitl [HS0 HS1]
    · iexists _, _
      isplitr; · ipureintro; exact key
      isplitl [HS0]
      · unfold owns; iexists _; isplitr; · ipureintro; rfl
        iexact HS0
      · unfold owns; iexists _; isplitr; · ipureintro; rfl
        iexact HS1
    · iexact Hg
  isplitl [Ho]; · iexact Ho
  isplitl [H0]; · iexact H0
  isplitl [H1]; · iexact H1
  isplitl [H2]; · iexact H2
  isplitl [H3]; · iexact H3
  isplitl [H4]; · iexists _; iexact H4
  iexists _; iexact H5

set_option maxHeartbeats 2000000 in
/-- The third point of a batch (j = 1, i = 0). -/
theorem sound_C (c : Dev nD) (t : Fin cfg0.N) (h4 : t.val % 4 = 2) :
    bodyPre m c t ⊢ wp frame (wpE (defs₀ (F := F)) Variants.none c none) Set.univ (bodyAt0 t) (fun _ => bodyPost m c t) := by
  have hA : ¬atFirst (grid0.coords t) := fun h => by have := (atFirst_iff t).mp h; omega
  have hS : atSweep (grid0.coords t) := (atSweep_iff t).mpr (by omega)
  have hL : ¬atLast (grid0.coords t) := fun h => by have := (atLast_iff t).mp h; omega
  have ho1 : k0_off1 (grid0.coords t) = ![2048] := by rw [off1_eq t, show (t.val / 2) % 2 = 1 by omega]
  have ho2 : k0_off2 (grid0.coords t) = ![0] := by rw [off2_eq t, show t.val % 2 = 0 by omega]
  have ho3 : k0_off3 (grid0.coords t) = ![2048] := by rw [off3_eq t, show (t.val / 2) % 2 = 1 by omega]
  have hz : t.val ≠ 0 := by omega
  unfold bodyPre bodyPost bodyAt0
  simp only [before0, before1, before2, before3]
  rewrite [show (dats m 0 c).owesAt () t.succ = (dats m 0 c).owesAt () t.castSucc from rfl]
  rewrite [show (dats m 0 c).Φ t.succ = PhiS m c (t.val + 1) t.isLt from rfl, PhiS_succ]
  rewrite [show (dats m 0 c).leavesExact 0 t = owns (c : Thread nD τ) (ms0 t) fullShare ((dats m 0 c).after 0 t) from by
    unfold Dat.leavesExact; rw [live0 t], after0]
  rewrite [show (dats m 0 c).leavesExact 1 t = owns (c : Thread nD τ) (ms1 t) fullShare ((dats m 0 c).after 1 t) from by
    unfold Dat.leavesExact; rw [live1 t], after1]
  rewrite [show (dats m 0 c).leavesExact 2 t = owns (c : Thread nD τ) (ms2 t) fullShare ((dats m 0 c).after 2 t) from by
    unfold Dat.leavesExact; rw [live2 t], after2]
  rewrite [show (dats m 0 c).leavesExact 3 t = owns (c : Thread nD τ) (ms3 t) fullShare ((dats m 0 c).after 3 t) from by
    unfold Dat.leavesExact; rw [live3 t], after3]
  rewrite [Dat.leavesExact_idle (dats m 0 c) 4 t (idle4 t hL) (noFlush4 t hL)]
  rewrite [Dat.leavesExact_idle (dats m 0 c) 5 t (idle5 t hL) (noFlush5 t hL)]
  rewrite [PhiS_castSucc m c t, PhiS_pos m c _ _ hz]
  iintro ⟨⟨⟨%R, %C, %hT, HS0, HS1⟩, Hg⟩, Ho, ⟨%e0, H0⟩, ⟨%e1, H1⟩, ⟨%e2, H2⟩, ⟨%e3, H3⟩, ⟨%d4, H4⟩, ⟨%d5, H5⟩⟩
  obtain ⟨a1, a2, a3, a4⟩ := leavesC c (grid0.coords t) (ms0 t) (hs0 t) (ms1 t) (hs1 t) (ms2 t) (hs2 t) (ms3 t) (hs3 t) (ms4 t) (hs4 t) (ms5 t) (hs5 t) rowM rowM_whole colM colM_whole (iblk m c 0 t) (iblk m c 1 t) (iblk m c 2 t) (iblk m c 3 t) R C hA hS hL ho1 ho2 ho3
  have key := trackedC m c t h4 R C hT _ _ a1 a2 a3 a4
  iapply ((runC c (grid0.coords t) (ms0 t) (hs0 t) (ms1 t) (hs1 t) (ms2 t) (hs2 t) (ms3 t) (hs3 t) (ms4 t) (hs4 t) (ms5 t) (hs5 t) rowM rowM_whole colM colM_whole hA hS hL (iblk m c 0 t) (iblk m c 1 t) (iblk m c 2 t) (iblk m c 3 t) R C).2.2 _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, HS0, HS1⟩
  isplitl [HS0 HS1 Hg]
  · isplitl [HS0 HS1]
    · iexists _, _
      isplitr; · ipureintro; exact key
      isplitl [HS0]
      · unfold owns; iexists _; isplitr; · ipureintro; rfl
        iexact HS0
      · unfold owns; iexists _; isplitr; · ipureintro; rfl
        iexact HS1
    · iexact Hg
  isplitl [Ho]; · iexact Ho
  isplitl [H0]; · iexact H0
  isplitl [H1]; · iexact H1
  isplitl [H2]; · iexact H2
  isplitl [H3]; · iexact H3
  isplitl [H4]; · iexists _; iexact H4
  iexists _; iexact H5

set_option maxHeartbeats 2000000 in
/-- A batch's last point (j = 1, i = 1): the outputs' blocks are stored. -/
theorem sound_D (c : Dev nD) (t : Fin cfg0.N) (h4 : t.val % 4 = 3) :
    bodyPre m c t ⊢ wp frame (wpE (defs₀ (F := F)) Variants.none c none) Set.univ (bodyAt0 t) (fun _ => bodyPost m c t) := by
  have hA : ¬atFirst (grid0.coords t) := fun h => by have := (atFirst_iff t).mp h; omega
  have hS : ¬atSweep (grid0.coords t) := fun h => by have := (atSweep_iff t).mp h; omega
  have hL : atLast (grid0.coords t) := (atLast_iff t).mpr h4
  have ho2 : k0_off2 (grid0.coords t) = ![2048] := by rw [off2_eq t, show t.val % 2 = 1 by omega]
  have ho3 : k0_off3 (grid0.coords t) = ![2048] := by rw [off3_eq t, show (t.val / 2) % 2 = 1 by omega]
  have hz : t.val ≠ 0 := by omega
  unfold bodyPre bodyPost bodyAt0
  simp only [before0, before1, before2, before3]
  rewrite [show (dats m 0 c).owesAt () t.succ = (dats m 0 c).owesAt () t.castSucc from rfl]
  rewrite [show (dats m 0 c).Φ t.succ = PhiS m c (t.val + 1) t.isLt from rfl, PhiS_succ]
  rewrite [show (dats m 0 c).leavesExact 0 t = owns (c : Thread nD τ) (ms0 t) fullShare ((dats m 0 c).after 0 t) from by
    unfold Dat.leavesExact; rw [live0 t], after0]
  rewrite [show (dats m 0 c).leavesExact 1 t = owns (c : Thread nD τ) (ms1 t) fullShare ((dats m 0 c).after 1 t) from by
    unfold Dat.leavesExact; rw [live1 t], after1]
  rewrite [show (dats m 0 c).leavesExact 2 t = owns (c : Thread nD τ) (ms2 t) fullShare ((dats m 0 c).after 2 t) from by
    unfold Dat.leavesExact; rw [live2 t], after2]
  rewrite [show (dats m 0 c).leavesExact 3 t = owns (c : Thread nD τ) (ms3 t) fullShare ((dats m 0 c).after 3 t) from by
    unfold Dat.leavesExact; rw [live3 t], after3]
  rewrite [show (dats m 0 c).leavesExact 4 t = owns (c : Thread nD τ) (ms4 t) fullShare ((dats m 0 c).after 4 t) from by
    unfold Dat.leavesExact; rw [live4 t hL]]
  rewrite [show (dats m 0 c).leavesExact 5 t = owns (c : Thread nD τ) (ms5 t) fullShare ((dats m 0 c).after 5 t) from by
    unfold Dat.leavesExact; rw [live5 t hL]]
  rewrite [PhiS_castSucc m c t, PhiS_pos m c _ _ hz]
  iintro ⟨⟨⟨%R, %C, %hT, HS0, HS1⟩, Hg⟩, Ho, ⟨%e0, H0⟩, ⟨%e1, H1⟩, ⟨%e2, H2⟩, ⟨%e3, H3⟩, ⟨%d4, H4⟩, ⟨%d5, H5⟩⟩
  iapply ((runD c (grid0.coords t) (ms0 t) (hs0 t) (ms1 t) (hs1 t) (ms2 t) (hs2 t) (ms3 t) (hs3 t) (ms4 t) (hs4 t) (ms5 t) (hs5 t) rowM rowM_whole colM colM_whole hA hS hL (iblk m c 0 t) (iblk m c 1 t) (iblk m c 2 t) (iblk m c 3 t) R C).2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexact HS0
  isplitl [HS1]; · iexact HS1
  iintro ⟨H0, H1, H2, H3, ⟨%f7, H4⟩, ⟨%f8, H5⟩, HS0, HS1⟩
  obtain ⟨a1, a2, a3, a4, a5, a6⟩ := leavesD c (grid0.coords t) (ms0 t) (hs0 t) (ms1 t) (hs1 t) (ms2 t) (hs2 t) (ms3 t) (hs3 t) (ms4 t) (hs4 t) (ms5 t) (hs5 t) rowM rowM_whole colM colM_whole (iblk m c 0 t) (iblk m c 1 t) (iblk m c 2 t) (iblk m c 3 t) R C f7 f8 hA hS hL ho2 ho3
  have key := trackedD m c t h4 R C hT _ _ a1 a2 a3 a4
  obtain ⟨jR, jC⟩ := tracked_join m c t.val t.isLt (by omega) _ _ key
  isplitl [HS0 HS1 Hg]
  · isplitl [HS0 HS1]
    · iexists _, _
      isplitr; · ipureintro; exact key
      isplitl [HS0]
      · unfold owns; iexists _; isplitr; · ipureintro; rfl
        iexact HS0
      · unfold owns; iexists _; isplitr; · ipureintro; rfl
        iexact HS1
    · iexact Hg
  isplitl [Ho]; · iexact Ho
  isplitl [H0]; · iexact H0
  isplitl [H1]; · iexact H1
  isplitl [H2]; · iexact H2
  isplitl [H3]; · iexact H3
  isplitl [H4]
  · unfold owns; iexists _; isplitr
    · ipureintro; rw [after4]; exact a5.trans (congrArg k0_pay3 jR)
    iexact H4
  · unfold owns; iexists _; isplitr
    · ipureintro; rw [after5]; exact a6.trans (congrArg k0_pay4 jC)
    iexact H5

end Cert.Kernel.Hand

end
-- ==== Proof.K.Main.lean ====
/-
  The frame run. Every point of the grid is one of the four cases, so the body obligation holds at every point; the
  class invariant is the invariant before the first point and follows from the one after the last; the launch
  theorem then gives the run of @main to the end, every array of the pipeline at what the proof data computes and
  the host lines after the region applied to them.
-/
import proofs.«104914_j13314398618340_2_alg».proof.Proof.K.Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · exact sound_A m c t h0
  by_cases h1 : t.val % 4 = 1
  · exact sound_B m c t h1
  by_cases h2 : t.val % 4 = 2
  · exact sound_C m c t h2
  exact sound_D m c t (by omega)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨%R, %C, -, HS0, HS1⟩, Hg⟩
  isplitl [HS0 HS1]
  · isplitl [HS0]; · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 64 := N_0; omega)

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: @main runs to the end and leaves its two argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.KI.Shared.lean ====
/-
  What the four runs of the kernel body share. The grid is (batch, source tile j, template tile i), i fastest, so
  point t has j = (t / 2) % 2 and i = t % 2, and a batch is four consecutive points. The body has three branches:
  at the batch's first point (j = 0 and i = 0) it fills the row accumulator with +inf; at i = 0 it fills the
  column accumulator's j-th half with +inf; at the batch's last point (j = 1 and i = 1) it stores the square
  roots of both accumulators. Here: the three conditions and at which points they hold, where the two outputs
  are idle, the memrefs the body is called with, and the class invariant spelt over the two scratch memrefs.
-/
import proofs.«104914_j13314398618340_2_alg».proof.Proof.Gen.KernelIdeal.Frame
import proofs.«104914_j13314398618340_2_alg».proof.Proof.Gen.KernelIdeal.Skeleton
import Idealize.ShloMosaic.Lib.WritesUnit
import Idealize.ShloMosaic.Lib.WholeRead

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- j = 0 and i = 0: the batch's first point (the body's first branch, its scalar chain substituted). -/
abbrev atFirst (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
theorem atFirst_iff : ∀ t : Fin cfg0.N, atFirst (grid0.coords t) ↔ t.val % 4 = 0 :=
  (by decide +kernel : ∀ t : Fin grid0.N, atFirst (grid0.coords t) ↔ t.val % 4 = 0)

/-- i = 0: the start of a sweep over the template tiles (the second branch). -/
abbrev atSweep (i : grid0.Coords) : Prop := k0_cond2 i = 1#1
theorem atSweep_iff : ∀ t : Fin cfg0.N, atSweep (grid0.coords t) ↔ t.val % 2 = 0 :=
  (by decide +kernel : ∀ t : Fin grid0.N, atSweep (grid0.coords t) ↔ t.val % 2 = 0)

/-- j = 1 and i = 1: the batch's last point (the third branch). -/
abbrev atLast (i : grid0.Coords) : Prop := k0_cond3 i = 1#1
theorem atLast_iff : ∀ t : Fin cfg0.N, atLast (grid0.coords t) ↔ t.val % 4 = 3 :=
  (by decide +kernel : ∀ t : Fin grid0.N, atLast (grid0.coords t) ↔ t.val % 4 = 3)

/-- The offsets of the three accesses of the accumulators, in closed form: the column accumulator's half is j's,
    the row accumulator's half is i's. -/
theorem off1_eq : ∀ t : Fin cfg0.N, k0_off1 (grid0.coords t) = ![2048 * ((t.val / 2) % 2)] :=
  (by decide +kernel : ∀ t : Fin grid0.N, k0_off1 (grid0.coords t) = ![2048 * ((t.val / 2) % 2)])
theorem off2_eq : ∀ t : Fin cfg0.N, k0_off2 (grid0.coords t) = ![2048 * (t.val % 2)] :=
  (by decide +kernel : ∀ t : Fin grid0.N, k0_off2 (grid0.coords t) = ![2048 * (t.val % 2)])
theorem off3_eq : ∀ t : Fin cfg0.N, k0_off3 (grid0.coords t) = ![2048 * ((t.val / 2) % 2)] :=
  (by decide +kernel : ∀ t : Fin grid0.N, k0_off3 (grid0.coords t) = ![2048 * ((t.val / 2) % 2)])

/-- The inputs are never idle; the outputs are idle and not written back except at the batch's last point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem idle4 : ∀ t : Fin cfg0.N, ¬atLast (grid0.coords t) → cfg0.idle 4 (grid0.coords t) = true := by decide +kernel
theorem idle5 : ∀ t : Fin cfg0.N, ¬atLast (grid0.coords t) → cfg0.idle 5 (grid0.coords t) = true := by decide +kernel
theorem noFlush4 : ∀ t : Fin cfg0.N, ¬atLast (grid0.coords t) → (cfg0.win 4).flush t = false := by decide +kernel
theorem noFlush5 : ∀ t : Fin cfg0.N, ¬atLast (grid0.coords t) → (cfg0.win 5).flush t = false := by decide +kernel
theorem live4 : ∀ t : Fin cfg0.N, atLast (grid0.coords t) → cfg0.idle 4 (grid0.coords t) = false := by decide +kernel
theorem live5 : ∀ t : Fin cfg0.N, atLast (grid0.coords t) → cfg0.idle 5 (grid0.coords t) = false := by decide +kernel

/-- Each window's current staging memref at point t, as the pipeline passes it, and its wholeness. -/
abbrev ms0 (t : Fin cfg0.N) : Memref sig .tc .vmem S1x2048x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x4096 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x4096 .f32 := win0_5.stage (cfg0.slots t 5)
abbrev hs5 (t : Fin cfg0.N) : (ms5 t).IsWhole := hstage0_5 ((cfg0.slots t 5).cast nbuf0_5)
/-- The row accumulator (min over the source points) and the column accumulator (min over the template points). -/
abbrev rowM : Memref sig .tc .vmem S4096 .f32 := Memref.whole cc0_scratch0
abbrev colM : Memref sig .tc .vmem S4096 .f32 := Memref.whole cc0_scratch1
theorem rowM_whole : (rowM).IsWhole := Memref.isWhole_whole _
theorem colM_whole : (colM).IsWhole := Memref.isWhole_whole _

/-- The class invariant: both accumulators owned at some contents, and the generator register. -/
theorem PhiA_eq (c : Dev nD) :
    (Pipeline.ΦA spec0 c : sProp 𝕄)
      = iprop(iprop((∃ d, owns (c : Thread nD τ) rowM fullShare d) ∗ (∃ d, owns (c : Thread nD τ) colM fullShare d)) ∗ (∃ r, prngReg c r)) := by
  unfold Pipeline.ΦA; rw [scopedRest0_eq]; simp only [rowM, colM, owns_whole]; try rfl

end Cert.KernelIdeal.Hand

end
-- ==== Proof.KI.RunA.lean ====
/-
  The kernel body run at the batch's first point (j = 0, i = 0): both fills, no output store. On whole staging memrefs — the inputs at their blocks, both accumulators at
  given contents (the row accumulator, filled whole here, ends independent of them) — the body runs to a continuation that holds the inputs as they were and each accumulator with
  the pieces this point stored written over what it held; the lists of pieces are the witness the run finds.
-/
import proofs.«104914_j13314398618340_2_alg».proof.Proof.KI.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The pieces the body stores at such a point, with the body's triple. -/
noncomputable def runA (c : Dev nD) (i : grid0.Coords) (arg3 : Memref sig .tc .vmem S1x2048x3 .f32) (harg3 : arg3.IsWhole) (arg4 : Memref sig .tc .vmem S1x2048x3 .f32) (harg4 : arg4.IsWhole) (arg5 : Memref sig .tc .vmem S1x2048x1 .f32) (harg5 : arg5.IsWhole) (arg6 : Memref sig .tc .vmem S1x1x2048 .f32) (harg6 : arg6.IsWhole) (arg7 : Memref sig .tc .vmem S1x1x4096 .f32) (harg7 : arg7.IsWhole) (arg8 : Memref sig .tc .vmem S1x1x4096 .f32) (harg8 : arg8.IsWhole) (arg9 : Memref sig .tc .vmem S4096 .f32) (harg9 : arg9.IsWhole) (arg10 : Memref sig .tc .vmem S4096 .f32) (harg10 : arg10.IsWhole) (h1 : atFirst i) (h2 : atSweep i) (h3 : ¬atLast i)
    (x0 : Vec F S1x2048x3 .f32) (x1 : Vec F S1x2048x3 .f32) (x2 : Vec F S1x2048x1 .f32) (x3 : Vec F S1x1x2048 .f32) (xs0 : Vec F S4096 .f32) (xs1 : Vec F S4096 .f32) :
    Σ' (LS0 : List (View.Piece (Elt F) S4096 .f32)), { LS1 : List (View.Piece (Elt F) S4096 .f32) //
      ∀ (xi4 xi5 : Vec F S1x1x4096 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5
            ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5
                ∗ (∃ f, arg9.view.loc (c : Thread nD τ) ↦[arg9.view.set]{fullShare} arg9.view.writes (Elt F) f LS0) ∗ (arg10.view.loc (c : Thread nD τ) ↦[arg10.view.set]{fullShare} arg10.view.writes (Elt F) (harg10.unread xs1) LS1)) -∗ K ⟨⟩))
          ⊢ wp frame (wpE (defs₀ (F := F)) Variants.none c none) E (cc0_kernel i arg3 harg3 arg4 harg4 arg5 harg5 arg6 harg6 arg7 harg7 arg8 harg8 arg9 harg9 arg10 harg10) K } := by
  refine ⟨?_, ?_, fun xi4 xi5 E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5
    obtain rfl := harg9.eq_unread hfs0; obtain rfl := harg10.eq_unread hfs1
    sl_exec (disch := first | exact h1 | exact h2 | exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    iexact HS1

end Cert.KernelIdeal.Hand

end
-- ==== Proof.KI.RunB.lean ====
/-
  The kernel body run at j = 0, i = 1: no fill, no output store. On whole staging memrefs — the inputs at their blocks, both accumulators at
  given contents — the body runs to a continuation that holds the inputs as they were and each accumulator with
  the pieces this point stored written over what it held; the lists of pieces are the witness the run finds.
-/
import proofs.«104914_j13314398618340_2_alg».proof.Proof.KI.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The pieces the body stores at such a point, with the body's triple. -/
noncomputable def runB (c : Dev nD) (i : grid0.Coords) (arg3 : Memref sig .tc .vmem S1x2048x3 .f32) (harg3 : arg3.IsWhole) (arg4 : Memref sig .tc .vmem S1x2048x3 .f32) (harg4 : arg4.IsWhole) (arg5 : Memref sig .tc .vmem S1x2048x1 .f32) (harg5 : arg5.IsWhole) (arg6 : Memref sig .tc .vmem S1x1x2048 .f32) (harg6 : arg6.IsWhole) (arg7 : Memref sig .tc .vmem S1x1x4096 .f32) (harg7 : arg7.IsWhole) (arg8 : Memref sig .tc .vmem S1x1x4096 .f32) (harg8 : arg8.IsWhole) (arg9 : Memref sig .tc .vmem S4096 .f32) (harg9 : arg9.IsWhole) (arg10 : Memref sig .tc .vmem S4096 .f32) (harg10 : arg10.IsWhole) (h1 : ¬atFirst i) (h2 : ¬atSweep i) (h3 : ¬atLast i)
    (x0 : Vec F S1x2048x3 .f32) (x1 : Vec F S1x2048x3 .f32) (x2 : Vec F S1x2048x1 .f32) (x3 : Vec F S1x1x2048 .f32) (xs0 : Vec F S4096 .f32) (xs1 : Vec F S4096 .f32) :
    Σ' (LS0 : List (View.Piece (Elt F) S4096 .f32)), { LS1 : List (View.Piece (Elt F) S4096 .f32) //
      ∀ (xi4 xi5 : Vec F S1x1x4096 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5
            ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5
                ∗ (arg9.view.loc (c : Thread nD τ) ↦[arg9.view.set]{fullShare} arg9.view.writes (Elt F) (harg9.unread xs0) LS0) ∗ (arg10.view.loc (c : Thread nD τ) ↦[arg10.view.set]{fullShare} arg10.view.writes (Elt F) (harg10.unread xs1) LS1)) -∗ K ⟨⟩))
          ⊢ wp frame (wpE (defs₀ (F := F)) Variants.none c none) E (cc0_kernel i arg3 harg3 arg4 harg4 arg5 harg5 arg6 harg6 arg7 harg7 arg8 harg8 arg9 harg9 arg10 harg10) K } := by
  refine ⟨?_, ?_, fun xi4 xi5 E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5
    obtain rfl := harg9.eq_unread hfs0; obtain rfl := harg10.eq_unread hfs1
    sl_exec (disch := first | exact h1 | exact h2 | exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexact HS0
    iexact HS1

end Cert.KernelIdeal.Hand

end
-- ==== Proof.KI.RunC.lean ====
/-
  The kernel body run at j = 1, i = 0: the column accumulator's half filled, no output store. On whole staging memrefs — the inputs at their blocks, both accumulators at
  given contents — the body runs to a continuation that holds the inputs as they were and each accumulator with
  the pieces this point stored written over what it held; the lists of pieces are the witness the run finds.
-/
import proofs.«104914_j13314398618340_2_alg».proof.Proof.KI.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The pieces the body stores at such a point, with the body's triple. -/
noncomputable def runC (c : Dev nD) (i : grid0.Coords) (arg3 : Memref sig .tc .vmem S1x2048x3 .f32) (harg3 : arg3.IsWhole) (arg4 : Memref sig .tc .vmem S1x2048x3 .f32) (harg4 : arg4.IsWhole) (arg5 : Memref sig .tc .vmem S1x2048x1 .f32) (harg5 : arg5.IsWhole) (arg6 : Memref sig .tc .vmem S1x1x2048 .f32) (harg6 : arg6.IsWhole) (arg7 : Memref sig .tc .vmem S1x1x4096 .f32) (harg7 : arg7.IsWhole) (arg8 : Memref sig .tc .vmem S1x1x4096 .f32) (harg8 : arg8.IsWhole) (arg9 : Memref sig .tc .vmem S4096 .f32) (harg9 : arg9.IsWhole) (arg10 : Memref sig .tc .vmem S4096 .f32) (harg10 : arg10.IsWhole) (h1 : ¬atFirst i) (h2 : atSweep i) (h3 : ¬atLast i)
    (x0 : Vec F S1x2048x3 .f32) (x1 : Vec F S1x2048x3 .f32) (x2 : Vec F S1x2048x1 .f32) (x3 : Vec F S1x1x2048 .f32) (xs0 : Vec F S4096 .f32) (xs1 : Vec F S4096 .f32) :
    Σ' (LS0 : List (View.Piece (Elt F) S4096 .f32)), { LS1 : List (View.Piece (Elt F) S4096 .f32) //
      ∀ (xi4 xi5 : Vec F S1x1x4096 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5
            ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xi5
                ∗ (arg9.view.loc (c : Thread nD τ) ↦[arg9.view.set]{fullShare} arg9.view.writes (Elt F) (harg9.unread xs0) LS0) ∗ (arg10.view.loc (c : Thread nD τ) ↦[arg10.view.set]{fullShare} arg10.view.writes (Elt F) (harg10.unread xs1) LS1)) -∗ K ⟨⟩))
          ⊢ wp frame (wpE (defs₀ (F := F)) Variants.none c none) E (cc0_kernel i arg3 harg3 arg4 harg4 arg5 harg5 arg6 harg6 arg7 harg7 arg8 harg8 arg9 harg9 arg10 harg10) K } := by
  refine ⟨?_, ?_, fun xi4 xi5 E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5
    obtain rfl := harg9.eq_unread hfs0; obtain rfl := harg10.eq_unread hfs1
    sl_exec (disch := first | exact h1 | exact h2 | exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexact HS0
    iexact HS1

end Cert.KernelIdeal.Hand

end
-- ==== Proof.KI.RunD.lean ====
/-
  The kernel body run at the batch's last point (j = 1, i = 1): no fill, both outputs stored. On whole staging memrefs — the inputs at their blocks, both accumulators at
  given contents — the body runs to a continuation that holds the inputs as they were and each accumulator with
  the pieces this point stored written over what it held; the lists of pieces are the witness the run finds.
-/
import proofs.«104914_j13314398618340_2_alg».proof.Proof.KI.RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The pieces the body stores at such a point, with the body's triple. -/
noncomputable def runD (c : Dev nD) (i : grid0.Coords) (arg3 : Memref sig .tc .vmem S1x2048x3 .f32) (harg3 : arg3.IsWhole) (arg4 : Memref sig .tc .vmem S1x2048x3 .f32) (harg4 : arg4.IsWhole) (arg5 : Memref sig .tc .vmem S1x2048x1 .f32) (harg5 : arg5.IsWhole) (arg6 : Memref sig .tc .vmem S1x1x2048 .f32) (harg6 : arg6.IsWhole) (arg7 : Memref sig .tc .vmem S1x1x4096 .f32) (harg7 : arg7.IsWhole) (arg8 : Memref sig .tc .vmem S1x1x4096 .f32) (harg8 : arg8.IsWhole) (arg9 : Memref sig .tc .vmem S4096 .f32) (harg9 : arg9.IsWhole) (arg10 : Memref sig .tc .vmem S4096 .f32) (harg10 : arg10.IsWhole) (h1 : ¬atFirst i) (h2 : ¬atSweep i) (h3 : atLast i)
    (x0 : Vec F S1x2048x3 .f32) (x1 : Vec F S1x2048x3 .f32) (x2 : Vec F S1x2048x1 .f32) (x3 : Vec F S1x1x2048 .f32) (xs0 : Vec F S4096 .f32) (xs1 : Vec F S4096 .f32) :
    Σ' (L4 : List (View.Piece (Elt F) S1x1x4096 .f32)) (L5 : List (View.Piece (Elt F) S1x1x4096 .f32)) (LS0 : List (View.Piece (Elt F) S4096 .f32)), { LS1 : List (View.Piece (Elt F) S4096 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d)
            ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5)
                ∗ (arg9.view.loc (c : Thread nD τ) ↦[arg9.view.set]{fullShare} arg9.view.writes (Elt F) (harg9.unread xs0) LS0) ∗ (arg10.view.loc (c : Thread nD τ) ↦[arg10.view.set]{fullShare} arg10.view.writes (Elt F) (harg10.unread xs1) LS1)) -∗ K ⟨⟩))
          ⊢ wp frame (wpE (defs₀ (F := F)) Variants.none c none) E (cc0_kernel i arg3 harg3 arg4 harg4 arg5 harg5 arg6 harg6 arg7 harg7 arg8 harg8 arg9 harg9 arg10 harg10) K } := by
  refine ⟨?_, ?_, ?_, ?_, fun E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3

    obtain rfl := harg9.eq_unread hfs0; obtain rfl := harg10.eq_unread hfs1
    sl_exec (disch := first | exact h1 | exact h2 | exact h3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    isplitl [HS0]; · iexact HS0
    iexact HS1

end Cert.KernelIdeal.Hand

end
-- ==== Proof.KI.Track.lean ====
/-
  The two accumulators point by point. Each is a vector of 4096 entries used as two halves of 2048: the row
  accumulator's half i holds, for each template point of tile i, the least squared distance to the source points
  swept so far; the column accumulator's half j the same for the source points of tile j against the template
  points swept so far. Within a batch the four points (j, i) = (0,0), (0,1), (1,0), (1,1) update, in this order,
  (row half 0, column half 0), (row half 1, column half 0), (row half 0, column half 1), (row half 1, column
  half 1); the row accumulator is reset to +inf at (0,0) and the column half j at (j,0). The column
  accumulator's upper half is written only from the third point of a batch on: before that it holds whatever the
  previous batch (or nothing) left, and nothing reads it.
-/
import proofs.«104914_j13314398618340_2_alg».proof.Proof.KI.Shared
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-- The lower half of a vector of 4096. -/
def lo (X : Vec F S4096 .f32) : Vec F S2048 .f32 :=
  fun y => X (ix1 ⟨(y 0).val, Nat.lt_trans (show (y 0).val < 2048 from (y 0).isLt) (by decide)⟩)
/-- The upper half. -/
def hi (X : Vec F S4096 .f32) : Vec F S2048 .f32 :=
  fun y => X (ix1 ⟨2048 + (y 0).val, by have : (y 0).val < 2048 := (y 0).isLt; omega⟩)
/-- Two halves side by side. -/
def join (a b : Vec F S2048 .f32) : Vec F S4096 .f32 :=
  fun y => if h : (y 0).val < 2048 then a (ix1 ⟨(y 0).val, h⟩)
    else b (ix1 ⟨(y 0).val - 2048, by have : (y 0).val < 4096 := (y 0).isLt; omega⟩)

theorem join_lo_hi (X : Vec F S4096 .f32) : join (lo X) (hi X) = X := by
  funext y
  unfold join lo hi
  by_cases h : (y 0).val < 2048
  · rw [dif_pos h]; exact congrArg X (by funext d; match d with | ⟨0, _⟩ => rfl)
  · rw [dif_neg h]
    refine congrArg X ?_
    funext d; match d with
    | ⟨0, _⟩ => exact Fin.ext (by show 2048 + ((y 0).val - 2048) = (y 0).val; omega)

variable (m : (ℓ : Loc nD τ sig) → Buf (Elt F) ℓ)

/-- The tile's row minima at point t: for each template point of the tile, the least clamped squared distance to
    the tile's source points. -/
def rowMin (c : Dev nD) (t : Fin cfg0.N) : FVec F S2048 .f32 :=
  k0_pay8 (iblk m c 0 t) (iblk m c 1 t) (iblk m c 2 t) (iblk m c 3 t)
/-- The tile's column minima at point t. -/
def colMin (c : Dev nD) (t : Fin cfg0.N) : FVec F S2048 .f32 :=
  k0_pay9 (iblk m c 0 t) (iblk m c 1 t) (iblk m c 2 t) (iblk m c 3 t)

/-- The four halves after a point. -/
structure Halves (F : FTy → Type) where
  rlo : Vec F S2048 .f32
  rhi : Vec F S2048 .f32
  clo : Vec F S2048 .f32
  chi : Vec F S2048 .f32

/-- One point's update of the halves, by the point's place in its batch. -/
def stepHalves (c : Dev nD) (t : Fin cfg0.N) (p : Halves F) : Halves F :=
  if t.val % 4 = 0 then
    ⟨k0_pay1 (rowMin m c t) (lo (k0_pay5 (F := F))), hi (k0_pay5 (F := F)), k0_pay2 (colMin m c t) (k0_pay6 (F := F)), p.chi⟩
  else if t.val % 4 = 1 then
    ⟨p.rlo, k0_pay1 (rowMin m c t) p.rhi, k0_pay2 (colMin m c t) p.clo, p.chi⟩
  else if t.val % 4 = 2 then
    ⟨k0_pay1 (rowMin m c t) p.rlo, p.rhi, p.clo, k0_pay2 (colMin m c t) (k0_pay6 (F := F))⟩
  else
    ⟨p.rlo, k0_pay1 (rowMin m c t) p.rhi, p.clo, k0_pay2 (colMin m c t) p.chi⟩

/-- The halves after point n (the upper column half is meaningful from the third point of a batch on). -/
def halvesAt (c : Dev nD) : (n : ℕ) → n < cfg0.N → Halves F
  | 0, hn => stepHalves m c ⟨0, hn⟩ ⟨lo (k0_pay5 (F := F)), hi (k0_pay5 (F := F)), k0_pay6 (F := F), k0_pay6 (F := F)⟩
  | n + 1, hn => stepHalves m c ⟨n + 1, hn⟩ (halvesAt c n (Nat.lt_of_succ_lt hn))

theorem halvesAt_succ (c : Dev nD) (n : ℕ) (hn : n + 1 < cfg0.N) :
    halvesAt m c (n + 1) hn = stepHalves m c ⟨n + 1, hn⟩ (halvesAt m c n (Nat.lt_of_succ_lt hn)) := rfl

/-- What the accumulators hold after point n: the row accumulator's halves, the column accumulator's lower half,
    and from the third point of a batch on its upper half. -/
def Tracked (c : Dev nD) (n : ℕ) (hn : n < cfg0.N) (R C : Vec F S4096 .f32) : Prop :=
  lo R = (halvesAt m c n hn).rlo ∧ hi R = (halvesAt m c n hn).rhi ∧ lo C = (halvesAt m c n hn).clo
    ∧ (2 ≤ n % 4 → hi C = (halvesAt m c n hn).chi)

end Cert.KernelIdeal.Hand

end
-- ==== Proof.KI.Leaves.lean ====
/-
  What each run leaves in the accumulators, by halves. A store of 2048 entries at offset 0 rewrites the lower half
  and leaves the upper one, and at offset 2048 the other way round; a load of 2048 entries at offset 0 reads the
  lower half, at 2048 the upper. With the offsets' closed forms at a point (0 or 2048, by j and i) each run's
  pieces are read one at a time, newest first.
-/
import proofs.«104914_j13314398618340_2_alg».proof.Proof.KI.RunD
import proofs.«104914_j13314398618340_2_alg».proof.Proof.KI.Track

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

/-! ## Halves of a buffer of 4096 after a store of 2048 -/

section Halves
variable {κ : Kind} {sp : Space} (v : View sig κ sp S4096 .f32) (f : v.ty.Contents (Elt F))

theorem lo_hit {off : Fin S4096.rank → ℕ} (inb : ∀ a, off a + (![2048] : Fin 1 → ℕ) a ≤ S4096.size a)
    (w : (Rect.unit (s := S4096) off ![2048] inb).shape.Idx → Elt F .f32) (L : List (View.Piece (Elt F) S4096 .f32))
    (h : off = ![0]) :
    lo (v.read (Elt F) (v.writes (Elt F) f (⟨Rect.unit off ![2048] inb, w⟩ :: L))) = w := by
  subst h
  funext y
  exact View.read_writes_cons_unit_of_mem v f inb w L _ y rfl
    (fun a => by match a with | ⟨0, _⟩ => exact (Nat.zero_add _).symm)

theorem hi_hit {off : Fin S4096.rank → ℕ} (inb : ∀ a, off a + (![2048] : Fin 1 → ℕ) a ≤ S4096.size a)
    (w : (Rect.unit (s := S4096) off ![2048] inb).shape.Idx → Elt F .f32) (L : List (View.Piece (Elt F) S4096 .f32))
    (h : off = ![2048]) :
    hi (v.read (Elt F) (v.writes (Elt F) f (⟨Rect.unit off ![2048] inb, w⟩ :: L))) = w := by
  subst h
  funext y
  exact View.read_writes_cons_unit_of_mem v f inb w L _ y rfl
    (fun a => by match a with | ⟨0, _⟩ => rfl)

theorem lo_miss {off : Fin S4096.rank → ℕ} (inb : ∀ a, off a + (![2048] : Fin 1 → ℕ) a ≤ S4096.size a)
    (w : (Rect.unit (s := S4096) off ![2048] inb).shape.Idx → Elt F .f32) (L : List (View.Piece (Elt F) S4096 .f32))
    (h : off = ![2048]) :
    lo (v.read (Elt F) (v.writes (Elt F) f (⟨Rect.unit off ![2048] inb, w⟩ :: L)))
      = lo (v.read (Elt F) (v.writes (Elt F) f L)) := by
  subst h
  funext y
  exact View.read_writes_cons_unit_of_not_mem v f inb w L _ rfl (0 : Fin 1)
    (Or.inl (show (y 0).val < 2048 from (y 0).isLt))

theorem hi_miss {off : Fin S4096.rank → ℕ} (inb : ∀ a, off a + (![2048] : Fin 1 → ℕ) a ≤ S4096.size a)
    (w : (Rect.unit (s := S4096) off ![2048] inb).shape.Idx → Elt F .f32) (L : List (View.Piece (Elt F) S4096 .f32))
    (h : off = ![0]) :
    hi (v.read (Elt F) (v.writes (Elt F) f (⟨Rect.unit off ![2048] inb, w⟩ :: L)))
      = hi (v.read (Elt F) (v.writes (Elt F) f L)) := by
  subst h
  funext y
  exact View.read_writes_cons_unit_of_not_mem v f inb w L _ rfl (0 : Fin 1)
    (Or.inr (show 0 + 2048 ≤ 2048 + (y 0).val by omega))

/-- A store of the whole buffer, newest: its payload everywhere. -/
theorem read_whole_store (inb : ∀ a, (![0] : Fin 1 → ℕ) a + S4096.size a ≤ S4096.size a)
    (w : (Rect.unit (s := S4096) ![0] S4096.size inb).shape.Idx → Elt F .f32) (L : List (View.Piece (Elt F) S4096 .f32)) :
    v.read (Elt F) (v.writes (Elt F) f (⟨Rect.unit ![0] S4096.size inb, w⟩ :: L)) = w := by
  funext y
  exact View.read_writes_cons_unit_of_mem v f inb w L y y rfl
    (fun a => by match a with | ⟨0, _⟩ => exact (Nat.zero_add _).symm)

end Halves

/-- A store of a whole output block, newest: its payload everywhere. -/
theorem read_whole_store3 {κ : Kind} {sp : Space} (v : View sig κ sp S1x1x4096 .f32) (f : v.ty.Contents (Elt F))
    (inb : ∀ a, (![0, 0, 0] : Fin 3 → ℕ) a + (![1, 1, 4096] : Fin 3 → ℕ) a ≤ S1x1x4096.size a)
    (w : (Rect.unit (s := S1x1x4096) ![0, 0, 0] ![1, 1, 4096] inb).shape.Idx → Elt F .f32) (L : List (View.Piece (Elt F) S1x1x4096 .f32)) :
    v.read (Elt F) (v.writes (Elt F) f (⟨Rect.unit ![0, 0, 0] ![1, 1, 4096] inb, w⟩ :: L)) = w := by
  funext y
  exact View.read_writes_cons_unit_of_mem v f inb w L y y rfl
    (fun a => by match a with
      | ⟨0, _⟩ => exact (Nat.zero_add _).symm
      | ⟨1, _⟩ => exact (Nat.zero_add _).symm
      | ⟨2, _⟩ => exact (Nat.zero_add _).symm)

/-! ## Loads -/

/-- A load of a whole memref held at the contents that read `X` reads `X`. -/
theorem load_whole {s : Shape} (mr : Memref sig .tc .vmem s .f32) (h : mr.IsWhole) (X : Vec F s .f32)
    {off : Fin s.rank → ℕ} (hz : off = fun _ => 0) (inb : ∀ a, off a + s.size a ≤ s.size a) :
    View.readAt (Elt F) mr.view (Rect.unit off s.size inb).toLoadRect (h.unread X) = X := by
  rw [View.readAt_eq_ld, h.read_unread]; exact View.ld_unit_zero hz inb X

theorem z3 : (![0, 0, 0] : Fin 3 → ℕ) = fun _ => 0 := by
  funext a; match a with | ⟨0, _⟩ => rfl | ⟨1, _⟩ => rfl | ⟨2, _⟩ => rfl
theorem z1 : (![0] : Fin 1 → ℕ) = fun _ => 0 := by
  funext a; match a with | ⟨0, _⟩ => rfl

/-- A load of 2048 entries at offset 0 of contents whose reading is `G` reads the lower half of `G`. -/
theorem load_lo {κ : Kind} {sp : Space} (v : View sig κ sp S4096 .f32) (g : v.ty.Contents (Elt F))
    {off : Fin S4096.rank → ℕ} (inb : ∀ a, off a + (![2048] : Fin 1 → ℕ) a ≤ S4096.size a) (h : off = ![0]) :
    View.readAt (Elt F) v (Rect.unit (s := S4096) off ![2048] inb).toLoadRect g = lo (v.read (Elt F) g) := by
  subst h
  funext x
  rw [View.readAt_apply]
  refine congrArg (v.read (Elt F) g) ?_
  funext a; match a with
  | ⟨0, _⟩ => exact Fin.ext (by show 0 + 1 * (x 0).val = (x 0).val; omega)

/-- At offset 2048: the upper half. -/
theorem load_hi {κ : Kind} {sp : Space} (v : View sig κ sp S4096 .f32) (g : v.ty.Contents (Elt F))
    {off : Fin S4096.rank → ℕ} (inb : ∀ a, off a + (![2048] : Fin 1 → ℕ) a ≤ S4096.size a) (h : off = ![2048]) :
    View.readAt (Elt F) v (Rect.unit (s := S4096) off ![2048] inb).toLoadRect g = hi (v.read (Elt F) g) := by
  subst h
  funext x
  rw [View.readAt_apply]
  refine congrArg (v.read (Elt F) g) ?_
  funext a; match a with
  | ⟨0, _⟩ => exact Fin.ext (by show 2048 + 1 * (x 0).val = 2048 + (x 0).val; omega)

/-- A load of all 4096 entries reads the contents. -/
theorem load_all {κ : Kind} {sp : Space} (v : View sig κ sp S4096 .f32) (g : v.ty.Contents (Elt F))
    (inb : ∀ a, (![0] : Fin 1 → ℕ) a + (![4096] : Fin 1 → ℕ) a ≤ S4096.size a) :
    View.readAt (Elt F) v (Rect.unit (s := S4096) ![0] ![4096] inb).toLoadRect g = v.read (Elt F) g := by
  rw [View.readAt_eq_ld]; exact View.ld_unit_zero (S := S4096) z1 inb _

/-! ## The four runs -/

section Runs
variable (c : Dev nD) (i : grid0.Coords) (arg3 : Memref sig .tc .vmem S1x2048x3 .f32) (harg3 : arg3.IsWhole) (arg4 : Memref sig .tc .vmem S1x2048x3 .f32) (harg4 : arg4.IsWhole) (arg5 : Memref sig .tc .vmem S1x2048x1 .f32) (harg5 : arg5.IsWhole) (arg6 : Memref sig .tc .vmem S1x1x2048 .f32) (harg6 : arg6.IsWhole) (arg7 : Memref sig .tc .vmem S1x1x4096 .f32) (harg7 : arg7.IsWhole) (arg8 : Memref sig .tc .vmem S1x1x4096 .f32) (harg8 : arg8.IsWhole) (arg9 : Memref sig .tc .vmem S4096 .f32) (harg9 : arg9.IsWhole) (arg10 : Memref sig .tc .vmem S4096 .f32) (harg10 : arg10.IsWhole)
  (x0 : Vec F S1x2048x3 .f32) (x1 : Vec F S1x2048x3 .f32) (x2 : Vec F S1x2048x1 .f32) (x3 : Vec F S1x1x2048 .f32) (xs0 : Vec F S4096 .f32) (xs1 : Vec F S4096 .f32)

/-- The tile's minima as the runs spell them (over loads of the whole input buffers) are the payloads of the blocks. -/
theorem inputs_eq :
    (View.readAt (Elt F) arg3.view (Rect.unit ![0, 0, 0] S1x2048x3.size inb_S1x2048x3_S1x2048x3_0_0_0).toLoadRect (harg3.unread x0) = x0)
    ∧ (View.readAt (Elt F) arg4.view (Rect.unit ![0, 0, 0] S1x2048x3.size inb_S1x2048x3_S1x2048x3_0_0_0).toLoadRect (harg4.unread x1) = x1)
    ∧ (View.readAt (Elt F) arg5.view (Rect.unit ![0, 0, 0] S1x2048x1.size inb_S1x2048x1_S1x2048x1_0_0_0).toLoadRect (harg5.unread x2) = x2)
    ∧ (View.readAt (Elt F) arg6.view (Rect.unit ![0, 0, 0] S1x1x2048.size inb_S1x1x2048_S1x1x2048_0_0_0).toLoadRect (harg6.unread x3) = x3) :=
  ⟨load_whole arg3 harg3 x0 z3 _, load_whole arg4 harg4 x1 z3 _, load_whole arg5 harg5 x2 z3 _, load_whole arg6 harg6 x3 z3 _⟩

/-- The batch's first point (all three offsets 0): the row accumulator is +inf with its lower half lowered by the
    tile's row minima, whatever it held; the column accumulator's lower half is +inf lowered by the column minima. -/
theorem leavesA (f9 : arg9.view.ty.Contents (Elt F)) (h1 : atFirst i) (h2 : atSweep i) (h3 : ¬atLast i)
    (ho1 : k0_off1 i = ![0]) (ho2 : k0_off2 i = ![0]) (ho3 : k0_off3 i = ![0]) :
    lo (arg9.view.read (Elt F) (arg9.view.writes (Elt F) f9 (runA c i arg3 harg3 arg4 harg4 arg5 harg5 arg6 harg6 arg7 harg7 arg8 harg8 arg9 harg9 arg10 harg10 h1 h2 h3 x0 x1 x2 x3 xs0 xs1).1)) = k0_pay1 (k0_pay8 x0 x1 x2 x3) (lo (k0_pay5 (F := F)))
    ∧ hi (arg9.view.read (Elt F) (arg9.view.writes (Elt F) f9 (runA c i arg3 harg3 arg4 harg4 arg5 harg5 arg6 harg6 arg7 harg7 arg8 harg8 arg9 harg9 arg10 harg10 h1 h2 h3 x0 x1 x2 x3 xs0 xs1).1)) = hi (k0_pay5 (F := F))
    ∧ lo (arg10.view.read (Elt F) (arg10.view.writes (Elt F) (harg10.unread xs1) (runA c i arg3 harg3 arg4 harg4 arg5 harg5 arg6 harg6 arg7 harg7 arg8 harg8 arg9 harg9 arg10 harg10 h1 h2 h3 x0 x1 x2 x3 xs0 xs1).2.1))
        = k0_pay2 (k0_pay9 x0 x1 x2 x3) (k0_pay6 (F := F)) := by
  obtain ⟨e0, e1, e2, e3⟩ := inputs_eq (F := F) arg3 harg3 arg4 harg4 arg5 harg5 arg6 harg6 x0 x1 x2 x3
  unfold runA; dsimp only; sl_unfold_words
  rw [e0, e1, e2, e3]
  refine ⟨?_, ?_, ?_⟩
  · exact (lo_hit arg9.view _ _ _ _ ho2).trans (congrArg (k0_pay1 (k0_pay8 x0 x1 x2 x3))
      ((load_lo arg9.view _ _ ho2).trans (congrArg lo (read_whole_store arg9.view _ _ _ _))))
  · exact (hi_miss arg9.view _ _ _ _ ho2).trans (congrArg hi (read_whole_store arg9.view _ _ _ _))
  · exact (lo_hit arg10.view _ _ _ _ ho3).trans (congrArg (k0_pay2 (k0_pay9 x0 x1 x2 x3))
      (View.readCov_cons_toLoadRect arg10.view _ _ _))

/-- j = 0, i = 1: the row accumulator's upper half and the column accumulator's lower half take the tile's minima. -/
theorem leavesB (h1 : ¬atFirst i) (h2 : ¬atSweep i) (h3 : ¬atLast i) (ho2 : k0_off2 i = ![2048]) (ho3 : k0_off3 i = ![0]) :
    lo (arg9.view.read (Elt F) (arg9.view.writes (Elt F) (harg9.unread xs0) (runB c i arg3 harg3 arg4 harg4 arg5 harg5 arg6 harg6 arg7 harg7 arg8 harg8 arg9 harg9 arg10 harg10 h1 h2 h3 x0 x1 x2 x3 xs0 xs1).1)) = lo xs0
    ∧ hi (arg9.view.read (Elt F) (arg9.view.writes (Elt F) (harg9.unread xs0) (runB c i arg3 harg3 arg4 harg4 arg5 harg5 arg6 harg6 arg7 harg7 arg8 harg8 arg9 harg9 arg10 harg10 h1 h2 h3 x0 x1 x2 x3 xs0 xs1).1))
        = k0_pay1 (k0_pay8 x0 x1 x2 x3) (hi xs0)
    ∧ lo (arg10.view.read (Elt F) (arg10.view.writes (Elt F) (harg10.unread xs1) (runB c i arg3 harg3 arg4 harg4 arg5 harg5 arg6 harg6 arg7 harg7 arg8 harg8 arg9 harg9 arg10 harg10 h1 h2 h3 x0 x1 x2 x3 xs0 xs1).2.1))
        = k0_pay2 (k0_pay9 x0 x1 x2 x3) (lo xs1)
    ∧ hi (arg10.view.read (Elt F) (arg10.view.writes (Elt F) (harg10.unread xs1) (runB c i arg3 harg3 arg4 harg4 arg5 harg5 arg6 harg6 arg7 harg7 arg8 harg8 arg9 harg9 arg10 harg10 h1 h2 h3 x0 x1 x2 x3 xs0 xs1).2.1)) = hi xs1 := by
  obtain ⟨e0, e1, e2, e3⟩ := inputs_eq (F := F) arg3 harg3 arg4 harg4 arg5 harg5 arg6 harg6 x0 x1 x2 x3
  unfold runB; dsimp only; sl_unfold_words
  rw [e0, e1, e2, e3]
  refine ⟨?_, ?_, ?_, ?_⟩
  · exact (lo_miss arg9.view _ _ _ _ ho2).trans (congrArg lo (harg9.read_unread xs0))
  · exact (hi_hit arg9.view _ _ _ _ ho2).trans (congrArg (k0_pay1 (k0_pay8 x0 x1 x2 x3))
      ((load_hi arg9.view _ _ ho2).trans (congrArg hi (harg9.read_unread xs0))))
  · exact (lo_hit arg10.view _ _ _ _ ho3).trans (congrArg (k0_pay2 (k0_pay9 x0 x1 x2 x3))
      ((load_lo arg10.view _ _ ho3).trans (congrArg lo (harg10.read_unread xs1))))
  · exact (hi_miss arg10.view _ _ _ _ ho3).trans (congrArg hi (harg10.read_unread xs1))

/-- j = 1, i = 0: the row accumulator's lower half takes the row minima; the column accumulator's upper half is
    +inf lowered by the column minima. -/
theorem leavesC (h1 : ¬atFirst i) (h2 : atSweep i) (h3 : ¬atLast i)
    (ho1 : k0_off1 i = ![2048]) (ho2 : k0_off2 i = ![0]) (ho3 : k0_off3 i = ![2048]) :
    lo (arg9.view.read (Elt F) (arg9.view.writes (Elt F) (harg9.unread xs0) (runC c i arg3 harg3 arg4 harg4 arg5 harg5 arg6 harg6 arg7 harg7 arg8 harg8 arg9 harg9 arg10 harg10 h1 h2 h3 x0 x1 x2 x3 xs0 xs1).1))
        = k0_pay1 (k0_pay8 x0 x1 x2 x3) (lo xs0)
    ∧ hi (arg9.view.read (Elt F) (arg9.view.writes (Elt F) (harg9.unread xs0) (runC c i arg3 harg3 arg4 harg4 arg5 harg5 arg6 harg6 arg7 harg7 arg8 harg8 arg9 harg9 arg10 harg10 h1 h2 h3 x0 x1 x2 x3 xs0 xs1).1)) = hi xs0
    ∧ lo (arg10.view.read (Elt F) (arg10.view.writes (Elt F) (harg10.unread xs1) (runC c i arg3 harg3 arg4 harg4 arg5 harg5 arg6 harg6 arg7 harg7 arg8 harg8 arg9 harg9 arg10 harg10 h1 h2 h3 x0 x1 x2 x3 xs0 xs1).2.1)) = lo xs1
    ∧ hi (arg10.view.read (Elt F) (arg10.view.writes (Elt F) (harg10.unread xs1) (runC c i arg3 harg3 arg4 harg4 arg5 harg5 arg6 harg6 arg7 harg7 arg8 harg8 arg9 harg9 arg10 harg10 h1 h2 h3 x0 x1 x2 x3 xs0 xs1).2.1))
        = k0_pay2 (k0_pay9 x0 x1 x2 x3) (k0_pay6 (F := F)) := by
  obtain ⟨e0, e1, e2, e3⟩ := inputs_eq (F := F) arg3 harg3 arg4 harg4 arg5 harg5 arg6 harg6 x0 x1 x2 x3
  unfold runC; dsimp only; sl_unfold_words
  rw [e0, e1, e2, e3]
  refine ⟨?_, ?_, ?_, ?_⟩
  · exact (lo_hit arg9.view _ _ _ _ ho2).trans (congrArg (k0_pay1 (k0_pay8 x0 x1 x2 x3))
      ((load_lo arg9.view _ _ ho2).trans (congrArg lo (harg9.read_unread xs0))))
  · exact (hi_miss arg9.view _ _ _ _ ho2).trans (congrArg hi (harg9.read_unread xs0))
  · exact (lo_miss arg10.view _ _ _ _ ho3).trans ((lo_miss arg10.view _ _ _ _ ho1).trans (congrArg lo (harg10.read_unread xs1)))
  · exact (hi_hit arg10.view _ _ _ _ ho3).trans (congrArg (k0_pay2 (k0_pay9 x0 x1 x2 x3))
      (View.readCov_cons_toLoadRect arg10.view _ _ _))

/-- The batch's last point (j = 1, i = 1): both upper halves take the tile's minima, and each output block is the
    square roots of the accumulator as it then stands. -/
theorem leavesD (f7 : arg7.view.ty.Contents (Elt F)) (f8 : arg8.view.ty.Contents (Elt F))
    (h1 : ¬atFirst i) (h2 : ¬atSweep i) (h3 : atLast i) (ho2 : k0_off2 i = ![2048]) (ho3 : k0_off3 i = ![2048]) :
    lo (arg9.view.read (Elt F) (arg9.view.writes (Elt F) (harg9.unread xs0) (runD c i arg3 harg3 arg4 harg4 arg5 harg5 arg6 harg6 arg7 harg7 arg8 harg8 arg9 harg9 arg10 harg10 h1 h2 h3 x0 x1 x2 x3 xs0 xs1).2.2.1)) = lo xs0
    ∧ hi (arg9.view.read (Elt F) (arg9.view.writes (Elt F) (harg9.unread xs0) (runD c i arg3 harg3 arg4 harg4 arg5 harg5 arg6 harg6 arg7 harg7 arg8 harg8 arg9 harg9 arg10 harg10 h1 h2 h3 x0 x1 x2 x3 xs0 xs1).2.2.1))
        = k0_pay1 (k0_pay8 x0 x1 x2 x3) (hi xs0)
    ∧ lo (arg10.view.read (Elt F) (arg10.view.writes (Elt F) (harg10.unread xs1) (runD c i arg3 harg3 arg4 harg4 arg5 harg5 arg6 harg6 arg7 harg7 arg8 harg8 arg9 harg9 arg10 harg10 h1 h2 h3 x0 x1 x2 x3 xs0 xs1).2.2.2.1)) = lo xs1
    ∧ hi (arg10.view.read (Elt F) (arg10.view.writes (Elt F) (harg10.unread xs1) (runD c i arg3 harg3 arg4 harg4 arg5 harg5 arg6 harg6 arg7 harg7 arg8 harg8 arg9 harg9 arg10 harg10 h1 h2 h3 x0 x1 x2 x3 xs0 xs1).2.2.2.1))
        = k0_pay2 (k0_pay9 x0 x1 x2 x3) (hi xs1)
    ∧ arg7.view.read (Elt F) (arg7.view.writes (Elt F) f7 (runD c i arg3 harg3 arg4 harg4 arg5 harg5 arg6 harg6 arg7 harg7 arg8 harg8 arg9 harg9 arg10 harg10 h1 h2 h3 x0 x1 x2 x3 xs0 xs1).1)
        = k0_pay3 (arg9.view.read (Elt F) (arg9.view.writes (Elt F) (harg9.unread xs0) (runD c i arg3 harg3 arg4 harg4 arg5 harg5 arg6 harg6 arg7 harg7 arg8 harg8 arg9 harg9 arg10 harg10 h1 h2 h3 x0 x1 x2 x3 xs0 xs1).2.2.1))
    ∧ arg8.view.read (Elt F) (arg8.view.writes (Elt F) f8 (runD c i arg3 harg3 arg4 harg4 arg5 harg5 arg6 harg6 arg7 harg7 arg8 harg8 arg9 harg9 arg10 harg10 h1 h2 h3 x0 x1 x2 x3 xs0 xs1).2.1)
        = k0_pay4 (arg10.view.read (Elt F) (arg10.view.writes (Elt F) (harg10.unread xs1) (runD c i arg3 harg3 arg4 harg4 arg5 harg5 arg6 harg6 arg7 harg7 arg8 harg8 arg9 harg9 arg10 harg10 h1 h2 h3 x0 x1 x2 x3 xs0 xs1).2.2.2.1)) := by
  obtain ⟨e0, e1, e2, e3⟩ := inputs_eq (F := F) arg3 harg3 arg4 harg4 arg5 harg5 arg6 harg6 x0 x1 x2 x3
  unfold runD; dsimp only; sl_unfold_words
  rw [e0, e1, e2, e3]
  refine ⟨?_, ?_, ?_, ?_, ?_, ?_⟩
  · exact (lo_miss arg9.view _ _ _ _ ho2).trans (congrArg lo (harg9.read_unread xs0))
  · exact (hi_hit arg9.view _ _ _ _ ho2).trans (congrArg (k0_pay1 (k0_pay8 x0 x1 x2 x3))
      ((load_hi arg9.view _ _ ho2).trans (congrArg hi (harg9.read_unread xs0))))
  · exact (lo_miss arg10.view _ _ _ _ ho3).trans (congrArg lo (harg10.read_unread xs1))
  · exact (hi_hit arg10.view _ _ _ _ ho3).trans (congrArg (k0_pay2 (k0_pay9 x0 x1 x2 x3))
      ((load_hi arg10.view _ _ ho3).trans (congrArg hi (harg10.read_unread xs1))))
  · exact (read_whole_store3 arg7.view _ _ _ _).trans (congrArg k0_pay3 (load_all arg9.view _ _))
  · exact (read_whole_store3 arg8.view _ _ _ _).trans (congrArg k0_pay4 (load_all arg10.view _ _))

end Runs

end Cert.KernelIdeal.Hand

end
-- ==== Proof.KI.Frame.lean ====
/-
  The frame of the kernel. The invariant between points: before the first point both accumulators hold anything;
  after point n they hold contents whose halves are those of `halvesAt` (`Tracked`). Each point's body is the run
  of its case; the outputs' blocks, stored at a batch's last point, are the square roots of the accumulators as
  they then stand.
-/
import proofs.«104914_j13314398618340_2_alg».proof.Proof.KI.Leaves

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The halves across a point -/

/-- The halves a point starts from: +inf before the first point, else what the point before left. -/
def prevHalves (c : Dev nD) (t : Fin cfg0.N) : Halves F :=
  if h : t.val = 0 then ⟨lo (k0_pay5 (F := F)), hi (k0_pay5 (F := F)), k0_pay6 (F := F), k0_pay6 (F := F)⟩
  else halvesAt m c (t.val - 1) (by have := t.isLt; omega)

theorem halvesAt_step (c : Dev nD) (t : Fin cfg0.N) : halvesAt m c t.val t.isLt = stepHalves m c t (prevHalves m c t) := by
  obtain ⟨n, hn⟩ := t
  cases n with
  | zero => rfl
  | succ n => unfold prevHalves; rw [dif_neg (Nat.succ_ne_zero n)]; rfl

theorem prevHalves_pos (c : Dev nD) (t : Fin cfg0.N) (hz : t.val ≠ 0) :
    prevHalves m c t = halvesAt m c (t.val - 1) (by have := t.isLt; omega) := by
  unfold prevHalves; rw [dif_neg hz]

theorem trackedA (c : Dev nD) (t : Fin cfg0.N) (h4 : t.val % 4 = 0) (R' C' : Vec F S4096 .f32)
    (a1 : lo R' = k0_pay1 (rowMin m c t) (lo (k0_pay5 (F := F)))) (a2 : hi R' = hi (k0_pay5 (F := F)))
    (a3 : lo C' = k0_pay2 (colMin m c t) (k0_pay6 (F := F))) : Tracked m c t.val t.isLt R' C' := by
  unfold Tracked; rw [halvesAt_step]; unfold stepHalves; rw [if_pos h4]
  exact ⟨a1, a2, a3, fun h => by omega⟩

theorem trackedB (c : Dev nD) (t : Fin cfg0.N) (h4 : t.val % 4 = 1) (R C : Vec F S4096 .f32)
    (hT : Tracked m c (t.val - 1) (by have := t.isLt; omega) R C) (R' C' : Vec F S4096 .f32)
    (a1 : lo R' = lo R) (a2 : hi R' = k0_pay1 (rowMin m c t) (hi R))
    (a3 : lo C' = k0_pay2 (colMin m c t) (lo C)) : Tracked m c t.val t.isLt R' C' := by
  obtain ⟨b1, b2, b3, -⟩ := hT
  unfold Tracked; rw [halvesAt_step, prevHalves_pos m c t (by omega)]; unfold stepHalves
  rw [if_neg (by omega), if_pos h4]
  exact ⟨a1.trans b1, a2.trans (by rw [b2]), a3.trans (by rw [b3]), fun h => by omega⟩

theorem trackedC (c : Dev nD) (t : Fin cfg0.N) (h4 : t.val % 4 = 2) (R C : Vec F S4096 .f32)
    (hT : Tracked m c (t.val - 1) (by have := t.isLt; omega) R C) (R' C' : Vec F S4096 .f32)
    (a1 : lo R' = k0_pay1 (rowMin m c t) (lo R)) (a2 : hi R' = hi R) (a3 : lo C' = lo C)
    (a4 : hi C' = k0_pay2 (colMin m c t) (k0_pay6 (F := F))) : Tracked m c t.val t.isLt R' C' := by
  obtain ⟨b1, b2, b3, -⟩ := hT
  unfold Tracked; rw [halvesAt_step, prevHalves_pos m c t (by omega)]; unfold stepHalves
  rw [if_neg (by omega), if_neg (by omega), if_pos h4]
  exact ⟨a1.trans (by rw [b1]), a2.trans b2, a3.trans b3, fun _ => a4⟩

theorem trackedD (c : Dev nD) (t : Fin cfg0.N) (h4 : t.val % 4 = 3) (R C : Vec F S4096 .f32)
    (hT : Tracked m c (t.val - 1) (by have := t.isLt; omega) R C) (R' C' : Vec F S4096 .f32)
    (a1 : lo R' = lo R) (a2 : hi R' = k0_pay1 (rowMin m c t) (hi R)) (a3 : lo C' = lo C)
    (a4 : hi C' = k0_pay2 (colMin m c t) (hi C)) : Tracked m c t.val t.isLt R' C' := by
  obtain ⟨b1, b2, b3, b4⟩ := hT
  have b4' := b4 (by omega)
  unfold Tracked; rw [halvesAt_step, prevHalves_pos m c t (by omega)]; unfold stepHalves
  rw [if_neg (by omega), if_neg (by omega), if_neg (by omega)]
  exact ⟨a1.trans b1, a2.trans (by rw [b2]), a3.trans b3, fun _ => a4.trans (by rw [b4'])⟩

/-- Tracked contents at the third or fourth point of a batch are the join of the halves. -/
theorem tracked_join (c : Dev nD) (n : ℕ) (hn : n < cfg0.N) (h2 : 2 ≤ n % 4) (R C : Vec F S4096 .f32)
    (hT : Tracked m c n hn R C) :
    R = join (halvesAt m c n hn).rlo (halvesAt m c n hn).rhi ∧ C = join (halvesAt m c n hn).clo (halvesAt m c n hn).chi := by
  obtain ⟨b1, b2, b3, b4⟩ := hT
  exact ⟨by rw [← b1, ← b2, join_lo_hi], by rw [← b3, ← b4 h2, join_lo_hi]⟩

/-! ## The invariant and the proof data -/

def PhiS (c : Dev nD) : (n : ℕ) → n ≤ cfg0.N → sProp 𝕄
  | 0, _ => Pipeline.ΦA spec0 c
  | n + 1, hn => iprop(iprop((∃ R, ∃ C, ⌜Tracked m c n hn R C⌝ ∗ owns (c : Thread nD τ) rowM fullShare R ∗ owns (c : Thread nD τ) colM fullShare C)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ R, ∃ C, ⌜Tracked m c n hn R C⌝ ∗ owns (c : Thread nD τ) rowM fullShare R ∗ owns (c : Thread nD τ) colM fullShare C)) ∗ (∃ r, prngReg c r)) := rfl

theorem PhiS_pos (c : Dev nD) (n : ℕ) (h : n ≤ cfg0.N) (hz : n ≠ 0) :
    PhiS m c n h = iprop(iprop((∃ R, ∃ C, ⌜Tracked m c (n - 1) (by omega) R C⌝ ∗ owns (c : Thread nD τ) rowM fullShare R ∗ owns (c : Thread nD τ) colM fullShare C)) ∗ (∃ r, prngReg c r)) := by
  cases n with
  | zero => exact absurd rfl hz
  | succ n => rfl

/-- The proof data: the arrays as the region finds them; after the body each input's buffer at its block, each
    output's at the square roots of its accumulator's joined halves (read only at a batch's last point); the
    invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay3 (join (halvesAt m c t.val t.isLt).rlo (halvesAt m c t.val t.isLt).rhi)
    | ⟨5, _⟩ => k0_pay4 (join (halvesAt m c t.val t.isLt).clo (halvesAt m c t.val t.isLt).chi)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t
    = k0_pay3 (join (halvesAt m c t.val t.isLt).rlo (halvesAt m c t.val t.isLt).rhi) := by dsimp only [dats]
theorem after5 (c : Dev nD) (t : Fin cfg0.N) : (dats m 0 c).after 5 t
    = k0_pay4 (join (halvesAt m c t.val t.isLt).clo (halvesAt m c t.val t.isLt).chi) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 2000000 in
/-- A batch's first point. -/
theorem sound_A (c : Dev nD) (t : Fin cfg0.N) (h4 : t.val % 4 = 0) :
    bodyPre m c t ⊢ wp frame (wpE (defs₀ (F := F)) Variants.none c none) Set.univ (bodyAt0 t) (fun _ => bodyPost m c t) := by
  have hA : atFirst (grid0.coords t) := (atFirst_iff t).mpr h4
  have hS : atSweep (grid0.coords t) := (atSweep_iff t).mpr (by omega)
  have hL : ¬atLast (grid0.coords t) := fun h => by have := (atLast_iff t).mp h; omega
  have ho1 : k0_off1 (grid0.coords t) = ![0] := by rw [off1_eq t, show (t.val / 2) % 2 = 0 by omega]
  have ho2 : k0_off2 (grid0.coords t) = ![0] := by rw [off2_eq t, show t.val % 2 = 0 by omega]
  have ho3 : k0_off3 (grid0.coords t) = ![0] := by rw [off3_eq t, show (t.val / 2) % 2 = 0 by omega]
  unfold bodyPre bodyPost bodyAt0
  simp only [before0, before1, before2, before3]
  rewrite [show (dats m 0 c).owesAt () t.succ = (dats m 0 c).owesAt () t.castSucc from rfl]
  rewrite [show (dats m 0 c).Φ t.succ = PhiS m c (t.val + 1) t.isLt from rfl, PhiS_succ]
  rewrite [show (dats m 0 c).leavesExact 0 t = owns (c : Thread nD τ) (ms0 t) fullShare ((dats m 0 c).after 0 t) from by
    unfold Dat.leavesExact; rw [live0 t], after0]
  rewrite [show (dats m 0 c).leavesExact 1 t = owns (c : Thread nD τ) (ms1 t) fullShare ((dats m 0 c).after 1 t) from by
    unfold Dat.leavesExact; rw [live1 t], after1]
  rewrite [show (dats m 0 c).leavesExact 2 t = owns (c : Thread nD τ) (ms2 t) fullShare ((dats m 0 c).after 2 t) from by
    unfold Dat.leavesExact; rw [live2 t], after2]
  rewrite [show (dats m 0 c).leavesExact 3 t = owns (c : Thread nD τ) (ms3 t) fullShare ((dats m 0 c).after 3 t) from by
    unfold Dat.leavesExact; rw [live3 t], after3]
  rewrite [Dat.leavesExact_idle (dats m 0 c) 4 t (idle4 t hL) (noFlush4 t hL)]
  rewrite [Dat.leavesExact_idle (dats m 0 c) 5 t (idle5 t hL) (noFlush5 t hL)]
  have key : ∀ (d0 d1 : Vec F S4096 .f32) (f9 : rowM.view.ty.Contents (Elt F)),
      Tracked m c t.val t.isLt
        (rowM.view.read (Elt F) (rowM.view.writes (Elt F) f9 (runA c (grid0.coords t) (ms0 t) (hs0 t) (ms1 t) (hs1 t) (ms2 t) (hs2 t) (ms3 t) (hs3 t) (ms4 t) (hs4 t) (ms5 t) (hs5 t) rowM rowM_whole colM colM_whole hA hS hL (iblk m c 0 t) (iblk m c 1 t) (iblk m c 2 t) (iblk m c 3 t) d0 d1).1))
        (colM.view.read (Elt F) (colM.view.writes (Elt F) (colM_whole.unread d1) (runA c (grid0.coords t) (ms0 t) (hs0 t) (ms1 t) (hs1 t) (ms2 t) (hs2 t) (ms3 t) (hs3 t) (ms4 t) (hs4 t) (ms5 t) (hs5 t) rowM rowM_whole colM colM_whole hA hS hL (iblk m c 0 t) (iblk m c 1 t) (iblk m c 2 t) (iblk m c 3 t) d0 d1).2.1)) := by
    intro d0 d1 f9
    obtain ⟨a1, a2, a3⟩ := leavesA c (grid0.coords t) (ms0 t) (hs0 t) (ms1 t) (hs1 t) (ms2 t) (hs2 t) (ms3 t) (hs3 t) (ms4 t) (hs4 t) (ms5 t) (hs5 t) rowM rowM_whole colM colM_whole (iblk m c 0 t) (iblk m c 1 t) (iblk m c 2 t) (iblk m c 3 t) d0 d1 f9 hA hS hL ho1 ho2 ho3
    exact trackedA m c t h4 _ _ a1 a2 a3
  have hΦ : (dats m 0 c).Φ t.castSucc ⊢ (iprop((∃ d0, ∃ d1, owns (c : Thread nD τ) rowM fullShare d0 ∗ owns (c : Thread nD τ) colM fullShare d1) ∗ (∃ r, prngReg c r)) : sProp 𝕄) := by
    by_cases hz : t.val = 0
    · rewrite [PhiS_castSucc m c t, PhiS_zero m c _ _ hz, PhiA_eq]
      iintro ⟨⟨⟨%d0, HS0⟩, ⟨%d1, HS1⟩⟩, Hg⟩
      isplitl [HS0 HS1]
      · iexists d0, d1
        isplitl [HS0]; · iexact HS0
        iexact HS1
      iexact Hg
    · rewrite [PhiS_castSucc m c t, PhiS_pos m c _ _ hz]
      iintro ⟨⟨%d0, %d1, -, HS0, HS1⟩, Hg⟩
      isplitl [HS0 HS1]
      · iexists d0, d1
        isplitl [HS0]; · iexact HS0
        iexact HS1
      iexact Hg
  iintro ⟨HΦ, Ho, ⟨%e0, H0⟩, ⟨%e1, H1⟩, ⟨%e2, H2⟩, ⟨%e3, H3⟩, ⟨%d4, H4⟩, ⟨%d5, H5⟩⟩
  ihave HΦ' := hΦ $$ HΦ
  icases HΦ' with ⟨⟨%d0, %d1, HS0, HS1⟩, Hg⟩
  iapply ((runA c (grid0.coords t) (ms0 t) (hs0 t) (ms1 t) (hs1 t) (ms2 t) (hs2 t) (ms3 t) (hs3 t) (ms4 t) (hs4 t) (ms5 t) (hs5 t) rowM rowM_whole colM colM_whole hA hS hL (iblk m c 0 t) (iblk m c 1 t) (iblk m c 2 t) (iblk m c 3 t) d0 d1).2.2 _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, ⟨%f9, HS0⟩, HS1⟩
  have key := key d0 d1 f9
  isplitl [HS0 HS1 Hg]
  · isplitl [HS0 HS1]
    · iexists _, _
      isplitr; · ipureintro; exact key
      isplitl [HS0]
      · unfold owns; iexists _; isplitr; · ipureintro; rfl
        iexact HS0
      · unfold owns; iexists _; isplitr; · ipureintro; rfl
        iexact HS1
    · iexact Hg
  isplitl [Ho]; · iexact Ho
  isplitl [H0]; · iexact H0
  isplitl [H1]; · iexact H1
  isplitl [H2]; · iexact H2
  isplitl [H3]; · iexact H3
  isplitl [H4]; · iexists _; iexact H4
  iexists _; iexact H5

set_option maxHeartbeats 2000000 in
/-- The second point of a batch (j = 0, i = 1). -/
theorem sound_B (c : Dev nD) (t : Fin cfg0.N) (h4 : t.val % 4 = 1) :
    bodyPre m c t ⊢ wp frame (wpE (defs₀ (F := F)) Variants.none c none) Set.univ (bodyAt0 t) (fun _ => bodyPost m c t) := by
  have hA : ¬atFirst (grid0.coords t) := fun h => by have := (atFirst_iff t).mp h; omega
  have hS : ¬atSweep (grid0.coords t) := fun h => by have := (atSweep_iff t).mp h; omega
  have hL : ¬atLast (grid0.coords t) := fun h => by have := (atLast_iff t).mp h; omega
  have ho2 : k0_off2 (grid0.coords t) = ![2048] := by rw [off2_eq t, show t.val % 2 = 1 by omega]
  have ho3 : k0_off3 (grid0.coords t) = ![0] := by rw [off3_eq t, show (t.val / 2) % 2 = 0 by omega]
  have hz : t.val ≠ 0 := by omega
  unfold bodyPre bodyPost bodyAt0
  simp only [before0, before1, before2, before3]
  rewrite [show (dats m 0 c).owesAt () t.succ = (dats m 0 c).owesAt () t.castSucc from rfl]
  rewrite [show (dats m 0 c).Φ t.succ = PhiS m c (t.val + 1) t.isLt from rfl, PhiS_succ]
  rewrite [show (dats m 0 c).leavesExact 0 t = owns (c : Thread nD τ) (ms0 t) fullShare ((dats m 0 c).after 0 t) from by
    unfold Dat.leavesExact; rw [live0 t], after0]
  rewrite [show (dats m 0 c).leavesExact 1 t = owns (c : Thread nD τ) (ms1 t) fullShare ((dats m 0 c).after 1 t) from by
    unfold Dat.leavesExact; rw [live1 t], after1]
  rewrite [show (dats m 0 c).leavesExact 2 t = owns (c : Thread nD τ) (ms2 t) fullShare ((dats m 0 c).after 2 t) from by
    unfold Dat.leavesExact; rw [live2 t], after2]
  rewrite [show (dats m 0 c).leavesExact 3 t = owns (c : Thread nD τ) (ms3 t) fullShare ((dats m 0 c).after 3 t) from by
    unfold Dat.leavesExact; rw [live3 t], after3]
  rewrite [Dat.leavesExact_idle (dats m 0 c) 4 t (idle4 t hL) (noFlush4 t hL)]
  rewrite [Dat.leavesExact_idle (dats m 0 c) 5 t (idle5 t hL) (noFlush5 t hL)]
  rewrite [PhiS_castSucc m c t, PhiS_pos m c _ _ hz]
  iintro ⟨⟨⟨%R, %C, %hT, HS0, HS1⟩, Hg⟩, Ho, ⟨%e0, H0⟩, ⟨%e1, H1⟩, ⟨%e2, H2⟩, ⟨%e3, H3⟩, ⟨%d4, H4⟩, ⟨%d5, H5⟩⟩
  obtain ⟨a1, a2, a3, -⟩ := leavesB c (grid0.coords t) (ms0 t) (hs0 t) (ms1 t) (hs1 t) (ms2 t) (hs2 t) (ms3 t) (hs3 t) (ms4 t) (hs4 t) (ms5 t) (hs5 t) rowM rowM_whole colM colM_whole (iblk m c 0 t) (iblk m c 1 t) (iblk m c 2 t) (iblk m c 3 t) R C hA hS hL ho2 ho3
  have key := trackedB m c t h4 R C hT _ _ a1 a2 a3
  iapply ((runB c (grid0.coords t) (ms0 t) (hs0 t) (ms1 t) (hs1 t) (ms2 t) (hs2 t) (ms3 t) (hs3 t) (ms4 t) (hs4 t) (ms5 t) (hs5 t) rowM rowM_whole colM colM_whole hA hS hL (iblk m c 0 t) (iblk m c 1 t) (iblk m c 2 t) (iblk m c 3 t) R C).2.2 _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, HS0, HS1⟩
  isplitl [HS0 HS1 Hg]
  · isplitl [HS0 HS1]
    · iexists _, _
      isplitr; · ipureintro; exact key
      isplitl [HS0]
      · unfold owns; iexists _; isplitr; · ipureintro; rfl
        iexact HS0
      · unfold owns; iexists _; isplitr; · ipureintro; rfl
        iexact HS1
    · iexact Hg
  isplitl [Ho]; · iexact Ho
  isplitl [H0]; · iexact H0
  isplitl [H1]; · iexact H1
  isplitl [H2]; · iexact H2
  isplitl [H3]; · iexact H3
  isplitl [H4]; · iexists _; iexact H4
  iexists _; iexact H5

set_option maxHeartbeats 2000000 in
/-- The third point of a batch (j = 1, i = 0). -/
theorem sound_C (c : Dev nD) (t : Fin cfg0.N) (h4 : t.val % 4 = 2) :
    bodyPre m c t ⊢ wp frame (wpE (defs₀ (F := F)) Variants.none c none) Set.univ (bodyAt0 t) (fun _ => bodyPost m c t) := by
  have hA : ¬atFirst (grid0.coords t) := fun h => by have := (atFirst_iff t).mp h; omega
  have hS : atSweep (grid0.coords t) := (atSweep_iff t).mpr (by omega)
  have hL : ¬atLast (grid0.coords t) := fun h => by have := (atLast_iff t).mp h; omega
  have ho1 : k0_off1 (grid0.coords t) = ![2048] := by rw [off1_eq t, show (t.val / 2) % 2 = 1 by omega]
  have ho2 : k0_off2 (grid0.coords t) = ![0] := by rw [off2_eq t, show t.val % 2 = 0 by omega]
  have ho3 : k0_off3 (grid0.coords t) = ![2048] := by rw [off3_eq t, show (t.val / 2) % 2 = 1 by omega]
  have hz : t.val ≠ 0 := by omega
  unfold bodyPre bodyPost bodyAt0
  simp only [before0, before1, before2, before3]
  rewrite [show (dats m 0 c).owesAt () t.succ = (dats m 0 c).owesAt () t.castSucc from rfl]
  rewrite [show (dats m 0 c).Φ t.succ = PhiS m c (t.val + 1) t.isLt from rfl, PhiS_succ]
  rewrite [show (dats m 0 c).leavesExact 0 t = owns (c : Thread nD τ) (ms0 t) fullShare ((dats m 0 c).after 0 t) from by
    unfold Dat.leavesExact; rw [live0 t], after0]
  rewrite [show (dats m 0 c).leavesExact 1 t = owns (c : Thread nD τ) (ms1 t) fullShare ((dats m 0 c).after 1 t) from by
    unfold Dat.leavesExact; rw [live1 t], after1]
  rewrite [show (dats m 0 c).leavesExact 2 t = owns (c : Thread nD τ) (ms2 t) fullShare ((dats m 0 c).after 2 t) from by
    unfold Dat.leavesExact; rw [live2 t], after2]
  rewrite [show (dats m 0 c).leavesExact 3 t = owns (c : Thread nD τ) (ms3 t) fullShare ((dats m 0 c).after 3 t) from by
    unfold Dat.leavesExact; rw [live3 t], after3]
  rewrite [Dat.leavesExact_idle (dats m 0 c) 4 t (idle4 t hL) (noFlush4 t hL)]
  rewrite [Dat.leavesExact_idle (dats m 0 c) 5 t (idle5 t hL) (noFlush5 t hL)]
  rewrite [PhiS_castSucc m c t, PhiS_pos m c _ _ hz]
  iintro ⟨⟨⟨%R, %C, %hT, HS0, HS1⟩, Hg⟩, Ho, ⟨%e0, H0⟩, ⟨%e1, H1⟩, ⟨%e2, H2⟩, ⟨%e3, H3⟩, ⟨%d4, H4⟩, ⟨%d5, H5⟩⟩
  obtain ⟨a1, a2, a3, a4⟩ := leavesC c (grid0.coords t) (ms0 t) (hs0 t) (ms1 t) (hs1 t) (ms2 t) (hs2 t) (ms3 t) (hs3 t) (ms4 t) (hs4 t) (ms5 t) (hs5 t) rowM rowM_whole colM colM_whole (iblk m c 0 t) (iblk m c 1 t) (iblk m c 2 t) (iblk m c 3 t) R C hA hS hL ho1 ho2 ho3
  have key := trackedC m c t h4 R C hT _ _ a1 a2 a3 a4
  iapply ((runC c (grid0.coords t) (ms0 t) (hs0 t) (ms1 t) (hs1 t) (ms2 t) (hs2 t) (ms3 t) (hs3 t) (ms4 t) (hs4 t) (ms5 t) (hs5 t) rowM rowM_whole colM colM_whole hA hS hL (iblk m c 0 t) (iblk m c 1 t) (iblk m c 2 t) (iblk m c 3 t) R C).2.2 _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, HS0, HS1⟩
  isplitl [HS0 HS1 Hg]
  · isplitl [HS0 HS1]
    · iexists _, _
      isplitr; · ipureintro; exact key
      isplitl [HS0]
      · unfold owns; iexists _; isplitr; · ipureintro; rfl
        iexact HS0
      · unfold owns; iexists _; isplitr; · ipureintro; rfl
        iexact HS1
    · iexact Hg
  isplitl [Ho]; · iexact Ho
  isplitl [H0]; · iexact H0
  isplitl [H1]; · iexact H1
  isplitl [H2]; · iexact H2
  isplitl [H3]; · iexact H3
  isplitl [H4]; · iexists _; iexact H4
  iexists _; iexact H5

set_option maxHeartbeats 2000000 in
/-- A batch's last point (j = 1, i = 1): the outputs' blocks are stored. -/
theorem sound_D (c : Dev nD) (t : Fin cfg0.N) (h4 : t.val % 4 = 3) :
    bodyPre m c t ⊢ wp frame (wpE (defs₀ (F := F)) Variants.none c none) Set.univ (bodyAt0 t) (fun _ => bodyPost m c t) := by
  have hA : ¬atFirst (grid0.coords t) := fun h => by have := (atFirst_iff t).mp h; omega
  have hS : ¬atSweep (grid0.coords t) := fun h => by have := (atSweep_iff t).mp h; omega
  have hL : atLast (grid0.coords t) := (atLast_iff t).mpr h4
  have ho2 : k0_off2 (grid0.coords t) = ![2048] := by rw [off2_eq t, show t.val % 2 = 1 by omega]
  have ho3 : k0_off3 (grid0.coords t) = ![2048] := by rw [off3_eq t, show (t.val / 2) % 2 = 1 by omega]
  have hz : t.val ≠ 0 := by omega
  unfold bodyPre bodyPost bodyAt0
  simp only [before0, before1, before2, before3]
  rewrite [show (dats m 0 c).owesAt () t.succ = (dats m 0 c).owesAt () t.castSucc from rfl]
  rewrite [show (dats m 0 c).Φ t.succ = PhiS m c (t.val + 1) t.isLt from rfl, PhiS_succ]
  rewrite [show (dats m 0 c).leavesExact 0 t = owns (c : Thread nD τ) (ms0 t) fullShare ((dats m 0 c).after 0 t) from by
    unfold Dat.leavesExact; rw [live0 t], after0]
  rewrite [show (dats m 0 c).leavesExact 1 t = owns (c : Thread nD τ) (ms1 t) fullShare ((dats m 0 c).after 1 t) from by
    unfold Dat.leavesExact; rw [live1 t], after1]
  rewrite [show (dats m 0 c).leavesExact 2 t = owns (c : Thread nD τ) (ms2 t) fullShare ((dats m 0 c).after 2 t) from by
    unfold Dat.leavesExact; rw [live2 t], after2]
  rewrite [show (dats m 0 c).leavesExact 3 t = owns (c : Thread nD τ) (ms3 t) fullShare ((dats m 0 c).after 3 t) from by
    unfold Dat.leavesExact; rw [live3 t], after3]
  rewrite [show (dats m 0 c).leavesExact 4 t = owns (c : Thread nD τ) (ms4 t) fullShare ((dats m 0 c).after 4 t) from by
    unfold Dat.leavesExact; rw [live4 t hL]]
  rewrite [show (dats m 0 c).leavesExact 5 t = owns (c : Thread nD τ) (ms5 t) fullShare ((dats m 0 c).after 5 t) from by
    unfold Dat.leavesExact; rw [live5 t hL]]
  rewrite [PhiS_castSucc m c t, PhiS_pos m c _ _ hz]
  iintro ⟨⟨⟨%R, %C, %hT, HS0, HS1⟩, Hg⟩, Ho, ⟨%e0, H0⟩, ⟨%e1, H1⟩, ⟨%e2, H2⟩, ⟨%e3, H3⟩, ⟨%d4, H4⟩, ⟨%d5, H5⟩⟩
  iapply ((runD c (grid0.coords t) (ms0 t) (hs0 t) (ms1 t) (hs1 t) (ms2 t) (hs2 t) (ms3 t) (hs3 t) (ms4 t) (hs4 t) (ms5 t) (hs5 t) rowM rowM_whole colM colM_whole hA hS hL (iblk m c 0 t) (iblk m c 1 t) (iblk m c 2 t) (iblk m c 3 t) R C).2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexact HS0
  isplitl [HS1]; · iexact HS1
  iintro ⟨H0, H1, H2, H3, ⟨%f7, H4⟩, ⟨%f8, H5⟩, HS0, HS1⟩
  obtain ⟨a1, a2, a3, a4, a5, a6⟩ := leavesD c (grid0.coords t) (ms0 t) (hs0 t) (ms1 t) (hs1 t) (ms2 t) (hs2 t) (ms3 t) (hs3 t) (ms4 t) (hs4 t) (ms5 t) (hs5 t) rowM rowM_whole colM colM_whole (iblk m c 0 t) (iblk m c 1 t) (iblk m c 2 t) (iblk m c 3 t) R C f7 f8 hA hS hL ho2 ho3
  have key := trackedD m c t h4 R C hT _ _ a1 a2 a3 a4
  obtain ⟨jR, jC⟩ := tracked_join m c t.val t.isLt (by omega) _ _ key
  isplitl [HS0 HS1 Hg]
  · isplitl [HS0 HS1]
    · iexists _, _
      isplitr; · ipureintro; exact key
      isplitl [HS0]
      · unfold owns; iexists _; isplitr; · ipureintro; rfl
        iexact HS0
      · unfold owns; iexists _; isplitr; · ipureintro; rfl
        iexact HS1
    · iexact Hg
  isplitl [Ho]; · iexact Ho
  isplitl [H0]; · iexact H0
  isplitl [H1]; · iexact H1
  isplitl [H2]; · iexact H2
  isplitl [H3]; · iexact H3
  isplitl [H4]
  · unfold owns; iexists _; isplitr
    · ipureintro; rw [after4]; exact a5.trans (congrArg k0_pay3 jR)
    iexact H4
  · unfold owns; iexists _; isplitr
    · ipureintro; rw [after5]; exact a6.trans (congrArg k0_pay4 jC)
    iexact H5

end Cert.KernelIdeal.Hand

end
-- ==== Proof.KI.Main.lean ====
/-
  The frame run. Every point of the grid is one of the four cases, so the body obligation holds at every point; the
  class invariant is the invariant before the first point and follows from the one after the last; the launch
  theorem then gives the run of @main to the end, every array of the pipeline at what the proof data computes and
  the host lines after the region applied to them.
-/
import proofs.«104914_j13314398618340_2_alg».proof.Proof.KI.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · exact sound_A m c t h0
  by_cases h1 : t.val % 4 = 1
  · exact sound_B m c t h1
  by_cases h2 : t.val % 4 = 2
  · exact sound_C m c t h2
  exact sound_D m c t (by omega)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨%R, %C, -, HS0, HS1⟩, Hg⟩
  isplitl [HS0 HS1]
  · isplitl [HS0]; · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 64 := N_0; omega)

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: @main runs to the end and leaves its two argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.KI.Arrays.lean ====
/-
  The two result arrays after the run. Output window w (4: the row accumulator's square roots, 5: the column
  accumulator's) has one block per batch, [1, 1, 4096] at (b, 0, 0), written back at the batch's last point
  t = 4 b + 3 and nowhere else; these blocks cover the [16, 1, 4096] array. So the array ends, at (b, 0, n), at what
  point 4 b + 3 stored at n. And the halves that point stores are two updates each, by the batch's four tiles.
-/
import proofs.«104914_j13314398618340_2_alg».proof.Proof.KI.Main
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- Point k of batch b. -/
def pt (b : Fin 16) (k : Fin 4) : Fin cfg0.N := ⟨4 * b.val + k.val, by rw [show cfg0.N = 64 from N_0]; omega⟩

/-- The block index maps of the two output windows, decided over the grid: block (t / 4, 0, 0). -/
theorem idx4 : ∀ t : Fin cfg0.N, win0_4.index t (0 : Fin 3) = t.val / 4 ∧ win0_4.index t (1 : Fin 3) = 0 ∧ win0_4.index t (2 : Fin 3) = 0 :=
  (by decide +kernel : ∀ t : Fin grid0.N, _)
theorem idx5 : ∀ t : Fin cfg0.N, win0_5.index t (0 : Fin 3) = t.val / 4 ∧ win0_5.index t (1 : Fin 3) = 0 ∧ win0_5.index t (2 : Fin 3) = 0 :=
  (by decide +kernel : ∀ t : Fin grid0.N, _)

/-- What the arrays end holding: at (b, 0, n) the last point of batch b at n. -/
def rowsOut (c : Dev nD) : S16x1x4096.Idx → Elt F .f32 :=
  fun y => (dats m 0 c).after 4 (pt (y 0) 3) (ix3 (0 : Fin 1) (0 : Fin 1) (y 2))
def colsOut (c : Dev nD) : S16x1x4096.Idx → Elt F .f32 :=
  fun y => (dats m 0 c).after 5 (pt (y 0) 3) (ix3 (0 : Fin 1) (0 : Fin 1) (y 2))

theorem mem_blk4 (t : Fin cfg0.N) (i : S16x1x4096.Idx) :
    i ∈ ((cfg0.win 4).blk t).view.set ↔ ∀ a : Fin 3, win0_4.index t a * S1x1x4096.size a ≤ (i a).val ∧ (i a).val < win0_4.index t a * S1x1x4096.size a + S1x1x4096.size a := by
  show i ∈ ((View.whole main_v6_0).slice (win0_4.rect t)).set ↔ _
  rw [View.set_slice_whole, Rect.mem_set_unit]
  exact Iff.rfl
theorem mem_blk5 (t : Fin cfg0.N) (i : S16x1x4096.Idx) :
    i ∈ ((cfg0.win 5).blk t).view.set ↔ ∀ a : Fin 3, win0_5.index t a * S1x1x4096.size a ≤ (i a).val ∧ (i a).val < win0_5.index t a * S1x1x4096.size a + S1x1x4096.size a := by
  show i ∈ ((View.whole main_v6_1).slice (win0_5.rect t)).set ↔ _
  rw [View.set_slice_whole, Rect.mem_set_unit]
  exact Iff.rfl

/-- What a batch's last point writes back is its block of `rowsOut`. -/
theorem flushed4_eq (c : Dev nD) (t : Fin cfg0.N) (hf : (cfg0.win 4).flush t = true) :
    (dats m 0 c).flushed 4 t = ((cfg0.win 4).blk t).view.read (Elt F) (rowsOut m c) := by
  have h3 : t.val % 4 = 3 := (flush0_4 t).mp hf
  obtain ⟨e0, e1, e2⟩ := idx4 t
  show (cfg0.win 4).cut (grid0.coords t) ((dats m 0 c).after 4 t) = _
  funext j
  show (dats m 0 c).after 4 t j = (dats m 0 c).after 4 (pt ((((cfg0.win 4).blk t).view.emb j) 0) 3) (ix3 (0 : Fin 1) (0 : Fin 1) ((((cfg0.win 4).blk t).view.emb j) 2))
  have hj0 : (j 0).val = 0 := by have : (j 0).val < 1 := (j 0).isLt; omega
  have hj1 : (j 1).val = 0 := by have : (j 1).val < 1 := (j 1).isLt; omega
  have a0 : ((((cfg0.win 4).blk t).view.emb j) 0).val = t.val / 4 := by
    show win0_4.index t (0 : Fin 3) * 1 + 1 * (j 0).val = t.val / 4; omega
  have a2 : ((((cfg0.win 4).blk t).view.emb j) 2).val = (j 2).val := by
    show win0_4.index t (2 : Fin 3) * 4096 + 1 * (j 2).val = (j 2).val; omega
  have p1 : pt ((((cfg0.win 4).blk t).view.emb j) 0) 3 = t := Fin.ext (by show 4 * _ + 3 = t.val; rw [a0]; omega)
  have p2 : ix3 (0 : Fin 1) (0 : Fin 1) ((((cfg0.win 4).blk t).view.emb j) 2) = j := by
    funext a; match a with
    | ⟨0, _⟩ => exact Fin.ext hj0.symm
    | ⟨1, _⟩ => exact Fin.ext hj1.symm
    | ⟨2, _⟩ => exact Fin.ext a2
  rw [p1]
  exact congrArg ((dats m 0 c).after 4 t) p2.symm

theorem flushed5_eq (c : Dev nD) (t : Fin cfg0.N) (hf : (cfg0.win 5).flush t = true) :
    (dats m 0 c).flushed 5 t = ((cfg0.win 5).blk t).view.read (Elt F) (colsOut m c) := by
  have h3 : t.val % 4 = 3 := (flush0_5 t).mp hf
  obtain ⟨e0, e1, e2⟩ := idx5 t
  show (cfg0.win 5).cut (grid0.coords t) ((dats m 0 c).after 5 t) = _
  funext j
  show (dats m 0 c).after 5 t j = (dats m 0 c).after 5 (pt ((((cfg0.win 5).blk t).view.emb j) 0) 3) (ix3 (0 : Fin 1) (0 : Fin 1) ((((cfg0.win 5).blk t).view.emb j) 2))
  have hj0 : (j 0).val = 0 := by have : (j 0).val < 1 := (j 0).isLt; omega
  have hj1 : (j 1).val = 0 := by have : (j 1).val < 1 := (j 1).isLt; omega
  have a0 : ((((cfg0.win 5).blk t).view.emb j) 0).val = t.val / 4 := by
    show win0_5.index t (0 : Fin 3) * 1 + 1 * (j 0).val = t.val / 4; omega
  have a2 : ((((cfg0.win 5).blk t).view.emb j) 2).val = (j 2).val := by
    show win0_5.index t (2 : Fin 3) * 4096 + 1 * (j 2).val = (j 2).val; omega
  have p1 : pt ((((cfg0.win 5).blk t).view.emb j) 0) 3 = t := Fin.ext (by show 4 * _ + 3 = t.val; rw [a0]; omega)
  have p2 : ix3 (0 : Fin 1) (0 : Fin 1) ((((cfg0.win 5).blk t).view.emb j) 2) = j := by
    funext a; match a with
    | ⟨0, _⟩ => exact Fin.ext hj0.symm
    | ⟨1, _⟩ => exact Fin.ext hj1.symm
    | ⟨2, _⟩ => exact Fin.ext a2
  rw [p1]
  exact congrArg ((dats m 0 c).after 5 t) p2.symm

/-- Every index of the array is in the block of its batch's last point. -/
theorem cover4 (i : S16x1x4096.Idx) : ∃ t : Fin cfg0.N, (cfg0.win 4).flush t = true ∧ i ∈ ((cfg0.win 4).blk t).view.set := by
  have h0 : (i 0).val < 16 := (i 0).isLt
  have h1 : (i 1).val < 1 := (i 1).isLt
  have h2 : (i 2).val < 4096 := (i 2).isLt
  refine ⟨pt (i 0) 3, (flush0_4 _).mpr (by show (4 * (i 0).val + 3) % 4 = 3; omega), ?_⟩
  obtain ⟨e0, e1, e2⟩ := idx4 (pt (i 0) 3)
  have e0' : win0_4.index (pt (i 0) 3) (0 : Fin 3) = (i 0).val := by rw [e0]; show (4 * (i 0).val + 3) / 4 = (i 0).val; omega
  rw [mem_blk4]
  intro a
  match a with
  | ⟨0, _⟩ => show win0_4.index (pt (i 0) 3) (0 : Fin 3) * 1 ≤ (i 0).val ∧ (i 0).val < win0_4.index (pt (i 0) 3) (0 : Fin 3) * 1 + 1; omega
  | ⟨1, _⟩ => show win0_4.index (pt (i 0) 3) (1 : Fin 3) * 1 ≤ (i 1).val ∧ (i 1).val < win0_4.index (pt (i 0) 3) (1 : Fin 3) * 1 + 1; omega
  | ⟨2, _⟩ => show win0_4.index (pt (i 0) 3) (2 : Fin 3) * 4096 ≤ (i 2).val ∧ (i 2).val < win0_4.index (pt (i 0) 3) (2 : Fin 3) * 4096 + 4096; omega

theorem cover5 (i : S16x1x4096.Idx) : ∃ t : Fin cfg0.N, (cfg0.win 5).flush t = true ∧ i ∈ ((cfg0.win 5).blk t).view.set := by
  have h0 : (i 0).val < 16 := (i 0).isLt
  have h1 : (i 1).val < 1 := (i 1).isLt
  have h2 : (i 2).val < 4096 := (i 2).isLt
  refine ⟨pt (i 0) 3, (flush0_5 _).mpr (by show (4 * (i 0).val + 3) % 4 = 3; omega), ?_⟩
  obtain ⟨e0, e1, e2⟩ := idx5 (pt (i 0) 3)
  have e0' : win0_5.index (pt (i 0) 3) (0 : Fin 3) = (i 0).val := by rw [e0]; show (4 * (i 0).val + 3) / 4 = (i 0).val; omega
  rw [mem_blk5]
  intro a
  match a with
  | ⟨0, _⟩ => show win0_5.index (pt (i 0) 3) (0 : Fin 3) * 1 ≤ (i 0).val ∧ (i 0).val < win0_5.index (pt (i 0) 3) (0 : Fin 3) * 1 + 1; omega
  | ⟨1, _⟩ => show win0_5.index (pt (i 0) 3) (1 : Fin 3) * 1 ≤ (i 1).val ∧ (i 1).val < win0_5.index (pt (i 0) 3) (1 : Fin 3) * 1 + 1; omega
  | ⟨2, _⟩ => show win0_5.index (pt (i 0) 3) (2 : Fin 3) * 4096 ≤ (i 2).val ∧ (i 2).val < win0_5.index (pt (i 0) 3) (2 : Fin 3) * 4096 + 4096; omega

/-- The two result arrays after the run. -/
theorem final4 (c : Dev nD) : (dats m 0 c).arrAt 4 cfg0.N = rowsOut m c :=
  (dats m 0 c).arrAt_eq_of_cover 4 (rowsOut m c) (flushed4_eq m c) (cover4)
theorem final5 (c : Dev nD) : (dats m 0 c).arrAt 5 cfg0.N = colsOut m c :=
  (dats m 0 c).arrAt_eq_of_cover 5 (colsOut m c) (flushed5_eq m c) (cover5)

/-! ## The halves at a batch's last point -/

theorem halves_last (c : Dev nD) (b : Fin 16) :
    (halvesAt m c (pt b 3).val (pt b 3).isLt).rlo = k0_pay1 (rowMin m c (pt b 2)) (k0_pay1 (rowMin m c (pt b 0)) (lo (k0_pay5 (F := F))))
    ∧ (halvesAt m c (pt b 3).val (pt b 3).isLt).rhi = k0_pay1 (rowMin m c (pt b 3)) (k0_pay1 (rowMin m c (pt b 1)) (hi (k0_pay5 (F := F))))
    ∧ (halvesAt m c (pt b 3).val (pt b 3).isLt).clo = k0_pay2 (colMin m c (pt b 1)) (k0_pay2 (colMin m c (pt b 0)) (k0_pay6 (F := F)))
    ∧ (halvesAt m c (pt b 3).val (pt b 3).isLt).chi = k0_pay2 (colMin m c (pt b 3)) (k0_pay2 (colMin m c (pt b 2)) (k0_pay6 (F := F))) := by
  have hb : b.val < 16 := b.isLt
  have s3 := halvesAt_step m c (pt b 3)
  have s2 := halvesAt_step m c (pt b 2)
  have s1 := halvesAt_step m c (pt b 1)
  have s0 := halvesAt_step m c (pt b 0)
  rw [prevHalves_pos m c (pt b 3) (by show 4 * b.val + 3 ≠ 0; omega)] at s3
  rw [prevHalves_pos m c (pt b 2) (by show 4 * b.val + 2 ≠ 0; omega)] at s2
  rw [prevHalves_pos m c (pt b 1) (by show 4 * b.val + 1 ≠ 0; omega)] at s1
  have v3 : (pt b 3).val % 4 = 3 := by show (4 * b.val + 3) % 4 = 3; omega
  have v2 : (pt b 2).val % 4 = 2 := by show (4 * b.val + 2) % 4 = 2; omega
  have v1 : (pt b 1).val % 4 = 1 := by show (4 * b.val + 1) % 4 = 1; omega
  have v0 : (pt b 0).val % 4 = 0 := by show (4 * b.val + 0) % 4 = 0; omega
  unfold stepHalves at s3 s2 s1 s0
  rw [if_neg (by omega), if_neg (by omega), if_neg (by omega)] at s3
  rw [if_neg (by omega), if_neg (by omega), if_pos v2] at s2
  rw [if_neg (by omega), if_pos v1] at s1
  rw [if_pos v0] at s0
  have e32 : halvesAt m c ((pt b 3).val - 1) (by have := (pt b 3).isLt; omega) = halvesAt m c (pt b 2).val (pt b 2).isLt := rfl
  have e21 : halvesAt m c ((pt b 2).val - 1) (by have := (pt b 2).isLt; omega) = halvesAt m c (pt b 1).val (pt b 1).isLt := rfl
  have e10 : halvesAt m c ((pt b 1).val - 1) (by have := (pt b 1).isLt; omega) = halvesAt m c (pt b 0).val (pt b 0).isLt := rfl
  rw [e32] at s3; rw [e21] at s2; rw [e10] at s1
  rw [s3, s2, s1, s0]
  exact ⟨rfl, rfl, rfl, rfl⟩

end Cert.KernelIdeal.Hand

end
-- ==== Proof.LibColumnLayout.lean ====
/-
  A vector laid out as a column, and a column broadcast across many columns.

  Reading a reshape or a broadcast at an index: an `[a]` array cast to `[a, 1]` holds at (i, 0) its entry i, and an
  `[a, 1]` column broadcast to `[a, b]` holds at (p, c) the column's entry p, whatever the column c. These are the forms a
  sum kept as a column (one number per row) takes when it is added back to a matrix row by row.
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`: the row coordinate is kept
    (or is 0 when there is one row), the unit axis is read at 0. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.KI.Tile.lean ====
/-
  The tile's arithmetic read at an index, over the extended reals. With t the tile's template points (rows r), s its
  source points (columns c), a2 r = |t r|² and b2 c = |s c|² (computed on the host and passed in as a column and a
  row), the tile's entry at (r, c) is max (a2 r + b2 c − 2 ⟨t r, s c⟩) 0; the tile's row minima are the minima over c
  from +inf, its column minima the minima over r; an accumulator's update is the pointwise minimum with what it held;
  a reset writes +inf; the output is the square root.
-/
import proofs.«104914_j13314398618340_2_alg».proof.Proof.Gen.KernelIdeal.Skeleton
import proofs.«104914_j13314398618340_2_alg».proof.Proof.LibColumnLayout
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Tile

open Idealize.ShloMosaic Idealize.ShloMosaic.ValueIdx Idealize.SL.Sem
open Cert.KernelIdeal Cert.KernelIdeal.Gen

/-- +inf, 2 and 0 as the programs spell them. -/
abbrev pinf : EReal := Ideal.ofBits .f32 0x7F800000#32
abbrev two : EReal := Ideal.ofBits .f32 0x40000000#32
abbrev zero : EReal := Ideal.ofBits .f32 0x00000000#32

/-- A `minimumf` reduction over one axis at the ideal values: the fold of `min` from the accumulator's value over
    that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- An accumulator's update: the minimum of what it held and the tile's minima. -/
theorem pay1_apply (P : FVec Ideal S2048 .f32) (a : Vec Ideal S2048 .f32) (y : S2048.Idx) : k0_pay1 P a y = min (a y) (P y) := by
  show shapeCast S2048 (minimumf a P) shapeCasts_S2048_S2048 y = _
  rw [shapeCast_self]; rfl
theorem pay2_apply (P : FVec Ideal S2048 .f32) (a : Vec Ideal S2048 .f32) (y : S2048.Idx) : k0_pay2 P a y = min (a y) (P y) := by
  show shapeCast S2048 (minimumf a P) shapeCasts_S2048_S2048 y = _
  rw [shapeCast_self]; rfl

/-- The resets write +inf. -/
theorem pay5_apply (y : S4096.Idx) : k0_pay5 (F := Ideal) y = pinf := by
  show shapeCast S4096 (broadcast S4096 (Scalar.ofBits .f32 0x7F800000#32)) shapeCasts_S4096_S4096 y = _
  rw [shapeCast_self]; rfl
theorem pay6_apply (y : S2048.Idx) : k0_pay6 (F := Ideal) y = pinf := by
  show shapeCast S2048 (broadcast S2048 (Scalar.ofBits .f32 0x7F800000#32)) shapeCasts_S2048_S2048 y = _
  rw [shapeCast_self]; rfl

/-- The outputs: the square roots, laid out as one row of a [1, 1, 4096] block. -/
theorem pay3_apply (v : FVec Ideal S4096 .f32) (n : Fin 4096) : k0_pay3 (F := Ideal) v (ix3 (0 : Fin 1) (0 : Fin 1) n) = Ideal.sqrt (v (ix1 n)) := by
  show shapeCast S1x1x4096 (sqrt (v : FVec Ideal S4096 .f32)) shapeCasts_S4096_S1x1x4096 (ix3 (0 : Fin 1) (0 : Fin 1) n) = _
  refine (shapeCast_apply (sqrt (v : FVec Ideal S4096 .f32)) shapeCasts_S4096_S1x1x4096 (ix3 (0 : Fin 1) (0 : Fin 1) n) (ix1 n) ?_).trans rfl
  rw [Shape.rowMajor_val_one, Shape.rowMajor_val_three]
  show n.val = ((0 : ℕ) * 1 + 0) * 4096 + n.val
  omega
theorem pay4_apply (v : FVec Ideal S4096 .f32) (n : Fin 4096) : k0_pay4 (F := Ideal) v (ix3 (0 : Fin 1) (0 : Fin 1) n) = Ideal.sqrt (v (ix1 n)) := by
  show shapeCast S1x1x4096 (sqrt (v : FVec Ideal S4096 .f32)) shapeCasts_S4096_S1x1x4096 (ix3 (0 : Fin 1) (0 : Fin 1) n) = _
  refine (shapeCast_apply (sqrt (v : FVec Ideal S4096 .f32)) shapeCasts_S4096_S1x1x4096 (ix3 (0 : Fin 1) (0 : Fin 1) n) (ix1 n) ?_).trans rfl
  rw [Shape.rowMajor_val_one, Shape.rowMajor_val_three]
  show n.val = ((0 : ℕ) * 1 + 0) * 4096 + n.val
  omega

/-- Where the tile's matmul reads its operands: row (j 0) of the first at the contracted coordinate, row (j 1) of the second. -/
theorem dot_lhs0 (j : S2048x2048.Idx) (q : dot_S2048x3_S2048x3_S2048x2048_1_1_0_0_n_n.contr.Idx) : (dot_S2048x3_S2048x3_S2048x2048_1_1_0_0_n_n.lhsIdx j q 0).val = (j 0).val := by
  unfold DotDims.lhsIdx
  rw [dif_neg (show ¬(0 : Fin S2048x3.rank) ∈ dot_S2048x3_S2048x3_S2048x2048_1_1_0_0_n_n.lhsBatch by decide), dif_pos (show (0 : Fin S2048x3.rank) ∈ dot_S2048x3_S2048x3_S2048x2048_1_1_0_0_n_n.lhsNonContracting by decide)]
  rfl
theorem dot_lhs1 (j : S2048x2048.Idx) (q : dot_S2048x3_S2048x3_S2048x2048_1_1_0_0_n_n.contr.Idx) : (dot_S2048x3_S2048x3_S2048x2048_1_1_0_0_n_n.lhsIdx j q 1).val = (q ⟨0, by decide⟩).val :=
  dot_S2048x3_S2048x3_S2048x2048_1_1_0_0_n_n.lhsIdx_val_of_single rfl j q
theorem dot_rhs0 (j : S2048x2048.Idx) (q : dot_S2048x3_S2048x3_S2048x2048_1_1_0_0_n_n.contr.Idx) : (dot_S2048x3_S2048x3_S2048x2048_1_1_0_0_n_n.rhsIdx j q 0).val = (j 1).val := by
  unfold DotDims.rhsIdx
  rw [dif_neg (show ¬(0 : Fin S2048x3.rank) ∈ dot_S2048x3_S2048x3_S2048x2048_1_1_0_0_n_n.rhsBatch by decide), dif_pos (show (0 : Fin S2048x3.rank) ∈ dot_S2048x3_S2048x3_S2048x2048_1_1_0_0_n_n.rhsNonContracting by decide)]
  rfl
theorem dot_rhs1 (j : S2048x2048.Idx) (q : dot_S2048x3_S2048x3_S2048x2048_1_1_0_0_n_n.contr.Idx) : (dot_S2048x3_S2048x3_S2048x2048_1_1_0_0_n_n.rhsIdx j q 1).val = (q ⟨0, by decide⟩).val :=
  dot_S2048x3_S2048x3_S2048x2048_1_1_0_0_n_n.rhsIdx_val_of_single rfl j q

/-- The tile's matmul's contraction: row r of the first operand against row c of the second, over the three coordinates. -/
theorem tile_dot (A B : FVec Ideal S2048x3 .f32) (r c : Fin 2048) :
    matmul dot_S2048x3_S2048x3_S2048x2048_1_1_0_0_n_n none A B (constant S2048x2048 .f32 0x00000000#32) (ix2 r c)
      = ∑ d : Fin 3, A (ix2 r d) * B (ix2 c d) := by
  simp only [matmul]
  rw [Ideal.matmul_constant_zero_apply, ← Equiv.sum_comp (contrEquiv1 dot_S2048x3_S2048x3_S2048x2048_1_1_0_0_n_n 3 rfl rfl).symm]
  refine Finset.sum_congr rfl fun k _ => ?_
  have hk := contrEquiv1_symm_val dot_S2048x3_S2048x3_S2048x2048_1_1_0_0_n_n 3 rfl rfl k
  have el : dot_S2048x3_S2048x3_S2048x2048_1_1_0_0_n_n.lhsIdx (ix2 r c) ((contrEquiv1 dot_S2048x3_S2048x3_S2048x2048_1_1_0_0_n_n 3 rfl rfl).symm k) = ix2 r k := funext fun a => Fin.ext (by
    match a with
    | ⟨0, _⟩ => exact dot_lhs0 _ _
    | ⟨1, _⟩ => exact (dot_lhs1 _ _).trans hk)
  have er : dot_S2048x3_S2048x3_S2048x2048_1_1_0_0_n_n.rhsIdx (ix2 r c) ((contrEquiv1 dot_S2048x3_S2048x3_S2048x2048_1_1_0_0_n_n 3 rfl rfl).symm k) = ix2 c k := funext fun a => Fin.ext (by
    match a with
    | ⟨0, _⟩ => exact dot_rhs0 _ _
    | ⟨1, _⟩ => exact (dot_rhs1 _ _).trans hk)
  rw [el, er]

/-- The tile's entry at (r, c). -/
def tileAt (x0 x1 : Vec Ideal S1x2048x3 .f32) (x2 : Vec Ideal S1x2048x1 .f32) (x3 : Vec Ideal S1x1x2048 .f32) (r c : Fin 2048) : EReal :=
  max ((x2 (ix3 (0 : Fin 1) r (0 : Fin 1)) + x3 (ix3 (0 : Fin 1) (0 : Fin 1) c))
    - two * ∑ d : Fin 3, x0 (ix3 (0 : Fin 1) r d) * x1 (ix3 (0 : Fin 1) c d)) zero

theorem pay7_apply (x0 x1 : Vec Ideal S1x2048x3 .f32) (x2 : Vec Ideal S1x2048x1 .f32) (x3 : Vec Ideal S1x1x2048 .f32) (r c : Fin 2048) :
    k0_pay7 x0 x1 x2 x3 (ix2 r c) = tileAt x0 x1 x2 x3 r c := by
  show max ((broadcastTo S2048x2048 (shapeCast S2048x1 x2 shapeCasts_S1x2048x1_S2048x1) broadcasts_S2048x1_S2048x2048 (ix2 r c)
      + broadcastTo S2048x2048 (shapeCast S1x2048 x3 shapeCasts_S1x1x2048_S1x2048) broadcasts_S1x2048_S2048x2048 (ix2 r c))
      - two * matmul (F := Ideal) dot_S2048x3_S2048x3_S2048x2048_1_1_0_0_n_n none (shapeCast S2048x3 x0 shapeCasts_S1x2048x3_S2048x3 : FVec Ideal S2048x3 .f32)
          (shapeCast S2048x3 x1 shapeCasts_S1x2048x3_S2048x3 : FVec Ideal S2048x3 .f32) (constant (F := Ideal) S2048x2048 .f32 0x00000000#32) (ix2 r c)) zero = _
  rw [Cert.ColumnLayout.broadcastTo_a1_ab_apply, broadcastTo_1b_ab_apply, tile_dot]
  unfold tileAt
  simp only [shapeCast_1ab_ab_apply]

/-- The tile's row minima: for row r the minimum over the columns, from +inf. -/
theorem pay8_apply (x0 x1 : Vec Ideal S1x2048x3 .f32) (x2 : Vec Ideal S1x2048x1 .f32) (x3 : Vec Ideal S1x1x2048 .f32) (r : Fin 2048) :
    k0_pay8 x0 x1 x2 x3 (ix1 r) = (Finset.univ : Finset (Fin 2048)).fold min pinf (fun c => tileAt x0 x1 x2 x3 r c) := by
  refine (multiReduction_minimumf_single (k0_pay7 x0 x1 x2 x3) 0x7F800000#32 reduces_S2048x2048_S2048 (.inl rfl) rfl (ix1 r)).trans ?_
  refine congrArg (fun g => Finset.fold min pinf g Finset.univ) (funext fun c => ?_)
  show k0_pay7 x0 x1 x2 x3 (reduces_S2048x2048_S2048.lift (ix1 r) c) = _
  rw [show reduces_S2048x2048_S2048.lift (ix1 r) c = ix2 r c from funext fun a => Fin.ext (by
    match a with
    | ⟨0, _⟩ => rfl
    | ⟨1, _⟩ => rfl)]
  exact pay7_apply x0 x1 x2 x3 r c

/-- The tile's column minima: for column c the minimum over the rows, from +inf. -/
theorem pay9_apply (x0 x1 : Vec Ideal S1x2048x3 .f32) (x2 : Vec Ideal S1x2048x1 .f32) (x3 : Vec Ideal S1x1x2048 .f32) (c : Fin 2048) :
    k0_pay9 x0 x1 x2 x3 (ix1 c) = (Finset.univ : Finset (Fin 2048)).fold min pinf (fun r => tileAt x0 x1 x2 x3 r c) := by
  refine (multiReduction_minimumf_single (k0_pay7 x0 x1 x2 x3) 0x7F800000#32 reduces_S2048x2048_S2048_2 (.inl rfl) rfl (ix1 c)).trans ?_
  refine congrArg (fun g => Finset.fold min pinf g Finset.univ) (funext fun r => ?_)
  show k0_pay7 x0 x1 x2 x3 (reduces_S2048x2048_S2048_2.lift (ix1 c) r) = _
  rw [show reduces_S2048x2048_S2048_2.lift (ix1 c) r = ix2 r c from funext fun a => Fin.ext (by
    match a with
    | ⟨0, _⟩ => rfl
    | ⟨1, _⟩ => rfl)]
  exact pay7_apply x0 x1 x2 x3 r c

end Cert.KernelIdeal.Tile

end
-- ==== Proof.KI.Blocks.lean ====
/-
  A tile is a piece of the reference's matrix. The host lines before the region compute |template b i|² as a column
  and |source b j|² as a row exactly as the reference does, and at point t (batch b = t / 4, source tile
  j = (t / 2) % 2, template tile i = t % 2) the four input blocks are rows 2048 i … of the template (and of the
  column), rows 2048 j … of the source (and of the row). So the tile's entry at (r, c) is the reference's clamped
  squared distance M b (2048 i + r) (2048 j + c).
-/
import proofs.«104914_j13314398618340_2_alg».proof.Proof.KI.Arrays
import proofs.«104914_j13314398618340_2_alg».proof.Proof.KI.Tile
import proofs.«104914_j13314398618340_2_alg».proof.Proof.Gen.ReferenceIdeal.Read
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Idealize.ShloMosaic.StableHlo
open Cert.KernelIdeal.Tile

variable (m : (ℓ : Loc nD τ sig) → Buf (Elt Ideal) ℓ)

/-- The column of squared norms the region finds is the reference's. -/
theorem V_main_v2 (c : Dev nD) :
    (V m c main_v2 : S16x4096x1.Idx → EReal) = Cert.ReferenceIdeal.Read.val_main_v5 (F := Ideal) (m ((c : Thread nD τ).loc main_arg0)) := by
  show StableHlo.after hostOps0 (fun b => m (c, b)) (Proc.devRef .tc main_v2) = _
  after_results
  rfl
/-- The row of squared norms the region finds is the reference's. -/
theorem V_main_v5 (c : Dev nD) :
    (V m c main_v5 : S16x1x4096.Idx → EReal) = Cert.ReferenceIdeal.Read.val_main_v6 (F := Ideal) (m ((c : Thread nD τ).loc main_arg1)) := by
  show StableHlo.after hostOps0 (fun b => m (c, b)) (Proc.devRef .tc main_v5) = _
  after_results
  rfl

/-- The input windows' block index maps, decided over the grid. -/
theorem idxIn : ∀ t : Fin cfg0.N,
    (win0_0.index t (0 : Fin 3) = t.val / 4 ∧ win0_0.index t (1 : Fin 3) = t.val % 2 ∧ win0_0.index t (2 : Fin 3) = 0)
    ∧ (win0_1.index t (0 : Fin 3) = t.val / 4 ∧ win0_1.index t (1 : Fin 3) = (t.val / 2) % 2 ∧ win0_1.index t (2 : Fin 3) = 0)
    ∧ (win0_2.index t (0 : Fin 3) = t.val / 4 ∧ win0_2.index t (1 : Fin 3) = t.val % 2 ∧ win0_2.index t (2 : Fin 3) = 0)
    ∧ (win0_3.index t (0 : Fin 3) = t.val / 4 ∧ win0_3.index t (1 : Fin 3) = 0 ∧ win0_3.index t (2 : Fin 3) = (t.val / 2) % 2) :=
  (by decide +kernel : ∀ t : Fin grid0.N, _)

/-- The template's block at point t: rows 2048 i … of batch b. -/
theorem blk0 (c : Dev nD) (t : Fin cfg0.N) (y : S1x2048x3.Idx) (Y : S16x4096x3.Idx)
    (h0 : (Y 0).val = t.val / 4) (h1 : (Y 1).val = 2048 * (t.val % 2) + (y 1).val) (h2 : (Y 2).val = (y 2).val) :
    iblk m c 0 t y = m ((c : Thread nD τ).loc main_arg0) Y := by
  obtain ⟨⟨e0, e1, e2⟩, -, -, -⟩ := idxIn t
  unfold iblk; rw [View.read_apply]
  show V m c main_arg0 _ = _
  rw [V_main_arg0]
  refine congrArg _ (funext fun a => Fin.ext ?_)
  have hy0 : (y 0).val < 1 := (y 0).isLt
  match a with
  | ⟨0, _⟩ => show win0_0.index t (0 : Fin 3) * 1 + 1 * (y 0).val = (Y 0).val; omega
  | ⟨1, _⟩ => show win0_0.index t (1 : Fin 3) * 2048 + 1 * (y 1).val = (Y 1).val; omega
  | ⟨2, _⟩ => show win0_0.index t (2 : Fin 3) * 3 + 1 * (y 2).val = (Y 2).val; omega

/-- The source's block at point t: rows 2048 j … of batch b. -/
theorem blk1 (c : Dev nD) (t : Fin cfg0.N) (y : S1x2048x3.Idx) (Y : S16x4096x3.Idx)
    (h0 : (Y 0).val = t.val / 4) (h1 : (Y 1).val = 2048 * ((t.val / 2) % 2) + (y 1).val) (h2 : (Y 2).val = (y 2).val) :
    iblk m c 1 t y = m ((c : Thread nD τ).loc main_arg1) Y := by
  obtain ⟨-, ⟨e0, e1, e2⟩, -, -⟩ := idxIn t
  unfold iblk; rw [View.read_apply]
  show V m c main_arg1 _ = _
  rw [V_main_arg1]
  refine congrArg _ (funext fun a => Fin.ext ?_)
  have hy0 : (y 0).val < 1 := (y 0).isLt
  match a with
  | ⟨0, _⟩ => show win0_1.index t (0 : Fin 3) * 1 + 1 * (y 0).val = (Y 0).val; omega
  | ⟨1, _⟩ => show win0_1.index t (1 : Fin 3) * 2048 + 1 * (y 1).val = (Y 1).val; omega
  | ⟨2, _⟩ => show win0_1.index t (2 : Fin 3) * 3 + 1 * (y 2).val = (Y 2).val; omega

/-- The block of the template's squared norms at point t. -/
theorem blk2 (c : Dev nD) (t : Fin cfg0.N) (y : S1x2048x1.Idx) (Y : S16x4096x1.Idx)
    (h0 : (Y 0).val = t.val / 4) (h1 : (Y 1).val = 2048 * (t.val % 2) + (y 1).val) :
    iblk m c 2 t y = Cert.ReferenceIdeal.Read.val_main_v5 (F := Ideal) (m ((c : Thread nD τ).loc main_arg0)) Y := by
  obtain ⟨-, -, ⟨e0, e1, e2⟩, -⟩ := idxIn t
  unfold iblk; rw [View.read_apply]
  show V m c main_v2 _ = _
  rw [V_main_v2]
  refine congrArg _ (funext fun a => Fin.ext ?_)
  have hy0 : (y 0).val < 1 := (y 0).isLt
  have hy2 : (y 2).val < 1 := (y 2).isLt
  have hY2 : (Y 2).val < 1 := (Y 2).isLt
  match a with
  | ⟨0, _⟩ => show win0_2.index t (0 : Fin 3) * 1 + 1 * (y 0).val = (Y 0).val; omega
  | ⟨1, _⟩ => show win0_2.index t (1 : Fin 3) * 2048 + 1 * (y 1).val = (Y 1).val; omega
  | ⟨2, _⟩ => show win0_2.index t (2 : Fin 3) * 1 + 1 * (y 2).val = (Y 2).val; omega

/-- The block of the source's squared norms at point t. -/
theorem blk3 (c : Dev nD) (t : Fin cfg0.N) (y : S1x1x2048.Idx) (Y : S16x1x4096.Idx)
    (h0 : (Y 0).val = t.val / 4) (h2 : (Y 2).val = 2048 * ((t.val / 2) % 2) + (y 2).val) :
    iblk m c 3 t y = Cert.ReferenceIdeal.Read.val_main_v6 (F := Ideal) (m ((c : Thread nD τ).loc main_arg1)) Y := by
  obtain ⟨-, -, -, ⟨e0, e1, e2⟩⟩ := idxIn t
  unfold iblk; rw [View.read_apply]
  show V m c main_v5 _ = _
  rw [V_main_v5]
  refine congrArg _ (funext fun a => Fin.ext ?_)
  have hy0 : (y 0).val < 1 := (y 0).isLt
  have hy1 : (y 1).val < 1 := (y 1).isLt
  have hY1 : (Y 1).val < 1 := (Y 1).isLt
  match a with
  | ⟨0, _⟩ => show win0_3.index t (0 : Fin 3) * 1 + 1 * (y 0).val = (Y 0).val; omega
  | ⟨1, _⟩ => show win0_3.index t (1 : Fin 3) * 1 + 1 * (y 1).val = (Y 1).val; omega
  | ⟨2, _⟩ => show win0_3.index t (2 : Fin 3) * 2048 + 1 * (y 2).val = (Y 2).val; omega

/-- The tile's entry from its parts: the two squared norms and the three coordinates of each point. -/
theorem tileAt_of (x0 x1 : Vec Ideal S1x2048x3 .f32) (x2 : Vec Ideal S1x2048x1 .f32) (x3 : Vec Ideal S1x1x2048 .f32) (r q : Fin 2048)
    (a b : EReal) (f g : Fin 3 → EReal) (h2 : x2 (ix3 (0 : Fin 1) r (0 : Fin 1)) = a) (h3 : x3 (ix3 (0 : Fin 1) (0 : Fin 1) q) = b)
    (hf : ∀ d, x0 (ix3 (0 : Fin 1) r d) = f d) (hg : ∀ d, x1 (ix3 (0 : Fin 1) q d) = g d) :
    tileAt x0 x1 x2 x3 r q = max ((a + b) - two * ∑ d : Fin 3, f d * g d) zero := by
  unfold tileAt
  rw [h2, h3]
  simp only [hf, hg]

/-- The tile's entry at (r, c) is the reference's clamped squared distance at (b, 2048 i + r, 2048 j + c). -/
theorem tile_eq (c : Dev nD) (t : Fin cfg0.N) (r q : Fin 2048) (Y : Cert.ReferenceIdeal.S16x4096x4096.Idx)
    (h0 : (Y 0).val = t.val / 4) (h1 : (Y 1).val = 2048 * (t.val % 2) + r.val) (h2 : (Y 2).val = 2048 * ((t.val / 2) % 2) + q.val) :
    tileAt (iblk m c 0 t) (iblk m c 1 t) (iblk m c 2 t) (iblk m c 3 t) r q
      = Cert.ReferenceIdeal.Read.val_main_v14 (F := Ideal) (m ((c : Thread nD τ).loc main_arg0)) (m ((c : Thread nD τ).loc main_arg1)) Y := by
  rw [Cert.ReferenceIdeal.Read.val_main_v14_apply, Cert.ReferenceIdeal.Read.val_main_v12_apply, Cert.ReferenceIdeal.Read.val_main_v9_apply, Cert.ReferenceIdeal.Read.val_main_v11_apply,
    Cert.ReferenceIdeal.Read.val_main_v7_apply, Cert.ReferenceIdeal.Read.val_main_v8_apply, Cert.ReferenceIdeal.Read.val_main_v10_apply, Cert.ReferenceIdeal.Read.val_main_v13_apply,
    Cert.ReferenceIdeal.Read.val_main_cst_1_apply, Cert.ReferenceIdeal.Read.val_main_cst_2_apply, Cert.ReferenceIdeal.Read.val_main_v4_apply]
  exact (tileAt_of (iblk m c 0 t) (iblk m c 1 t) (iblk m c 2 t) (iblk m c 3 t) r q _ _
    (fun d => m ((c : Thread nD τ).loc main_arg0) (Cert.ReferenceIdeal.Read.lidx_main_v4 Y d))
    (fun d => m ((c : Thread nD τ).loc main_arg1) (Cert.ReferenceIdeal.Read.ridx_main_v4 Y d))
    (blk2 m c t (ix3 (0 : Fin 1) r (0 : Fin 1)) (Cert.ReferenceIdeal.Read.idx_main_v7 Y) h0 h1)
    (blk3 m c t (ix3 (0 : Fin 1) (0 : Fin 1) q) (Cert.ReferenceIdeal.Read.idx_main_v8 Y) h0 h2)
    (fun d => blk0 m c t (ix3 (0 : Fin 1) r d) (Cert.ReferenceIdeal.Read.lidx_main_v4 Y d) h0 h1 rfl)
    (fun d => blk1 m c t (ix3 (0 : Fin 1) q d) (Cert.ReferenceIdeal.Read.ridx_main_v4 Y d) h0 h2 rfl)).trans rfl

end Cert.KernelIdeal.Hand

end
-- ==== Proof.MinSplit.lean ====
/-
  The one law that joins the two sides: the minimum over 4096 coordinates, taken from a starting value b, is the
  minimum of b with the minima (each from b) over the first 2048 and the last 2048 coordinates. The kernel takes
  the two partial minima tile by tile and folds them into its accumulator one after the other; the reference takes
  the minimum over the whole axis at once. It holds in every linear order and uses only that every coordinate
  below 4096 is k or 2048 + k for some k below 2048.
-/
import Mathlib.Data.Finset.Fold
import Mathlib.Order.Lattice
import Mathlib.Data.Fintype.Basic
import Mathlib.Tactic

namespace Cert.MinSplit

variable {α : Type} [LinearOrder α]

/-- Coordinate k of the lower half, and of the upper half, of an axis of 4096. -/
def loIx (k : Fin 2048) : Fin 4096 := ⟨k.val, by have := k.isLt; omega⟩
def hiIx (k : Fin 2048) : Fin 4096 := ⟨2048 + k.val, by have := k.isLt; omega⟩

theorem fold_min_split (b : α) (g : Fin 4096 → α) :
    (Finset.univ : Finset (Fin 4096)).fold min b g
      = min (min b ((Finset.univ : Finset (Fin 2048)).fold min b fun k => g (loIx k)))
          ((Finset.univ : Finset (Fin 2048)).fold min b fun k => g (hiIx k)) := by
  refine eq_of_forall_le_iff fun x => ?_
  simp only [Finset.le_fold_min, le_min_iff, Finset.mem_univ, true_implies]
  constructor
  · rintro ⟨hb, hg⟩
    exact ⟨⟨hb, hb, fun k => hg _⟩, hb, fun k => hg _⟩
  · rintro ⟨⟨hb, -, hlo⟩, -, hhi⟩
    refine ⟨hb, fun k => ?_⟩
    by_cases hk : k.val < 2048
    · exact hlo ⟨k.val, hk⟩
    · have := hhi ⟨k.val - 2048, by have := k.isLt; omega⟩
      have e : hiIx ⟨k.val - 2048, by have := k.isLt; omega⟩ = k := Fin.ext (by show 2048 + (k.val - 2048) = k.val; omega)
      rwa [e] at this

end Cert.MinSplit
-- ==== Proof.RefValue.lean ====
/-
  The reference read at an index. Its run ends with the scalar
    (mean over (b, n) of sqrt(min over i of M b i n) + mean over (b, n) of sqrt(min over j of M b n j)) / 2,
  M b i j = max (|template b i|² + |source b j|² − 2 ⟨template b i, source b j⟩) 0.
  Here: the two minima, each as the fold of `min` from +inf along its axis.
-/
import proofs.«104914_j13314398618340_2_alg».proof.Proof.Gen.ReferenceIdeal.Read
import Idealize.ShloMosaic.PureOps.Ideal.Laws

set_option maxRecDepth 65536

noncomputable section

namespace Cert.ReferenceIdeal.RefValue

open Idealize.ShloMosaic Idealize.ShloMosaic.ValueIdx Idealize.SL.Sem
open Cert.ReferenceIdeal Cert.ReferenceIdeal.Read

abbrev pinf : EReal := Ideal.ofBits .f32 0x7F800000#32

/-- Dropping the template axis, or the source axis, of the [16, 4096, 4096] array leaves [16, 4096]. -/
theorem red1 : S16x4096x4096.Reduces [(1 : Fin 3)] S16x4096 := by decide +kernel
theorem red2 : S16x4096x4096.Reduces [(2 : Fin 3)] S16x4096 := by decide +kernel

/-- The host's minimum along one axis: the fold of `min` from the initial value over that axis's coordinates. -/
theorem fold1 (y : S16x4096x4096.Idx → EReal) (init : S_.Idx → EReal) (j : S16x4096.Idx) :
    Host.reduce (α := EReal) (FloatOps.minimumf (F := Ideal) (φ := .f32)) y init Facts₀.reducesTo_S16x4096x4096_S16x4096_d1 Facts₀.h_S_ j
      = (Finset.univ : Finset (Fin 4096)).fold min (init (Shape.Idx.first Facts₀.h_S_)) (y ∘ red1.lift j) :=
  Host.reduce_eq_fold_single (s := S16x4096x4096) (t := S16x4096) (a := (1 : Fin 3)) (u := S_) (α := EReal)
    (FloatOps.minimumf (F := Ideal) (φ := .f32)) y init Facts₀.reducesTo_S16x4096x4096_S16x4096_d1 red1 Facts₀.h_S_ j
theorem fold2 (y : S16x4096x4096.Idx → EReal) (init : S_.Idx → EReal) (j : S16x4096.Idx) :
    Host.reduce (α := EReal) (FloatOps.minimumf (F := Ideal) (φ := .f32)) y init Facts₀.reducesTo_S16x4096x4096_S16x4096_d2 Facts₀.h_S_ j
      = (Finset.univ : Finset (Fin 4096)).fold min (init (Shape.Idx.first Facts₀.h_S_)) (y ∘ red2.lift j) :=
  Host.reduce_eq_fold_single (s := S16x4096x4096) (t := S16x4096) (a := (2 : Fin 3)) (u := S_) (α := EReal)
    (FloatOps.minimumf (F := Ideal) (φ := .f32)) y init Facts₀.reducesTo_S16x4096x4096_S16x4096_d2 red2 Facts₀.h_S_ j

/-- The index over (b, n) with coordinate k on the dropped axis. -/
theorem lift1 (b : Fin 16) (n k : Fin 4096) : red1.lift (ix2 b n) k = ix3 b k n :=
  funext fun a => Fin.ext (by
    match a with
    | ⟨0, _⟩ => rfl
    | ⟨1, _⟩ => rfl
    | ⟨2, _⟩ => rfl)
theorem lift2 (b : Fin 16) (n k : Fin 4096) : red2.lift (ix2 b n) k = ix3 b n k :=
  funext fun a => Fin.ext (by
    match a with
    | ⟨0, _⟩ => rfl
    | ⟨1, _⟩ => rfl
    | ⟨2, _⟩ => rfl)

/-- For template point (b, n): the minimum over the source points. -/
theorem rowmin_eq (x0 x1 : (⟨S16x4096x3, .f32⟩ : BufTy).Contents (Elt Ideal)) (b : Fin 16) (n : Fin 4096) :
    val_main_v19 (F := Ideal) x0 x1 (ix2 b n)
      = (Finset.univ : Finset (Fin 4096)).fold min pinf (fun k => val_main_v14 (F := Ideal) x0 x1 (ix3 b n k)) := by
  unfold val_main_v19
  refine (fold2 (val_main_v14 (F := Ideal) x0 x1) (val_main_cst_6 (F := Ideal)) (ix2 b n)).trans ?_
  refine congrArg (fun g => Finset.fold min pinf g Finset.univ) (funext fun k => ?_)
  exact congrArg (val_main_v14 (F := Ideal) x0 x1) (lift2 b n k)

/-- For source point (b, n): the minimum over the template points. -/
theorem colmin_eq (x0 x1 : (⟨S16x4096x3, .f32⟩ : BufTy).Contents (Elt Ideal)) (b : Fin 16) (n : Fin 4096) :
    val_main_v15 (F := Ideal) x0 x1 (ix2 b n)
      = (Finset.univ : Finset (Fin 4096)).fold min pinf (fun k => val_main_v14 (F := Ideal) x0 x1 (ix3 b k n)) := by
  unfold val_main_v15
  refine (fold1 (val_main_v14 (F := Ideal) x0 x1) (val_main_cst_3 (F := Ideal)) (ix2 b n)).trans ?_
  refine congrArg (fun g => Finset.fold min pinf g Finset.univ) (funext fun k => ?_)
  exact congrArg (val_main_v14 (F := Ideal) x0 x1) (lift1 b n k)

end Cert.ReferenceIdeal.RefValue

end
-- ==== Proof.KI.Bridge.lean ====
/-
  The accumulators at a batch's last point are the reference's minima. A half of the row accumulator is +inf lowered
  by the row minima of its two tiles (source tiles j = 0 and j = 1), which is the minimum over all 4096 source points;
  a half of the column accumulator likewise over the two template tiles.
-/
import proofs.«104914_j13314398618340_2_alg».proof.Proof.KI.Blocks
import proofs.«104914_j13314398618340_2_alg».proof.Proof.MinSplit
import proofs.«104914_j13314398618340_2_alg».proof.Proof.RefValue

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open Cert.KernelIdeal.Tile Cert.MinSplit

variable (m : (ℓ : Loc nD τ sig) → Buf (Elt Ideal) ℓ)

theorem join_lo (a b : Vec Ideal S2048 .f32) (k : Fin 2048) : join a b (ix1 (loIx k)) = a (ix1 k) := by
  unfold join
  rw [dif_pos (show ((ix1 (loIx k) : S4096.Idx) 0).val < 2048 from k.isLt)]
  rfl
theorem join_hi (a b : Vec Ideal S2048 .f32) (k : Fin 2048) : join a b (ix1 (hiIx k)) = b (ix1 k) := by
  unfold join
  rw [dif_neg (show ¬((ix1 (hiIx k) : S4096.Idx) 0).val < 2048 from by show ¬(2048 + k.val < 2048); omega)]
  refine congrArg b (funext fun d => ?_)
  match d with
  | ⟨0, _⟩ => exact Fin.ext (by show 2048 + k.val - 2048 = k.val; omega)

theorem lo_hi_cases (n : Fin 4096) : (∃ r, n = loIx r) ∨ (∃ r, n = hiIx r) := by
  by_cases h : n.val < 2048
  · exact Or.inl ⟨⟨n.val, h⟩, Fin.ext rfl⟩
  · exact Or.inr ⟨⟨n.val - 2048, by have := n.isLt; omega⟩, Fin.ext (by show n.val = 2048 + (n.val - 2048); omega)⟩

/-- The row accumulator at a batch's last point: for template point (b, n) the minimum over the source points. -/
theorem row_eq (c : Dev nD) (b : Fin 16) (n : Fin 4096) :
    join (halvesAt m c (pt b 3).val (pt b 3).isLt).rlo (halvesAt m c (pt b 3).val (pt b 3).isLt).rhi (ix1 n)
      = Cert.ReferenceIdeal.Read.val_main_v19 (F := Ideal) (m ((c : Thread nD τ).loc main_arg0)) (m ((c : Thread nD τ).loc main_arg1)) (ix2 b n) := by
  have hb : b.val < 16 := b.isLt
  obtain ⟨hr1, hr2, -, -⟩ := halves_last m c b
  rw [Cert.ReferenceIdeal.RefValue.rowmin_eq, fold_min_split]
  rcases lo_hi_cases n with ⟨r, rfl⟩ | ⟨r, rfl⟩
  · have hr : r.val < 2048 := r.isLt
    rw [join_lo, hr1, pay1_apply, pay1_apply]
    have e5 : lo (F := Ideal) (k0_pay5 (F := Ideal)) (ix1 r) = pinf := by unfold lo; exact pay5_apply _
    rw [e5]
    unfold rowMin
    rw [pay8_apply, pay8_apply]
    refine congrArg₂ min (congrArg₂ min rfl ?_) ?_
    · refine congrArg (fun g => Finset.fold min pinf g Finset.univ) (funext fun k => ?_)
      have hk : k.val < 2048 := k.isLt
      exact tile_eq m c (pt b 0) r k (ix3 b (loIx r) (loIx k))
        (by show b.val = (4 * b.val + 0) / 4; omega)
        (by show (loIx r).val = 2048 * ((4 * b.val + 0) % 2) + r.val; simp only [Cert.MinSplit.loIx, Cert.MinSplit.hiIx]; omega)
        (by show (loIx k).val = 2048 * (((4 * b.val + 0) / 2) % 2) + k.val; simp only [Cert.MinSplit.loIx, Cert.MinSplit.hiIx]; omega)
    · refine congrArg (fun g => Finset.fold min pinf g Finset.univ) (funext fun k => ?_)
      have hk : k.val < 2048 := k.isLt
      exact tile_eq m c (pt b 2) r k (ix3 b (loIx r) (hiIx k))
        (by show b.val = (4 * b.val + 2) / 4; omega)
        (by show (loIx r).val = 2048 * ((4 * b.val + 2) % 2) + r.val; simp only [Cert.MinSplit.loIx, Cert.MinSplit.hiIx]; omega)
        (by show (hiIx k).val = 2048 * (((4 * b.val + 2) / 2) % 2) + k.val; simp only [Cert.MinSplit.loIx, Cert.MinSplit.hiIx]; omega)
  · have hr : r.val < 2048 := r.isLt
    rw [join_hi, hr2, pay1_apply, pay1_apply]
    have e5 : hi (F := Ideal) (k0_pay5 (F := Ideal)) (ix1 r) = pinf := by unfold hi; exact pay5_apply _
    rw [e5]
    unfold rowMin
    rw [pay8_apply, pay8_apply]
    refine congrArg₂ min (congrArg₂ min rfl ?_) ?_
    · refine congrArg (fun g => Finset.fold min pinf g Finset.univ) (funext fun k => ?_)
      have hk : k.val < 2048 := k.isLt
      exact tile_eq m c (pt b 1) r k (ix3 b (hiIx r) (loIx k))
        (by show b.val = (4 * b.val + 1) / 4; omega)
        (by show (hiIx r).val = 2048 * ((4 * b.val + 1) % 2) + r.val; simp only [Cert.MinSplit.loIx, Cert.MinSplit.hiIx]; omega)
        (by show (loIx k).val = 2048 * (((4 * b.val + 1) / 2) % 2) + k.val; simp only [Cert.MinSplit.loIx, Cert.MinSplit.hiIx]; omega)
    · refine congrArg (fun g => Finset.fold min pinf g Finset.univ) (funext fun k => ?_)
      have hk : k.val < 2048 := k.isLt
      exact tile_eq m c (pt b 3) r k (ix3 b (hiIx r) (hiIx k))
        (by show b.val = (4 * b.val + 3) / 4; omega)
        (by show (hiIx r).val = 2048 * ((4 * b.val + 3) % 2) + r.val; simp only [Cert.MinSplit.loIx, Cert.MinSplit.hiIx]; omega)
        (by show (hiIx k).val = 2048 * (((4 * b.val + 3) / 2) % 2) + k.val; simp only [Cert.MinSplit.loIx, Cert.MinSplit.hiIx]; omega)

/-- The column accumulator at a batch's last point: for source point (b, n) the minimum over the template points. -/
theorem col_eq (c : Dev nD) (b : Fin 16) (n : Fin 4096) :
    join (halvesAt m c (pt b 3).val (pt b 3).isLt).clo (halvesAt m c (pt b 3).val (pt b 3).isLt).chi (ix1 n)
      = Cert.ReferenceIdeal.Read.val_main_v15 (F := Ideal) (m ((c : Thread nD τ).loc main_arg0)) (m ((c : Thread nD τ).loc main_arg1)) (ix2 b n) := by
  have hb : b.val < 16 := b.isLt
  obtain ⟨-, -, hc1, hc2⟩ := halves_last m c b
  rw [Cert.ReferenceIdeal.RefValue.colmin_eq, fold_min_split]
  rcases lo_hi_cases n with ⟨q, rfl⟩ | ⟨q, rfl⟩
  · have hq : q.val < 2048 := q.isLt
    rw [join_lo, hc1, pay2_apply, pay2_apply]
    have e6 : k0_pay6 (F := Ideal) (ix1 q) = pinf := pay6_apply _
    rw [e6]
    unfold colMin
    rw [pay9_apply, pay9_apply]
    refine congrArg₂ min (congrArg₂ min rfl ?_) ?_
    · refine congrArg (fun g => Finset.fold min pinf g Finset.univ) (funext fun k => ?_)
      have hk : k.val < 2048 := k.isLt
      exact tile_eq m c (pt b 0) k q (ix3 b (loIx k) (loIx q))
        (by show b.val = (4 * b.val + 0) / 4; omega)
        (by show (loIx k).val = 2048 * ((4 * b.val + 0) % 2) + k.val; simp only [Cert.MinSplit.loIx, Cert.MinSplit.hiIx]; omega)
        (by show (loIx q).val = 2048 * (((4 * b.val + 0) / 2) % 2) + q.val; simp only [Cert.MinSplit.loIx, Cert.MinSplit.hiIx]; omega)
    · refine congrArg (fun g => Finset.fold min pinf g Finset.univ) (funext fun k => ?_)
      have hk : k.val < 2048 := k.isLt
      exact tile_eq m c (pt b 1) k q (ix3 b (hiIx k) (loIx q))
        (by show b.val = (4 * b.val + 1) / 4; omega)
        (by show (hiIx k).val = 2048 * ((4 * b.val + 1) % 2) + k.val; simp only [Cert.MinSplit.loIx, Cert.MinSplit.hiIx]; omega)
        (by show (loIx q).val = 2048 * (((4 * b.val + 1) / 2) % 2) + q.val; simp only [Cert.MinSplit.loIx, Cert.MinSplit.hiIx]; omega)
  · have hq : q.val < 2048 := q.isLt
    rw [join_hi, hc2, pay2_apply, pay2_apply]
    have e6 : k0_pay6 (F := Ideal) (ix1 q) = pinf := pay6_apply _
    rw [e6]
    unfold colMin
    rw [pay9_apply, pay9_apply]
    refine congrArg₂ min (congrArg₂ min rfl ?_) ?_
    · refine congrArg (fun g => Finset.fold min pinf g Finset.univ) (funext fun k => ?_)
      have hk : k.val < 2048 := k.isLt
      exact tile_eq m c (pt b 2) k q (ix3 b (loIx k) (hiIx q))
        (by show b.val = (4 * b.val + 2) / 4; omega)
        (by show (loIx k).val = 2048 * ((4 * b.val + 2) % 2) + k.val; simp only [Cert.MinSplit.loIx, Cert.MinSplit.hiIx]; omega)
        (by show (hiIx q).val = 2048 * (((4 * b.val + 2) / 2) % 2) + q.val; simp only [Cert.MinSplit.loIx, Cert.MinSplit.hiIx]; omega)
    · refine congrArg (fun g => Finset.fold min pinf g Finset.univ) (funext fun k => ?_)
      have hk : k.val < 2048 := k.isLt
      exact tile_eq m c (pt b 3) k q (ix3 b (hiIx k) (hiIx q))
        (by show b.val = (4 * b.val + 3) / 4; omega)
        (by show (hiIx k).val = 2048 * ((4 * b.val + 3) % 2) + k.val; simp only [Cert.MinSplit.loIx, Cert.MinSplit.hiIx]; omega)
        (by show (hiIx q).val = 2048 * (((4 * b.val + 3) / 2) % 2) + q.val; simp only [Cert.MinSplit.loIx, Cert.MinSplit.hiIx]; omega)

end Cert.KernelIdeal.Hand

end
-- ==== Proof.KI.Final.lean ====
/-
  The kernel's result. Its two result arrays are, at (b, 0, n), the square roots of the reference's two minima at
  (b, n); the host lines after the region take each array's sum over all entries — the reference's sums, re-indexed —
  then the two means and their half-sum, with the reference's own literals. So the run ends with the reference's
  value of the same two argument arrays.
-/
import proofs.«104914_j13314398618340_2_alg».proof.Proof.KI.Bridge

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Idealize.ShloMosaic.StableHlo
open Cert.KernelIdeal.Tile

variable (m : (ℓ : Loc nD τ sig) → Buf (Elt Ideal) ℓ) (ρ : Dev nD → PrngReg)

theorem rowsOut_eq (c : Dev nD) (y : S16x1x4096.Idx) :
    rowsOut m c y = Cert.ReferenceIdeal.Read.val_main_v20 (F := Ideal) (m ((c : Thread nD τ).loc main_arg0)) (m ((c : Thread nD τ).loc main_arg1)) (ix2 (y 0) (y 2)) := by
  unfold rowsOut
  rw [after4]
  refine ((pay3_apply _ (y 2)).trans (congrArg Ideal.sqrt (row_eq m c (y 0) (y 2)))).trans ?_
  rw [Cert.ReferenceIdeal.Read.val_main_v20_apply]
  simp only [Ideal.hostUnary_sqrt_def]
theorem colsOut_eq (c : Dev nD) (y : S16x1x4096.Idx) :
    colsOut m c y = Cert.ReferenceIdeal.Read.val_main_v16 (F := Ideal) (m ((c : Thread nD τ).loc main_arg0)) (m ((c : Thread nD τ).loc main_arg1)) (ix2 (y 0) (y 2)) := by
  unfold colsOut
  rw [after5]
  refine ((pay4_apply _ (y 2)).trans (congrArg Ideal.sqrt (col_eq m c (y 0) (y 2)))).trans ?_
  rw [Cert.ReferenceIdeal.Read.val_main_v16_apply]
  simp only [Ideal.hostUnary_sqrt_def]

/-- (b, 0, n) ↔ (b, n). -/
def flat : S16x1x4096.Idx ≃ S16x4096.Idx where
  toFun y := ix2 (y 0) (y 2)
  invFun z := ix3 (z 0) (0 : Fin 1) (z 1)
  left_inv y := by
    funext a; match a with
    | ⟨0, _⟩ => rfl
    | ⟨1, _⟩ => exact Fin.ext (by have : (y 1).val < 1 := (y 1).isLt; show 0 = (y 1).val; omega)
    | ⟨2, _⟩ => rfl
  right_inv z := by
    funext a; match a with
    | ⟨0, _⟩ => rfl
    | ⟨1, _⟩ => rfl

theorem sum_rows (c : Dev nD) :
    (∑ y : S16x1x4096.Idx, rowsOut m c y)
      = ∑ z : S16x4096.Idx, Cert.ReferenceIdeal.Read.val_main_v20 (F := Ideal) (m ((c : Thread nD τ).loc main_arg0)) (m ((c : Thread nD τ).loc main_arg1)) z :=
  Fintype.sum_equiv flat _ _ (fun y => rowsOut_eq m c y)
theorem sum_cols (c : Dev nD) :
    (∑ y : S16x1x4096.Idx, colsOut m c y)
      = ∑ z : S16x4096.Idx, Cert.ReferenceIdeal.Read.val_main_v16 (F := Ideal) (m ((c : Thread nD τ).loc main_arg0)) (m ((c : Thread nD τ).loc main_arg1)) z :=
  Fintype.sum_equiv flat _ _ (fun y => colsOut_eq m c y)

/-- The host's sum of a result array over all its entries. -/
theorem tail_sum (x : S16x1x4096.Idx → EReal) (i : S_.Idx) :
    Host.reduceAdd (F := Ideal) (x : (⟨S16x1x4096, .f32⟩ : BufTy).Contents (Elt Ideal)) (constant S_ .f32 0x00000000#32) reducesTo_S16x1x4096_S_d0_1_2 h_S_ i
      = (constant (F := Ideal) S_ .f32 0x00000000#32) (Shape.Idx.first h_S_) + ∑ j : S16x1x4096.Idx, x j := by
  simp only [Host.reduceAdd, Ideal.hostReduceAdd_def]
  exact Ideal.hostReduceAdd_total reducesTo_S16x1x4096_S_d0_1_2 (fun b => b.elim0) x _ i

theorem tail_row (c : Dev nD) :
    Pipeline.withArrays (cfgs 0).spec c (V0 m c) (fun w => (dats m 0 c).arrAt w (cfgs 0).N) (Proc.devRef .tc main_v6_0) = rowsOut m c :=
  (Pipeline.withArrays_arr spec0 launch0.win.arr_inj c _ _ 4).trans (final4 m c)
theorem tail_col (c : Dev nD) :
    Pipeline.withArrays (cfgs 0).spec c (V0 m c) (fun w => (dats m 0 c).arrAt w (cfgs 0).N) (Proc.devRef .tc main_v6_1) = colsOut m c :=
  (Pipeline.withArrays_arr spec0 launch0.win.arr_inj c _ _ 5).trans (final5 m c)

/-- What @main's result buffer holds after the lines that follow the region. -/
theorem result_eq (c : Dev nD) :
    Pipeline.afterTail₀ cfgs (dats m) 0 (V0 m) [hostOps1] c main_v12
      = Cert.ReferenceIdeal.Read.val_main_v24 (F := Ideal) (m ((c : Thread nD τ).loc main_arg0)) (m ((c : Thread nD τ).loc main_arg1)) := by
  unfold Pipeline.afterTail₀
  show StableHlo.after hostOps1 _ (Proc.devRef .tc main_v12) = _
  after_results
  rw [tail_row, tail_col]
  funext i
  show FloatOps.hostDivf (FloatOps.addf
      (FloatOps.hostDivf (Host.reduceAdd (F := Ideal) (colsOut m c) (constant S_ .f32 0x00000000#32) reducesTo_S16x1x4096_S_d0_1_2 h_S_ i) (FloatOps.ofBits .f32 0x47800000#32))
      (FloatOps.hostDivf (Host.reduceAdd (F := Ideal) (rowsOut m c) (constant S_ .f32 0x00000000#32) reducesTo_S16x1x4096_S_d0_1_2 h_S_ i) (FloatOps.ofBits .f32 0x47800000#32)))
      (FloatOps.ofBits .f32 0x40000000#32) = _
  rw [tail_sum, tail_sum, sum_cols, sum_rows, Cert.ReferenceIdeal.Read.val_main_v24_apply, Cert.ReferenceIdeal.Read.val_main_v23_apply, Cert.ReferenceIdeal.Read.val_main_v18_apply,
    Cert.ReferenceIdeal.Read.val_main_v22_apply, Cert.ReferenceIdeal.Read.val_main_v17_apply, Cert.ReferenceIdeal.Read.val_main_v21_apply]
  rfl

/-- The run, read: the result at the reference's value of the arguments, the arguments unchanged. -/
theorem run : θ_run defs (onTc (τ := τ) (main (F := Ideal))) ⟨m, fun _ => 0, ρ⟩ fun r => ∀ c : Dev nD,
      r.2.mem ((c.tc : Thread nD τ).loc main_v12) = Cert.ReferenceIdeal.Read.val_main_v24 (F := Ideal) (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v12 (by decide)).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Hand

end
-- ==== Proof.lean ====
/-
  Chamfer distance between two point clouds, as one tiled kernel and as a whole-array reference.

  For a batch b of 4096 template points and 4096 source points in three dimensions let
    M b i j = max (|template b i|² + |source b j|² − 2 ⟨template b i, source b j⟩) 0,
  the clamped squared distance. Both programs return
    (mean over (b, j) of sqrt(min over i of M b i j) + mean over (b, i) of sqrt(min over j of M b i j)) / 2.
  The reference forms the whole 16 × 4096 × 4096 array M and reduces it along each axis. The kernel walks M in tiles of
  2048 × 2048 on a grid (batch, source tile, template tile), keeps the running row minima and column minima in two
  scratch vectors across the four tiles of a batch, and writes their square roots out at the batch's last tile; the
  means are taken on the host.

  Over the extended reals the two agree entry by entry: a tile's entry is M at the tile's offset; the two updates
  of an accumulator's half give min (min (+inf) A) B of the two tiles' minima, which is the minimum over the whole
  axis (only that `min` is a lattice operation is used — no finiteness, no arithmetic law); the sums run over the
  same numbers in another layout. The three frames: both kernels by running the body once per kind of grid point
  with the accumulators' contents tracked by halves, the reference by its straight-line run. The idealization
  rewrote nothing, so `preserves` is `True`.
-/
import proofs.«104914_j13314398618340_2_alg».proof.Defs
import proofs.«104914_j13314398618340_2_alg».proof.Proof.Gen.Kernel
import proofs.«104914_j13314398618340_2_alg».proof.Proof.Gen.KernelIdeal
import proofs.«104914_j13314398618340_2_alg».proof.Proof.Gen.ReferenceIdeal
import proofs.«104914_j13314398618340_2_alg».proof.Proof.Gen.Pre_finite_inputs
import proofs.«104914_j13314398618340_2_alg».proof.Proof.Gen.ReferenceIdeal.Run
import proofs.«104914_j13314398618340_2_alg».proof.Proof.K.Main
import proofs.«104914_j13314398618340_2_alg».proof.Proof.KI.Final
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the reference's value of the (agreeing) argument arrays. -/
theorem algebraic : Cert.algebraic_KernelIdeal_ReferenceIdeal := by
  intro m ρ m' ρ' _ hagree
  refine ⟨fun c => Cert.ReferenceIdeal.Read.val_main_v24 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
